-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1 : Shape := ⟨1, ![1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg7 : FVec F S1 .f32) (main_arg8 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4096 .f32 := Host.absf main_arg8
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096x4096 .f32) (main_arg3 : FVec F S4096x4096 .f32) (main_arg4 : IVec S4096x4096 32) (main_arg5 : IVec S4096x4096 32) (main_arg6 : IVec S4096x4096 32) (main_arg7 : FVec F S1 .f32) (main_arg8 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg7 main_arg8 main_v13 main_v16
-- ==== Kernel.lean ====
abbrev S8192x4096 : Shape := ⟨2, ![8192, 4096]⟩
abbrev S4096x4096 : Shape := ⟨2, ![4096, 4096]⟩
abbrev S1 : Shape := ⟨1, ![1]⟩
abbrev S4096 : Shape := ⟨1, ![4096]⟩
abbrev S1024x512 : Shape := ⟨2, ![1024, 512]⟩
abbrev S512x1024 : Shape := ⟨2, ![512, 1024]⟩
abbrev S1024x1024 : Shape := ⟨2, ![1024, 1024]⟩
abbrev S1x4096 : Shape := ⟨2, ![1, 4096]⟩
abbrev S1x1 : Shape := ⟨2, ![1, 1]⟩
abbrev S1x1024 : Shape := ⟨2, ![1, 1024]⟩

abbrev nBuf : Space → Nat
  | .hbm => 14
  | .vmem => 30
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .i32⟩
  | .hbm, ⟨5, _⟩ => ⟨S4096x4096, .i32⟩
  | .hbm, ⟨6, _⟩ => ⟨S4096x4096, .i32⟩
  | .hbm, ⟨7, _⟩ => ⟨S1, .f32⟩
  | .hbm, ⟨8, _⟩ => ⟨S4096, .f32⟩
  | .hbm, ⟨9, _⟩ => ⟨S8192x4096, .bf16⟩
  | .hbm, ⟨10, _⟩ => ⟨S8192x4096, .bf16⟩
  | .hbm, ⟨11, _⟩ => ⟨S1x4096, .f32⟩
  | .hbm, ⟨12, _⟩ => ⟨S1x1, .f32⟩
  | .hbm, ⟨13, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S512x1024, .i32⟩
  | .local _ .vmem, ⟨5, _⟩ => ⟨S512x1024, .i32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x512, .bf16⟩
  | .local _ .vmem, ⟨10, _⟩ => ⟨S1024x512, .bf16⟩
  | .local _ .vmem, ⟨11, _⟩ => ⟨S512x1024, .f32⟩
  | .local _ .vmem, ⟨12, _⟩ => ⟨S512x1024, .f32⟩
  | .local _ .vmem, ⟨13, _⟩ => ⟨S512x1024, .i32⟩
  | .local _ .vmem, ⟨14, _⟩ => ⟨S512x1024, .i32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x512, .bf16⟩
  | .local _ .vmem, ⟨19, _⟩ => ⟨S1024x512, .bf16⟩
  | .local _ .vmem, ⟨20, _⟩ => ⟨S512x1024, .f32⟩
  | .local _ .vmem, ⟨21, _⟩ => ⟨S512x1024, .f32⟩
  | .local _ .vmem, ⟨22, _⟩ => ⟨S512x1024, .i32⟩
  | .local _ .vmem, ⟨23, _⟩ => ⟨S512x1024, .i32⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 4, 8], ![false, false, false]⟩

def k2_cond2 (i : grid2.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  packedbf16_S1024x1024_S1024x1024_0_0 : (Rect.unit (s := S1024x1024) ![0, 0] S1024x1024.size inb_S1024x1024_S1024x1024_0_0).PackedRows (EltTy.packing .bf16)
  shapeCasts_S1024x512_S1024x512 : S1024x512.ShapeCasts S1024x512
  shapeCasts_S4096_S1x4096 : S4096.ShapeCasts S1x4096
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .i32 = 32 ∨ (Rect.block (s := S4096x4096) S512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .bf16 = 32 ∨ (Rect.block (s := S8192x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .i32 = 32 ∨ (Rect.block (s := S4096x4096) S512x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .bf16 = 32 ∨ (Rect.block (s := S8192x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .bf16 = 32 ∨ (Rect.block (s := S8192x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x4096.size a
  hwx2_2 : ∀ i : grid2.Coords, EltTy.bits .i32 = 32 ∨ (Rect.block (s := S4096x4096) S512x1024.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x4096.size a
  hwx2_5 : ∀ i : grid2.Coords, EltTy.bits .f32 = 32 ∨ (Rect.block (s := S8192x4096) S1024x1024.size (cc2_transform_5 i) (hinb2_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1024x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S1 : Shape := ⟨1, ![1]⟩
abbrev S4096 : Shape := ⟨1, ![4096]⟩
abbrev S1x1 : Shape := ⟨2, ![1, 1]⟩
abbrev S1x4096 : Shape := ⟨2, ![1, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .i32⟩
  | .hbm, ⟨5, _⟩ => ⟨S4096x4096, .i32⟩
  | .hbm, ⟨6, _⟩ => ⟨S4096x4096, .i32⟩
  | .hbm, ⟨7, _⟩ => ⟨S1, .f32⟩
  | .hbm, ⟨8, _⟩ => ⟨S4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S4096x4096, .f32⟩
  | .hbm, ⟨13, _⟩ => ⟨S4096x4096, .f32⟩
  | .hbm, ⟨14, _⟩ => ⟨S8192x4096, .f32⟩
  | .hbm, ⟨15, _⟩ => ⟨S4096x4096, .f32⟩
  | .hbm, ⟨16, _⟩ => ⟨S4096x4096, .f32⟩
  | .hbm, ⟨17, _⟩ => ⟨S8192x4096, .f32⟩
  | .hbm, ⟨18, _⟩ => ⟨S1x1, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S8192x4096_0_1 : S1x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KRuns.lean ====
/-
  The bodies of the three block-accumulating matrix-product kernels, case by case.

  A body works on one 1024 x 1024 block of its result and one 512-wide step of the contracted axis. It reads the step's block
  of the left matrix, of the weights and of the mask, and keeps a 1024 x 1024 accumulator in a buffer of its own. At the
  first step of the contracted axis it stores the zero block into the accumulator and then adds the step's product to it; at
  a middle step it adds the step's product to what the accumulator held; at the last step it does the same and then writes
  the accumulator out into the result's block (the last kernel: scaled, shifted by the bias row, cut off below at zero). Which
  of the three cases a grid point is in is decided by its coordinate along the contracted axis alone. Here each case is
  stated as a triple over the whole staging buffers: what the accumulator and the output buffer hold afterwards is the named
  payload of the loaded blocks (a load after a whole-buffer store reads what was stored), and every input buffer, and the
  output buffer where it is not stored into, is handed back as found.
-/
import proofs.«152980_j81037442940955_1_alg».proof.Proof.Gen.Kernel.Launch
import proofs.«152980_j81037442940955_1_alg».proof.Proof.Gen.Kernel.Skeleton
import proofs.«152980_j81037442940955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of every access of the three kernels, as a function. -/
theorem hz2 : (![0, 0] : Fin 2 → ℕ) = fun _ => 0 := by funext a; fin_cases a <;> rfl

/-- A whole-buffer load of the accumulator right after ONE whole-buffer store reads that store's payload. -/
theorem readCov_acc (v : View sig .tc .vmem S1024x1024 .f32) (w : S1024x1024.Idx → Elt F .f32) :
    v.readCov [⟨Rect.unit (s := S1024x1024) ![0, 0] S1024x1024.size inb_S1024x1024_S1024x1024_0_0, w⟩]
      (Rect.unit (s := S1024x1024) ![0, 0] S1024x1024.size inb_S1024x1024_S1024x1024_0_0).toLoadRect = w :=
  View.readCov_unit_zero v hz2 _ w

/-- The same with the extents spelt as numerals. -/
theorem readCov_acc' (v : View sig .tc .vmem S1024x1024 .f32) (w : S1024x1024.Idx → Elt F .f32) :
    v.readCov [⟨Rect.unit (s := S1024x1024) ![0, 0] ![1024, 1024] inb_S1024x1024_S1024x1024_0_0, w⟩]
      (Rect.unit (s := S1024x1024) ![0, 0] ![1024, 1024] inb_S1024x1024_S1024x1024_0_0).toLoadRect = w :=
  View.readCov_unit_zero v hz2 _ w

/-! ## Kernel 0: the branch conditions and the body's three cases -/

/-- The body's first branch is taken at the first block of the contracted axis, -/
abbrev first0 (i : grid0.Coords) : Prop := (Scalar.cmpi .ne (Scalar.extui (Scalar.cmpi .eq (BitVec.ofNat 32 (i 2).val) 0#32)) 0#32) = 1#1
/-- and its last at the last one. -/
abbrev last0 (i : grid0.Coords) : Prop := k0_cond2 i = 1#1

set_option maxHeartbeats 1000000 in
/-- At the first block the accumulator is zeroed and receives the block's product; the output buffer is left as found. -/
theorem runA0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : first0 i) (hc1 : ¬last0 i) (x0 : Vec F S1024x512 .f32) (x1 : Vec F S512x1024 .f32) (x2 : Vec F S512x1024 .i32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k0_pay2 x0 x1 x2 (k0_pay1 (F := F)))) -∗ K ⟨⟩))
      ⊢ wp frame (wpE (defs₀ (F := F)) Variants.none c none) E (cc0__matmul_mask_kernel i arg3 harg3 arg4 harg4 arg5 harg5 arg6 harg6 arg7 harg7) K := by
  simp only [cc0__matmul_mask_kernel_eq_skeleton]; unfold cc0__matmul_mask_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg3.eq_unread hf0; obtain rfl := harg4.eq_unread hf1; obtain rfl := harg5.eq_unread hf2; obtain rfl := harg6.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At a middle block the accumulator receives the block's product on top of what it held; the output buffer is left as found. -/
theorem runB0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first0 i) (hc1 : ¬last0 i) (x0 : Vec F S1024x512 .f32) (x1 : Vec F S512x1024 .f32) (x2 : Vec F S512x1024 .i32) (xs : Vec F S1024x1024 .f32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k0_pay2 x0 x1 x2 xs)) -∗ K ⟨⟩))
      ⊢ wp frame (wpE (defs₀ (F := F)) Variants.none c none) E (cc0__matmul_mask_kernel i arg3 harg3 arg4 harg4 arg5 harg5 arg6 harg6 arg7 harg7) K := by
  simp only [cc0__matmul_mask_kernel_eq_skeleton]; unfold cc0__matmul_mask_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2; obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At the last block the accumulator receives the last product and the output buffer the finished block. -/
theorem runC0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first0 i) (hc1 : last0 i) (x0 : Vec F S1024x512 .f32) (x1 : Vec F S512x1024 .f32) (x2 : Vec F S512x1024 .i32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 x2 xs)) ∗ owns (c : Thread nD τ) arg7 fullShare (k0_pay2 x0 x1 x2 xs)) -∗ K ⟨⟩))
      ⊢ wp frame (wpE (defs₀ (F := F)) Variants.none c none) E (cc0__matmul_mask_kernel i arg3 harg3 arg4 harg4 arg5 harg5 arg6 harg6 arg7 harg7) K := by
  simp only [cc0__matmul_mask_kernel_eq_skeleton]; unfold cc0__matmul_mask_kernel_skel
  unfold owns
  iintro ⟨⟨%f0, %hf0, H0⟩, ⟨%f1, %hf1, H1⟩, ⟨%f2, %hf2, H2⟩, ⟨%dout, %fo, -, HO⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_run_names
    rw [View.read_writes_eq_canon _ _ _ (fun y => ⟨_, List.mem_cons_self, View.mem_set_unit_zero hz2 inb_S1024x1024_S1024x1024_0_0 y⟩), View.canon_cons_unit_zero hz2]
    first | rfl | (simp only [readCov_acc, readCov_acc', View.readAt_eq_ld, Memref.IsWhole.read_unread, View.ld_unit_zero (S := S1024x512) hz2, View.ld_unit_zero (S := S512x1024) hz2, View.ld_unit_zero (S := S1024x1024) hz2])
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

/-! ## Kernel 1: the branch conditions and the body's three cases -/

/-- The body's first branch is taken at the first block of the contracted axis, -/
abbrev first1 (i : grid1.Coords) : Prop := (Scalar.cmpi .ne (Scalar.extui (Scalar.cmpi .eq (BitVec.ofNat 32 (i 2).val) 0#32)) 0#32) = 1#1
/-- and its last at the last one. -/
abbrev last1 (i : grid1.Coords) : Prop := k1_cond2 i = 1#1

set_option maxHeartbeats 1000000 in
/-- At the first block the accumulator is zeroed and receives the block's product; the output buffer is left as found. -/
theorem runA1 (c : Dev nD) (i : grid1.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : first1 i) (hc1 : ¬last1 i) (x0 : Vec F S1024x512 .bf16) (x1 : Vec F S512x1024 .f32) (x2 : Vec F S512x1024 .i32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 x0 x1 x2 (k1_pay1 (F := F)))) -∗ K ⟨⟩))
      ⊢ wp frame (wpE (defs₀ (F := F)) Variants.none c none) E (cc1__matmul_mask_kernel i arg3 harg3 arg4 harg4 arg5 harg5 arg6 harg6 arg7 harg7) K := by
  simp only [cc1__matmul_mask_kernel_eq_skeleton]; unfold cc1__matmul_mask_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg3.eq_unread hf0; obtain rfl := harg4.eq_unread hf1; obtain rfl := harg5.eq_unread hf2; obtain rfl := harg6.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At a middle block the accumulator receives the block's product on top of what it held; the output buffer is left as found. -/
theorem runB1 (c : Dev nD) (i : grid1.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first1 i) (hc1 : ¬last1 i) (x0 : Vec F S1024x512 .bf16) (x1 : Vec F S512x1024 .f32) (x2 : Vec F S512x1024 .i32) (xs : Vec F S1024x1024 .f32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 x0 x1 x2 xs)) -∗ K ⟨⟩))
      ⊢ wp frame (wpE (defs₀ (F := F)) Variants.none c none) E (cc1__matmul_mask_kernel i arg3 harg3 arg4 harg4 arg5 harg5 arg6 harg6 arg7 harg7) K := by
  simp only [cc1__matmul_mask_kernel_eq_skeleton]; unfold cc1__matmul_mask_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2; obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At the last block the accumulator receives the last product and the output buffer the finished block. -/
theorem runC1 (c : Dev nD) (i : grid1.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first1 i) (hc1 : last1 i) (x0 : Vec F S1024x512 .bf16) (x1 : Vec F S512x1024 .f32) (x2 : Vec F S512x1024 .i32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 x2 xs)) ∗ owns (c : Thread nD τ) arg7 fullShare (k1_pay2 x0 x1 x2 xs)) -∗ K ⟨⟩))
      ⊢ wp frame (wpE (defs₀ (F := F)) Variants.none c none) E (cc1__matmul_mask_kernel i arg3 harg3 arg4 harg4 arg5 harg5 arg6 harg6 arg7 harg7) K := by
  simp only [cc1__matmul_mask_kernel_eq_skeleton]; unfold cc1__matmul_mask_kernel_skel
  unfold owns
  iintro ⟨⟨%f0, %hf0, H0⟩, ⟨%f1, %hf1, H1⟩, ⟨%f2, %hf2, H2⟩, ⟨%dout, %fo, -, HO⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_run_names
    rw [View.read_writes_eq_canon _ _ _ (fun y => ⟨_, List.mem_cons_self, View.mem_set_unit_zero hz2 inb_S1024x1024_S1024x1024_0_0 y⟩), View.canon_cons_unit_zero hz2]
    first | rfl | (simp only [readCov_acc, readCov_acc', View.readAt_eq_ld, Memref.IsWhole.read_unread, View.ld_unit_zero (S := S1024x512) hz2, View.ld_unit_zero (S := S512x1024) hz2, View.ld_unit_zero (S := S1024x1024) hz2])
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

/-! ## Kernel 2: the branch conditions and the body's three cases -/

/-- The body's first branch is taken at the first block of the contracted axis, -/
abbrev first2 (i : grid2.Coords) : Prop := (Scalar.cmpi .ne (Scalar.extui (Scalar.cmpi .eq (BitVec.ofNat 32 (i 2).val) 0#32)) 0#32) = 1#1
/-- and its last at the last one. -/
abbrev last2 (i : grid2.Coords) : Prop := k2_cond2 i = 1#1

set_option maxHeartbeats 1000000 in
/-- At the first block the accumulator is zeroed and receives the block's product; the output buffer is left as found. -/
theorem runA2 (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1024x1024 .f32) (harg9 : arg9.IsWhole)
    (hc0 : first2 i) (hc1 : ¬last2 i) (x0 : Vec F S1024x512 .bf16) (x1 : Vec F S512x1024 .f32) (x2 : Vec F S512x1024 .i32) (x3 : Vec F S1x1024 .f32) (x4 : Vec F S1x1 .f32)
    (xi : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare xi ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi ∗ owns (c : Thread nD τ) arg9 fullShare (k2_pay2 x0 x1 x2 (k2_pay1 (F := F)))) -∗ K ⟨⟩))
      ⊢ wp frame (wpE (defs₀ (F := F)) Variants.none c none) E (cc2__matmul_mask_kernel i arg3 harg3 arg4 harg4 arg5 harg5 arg6 harg6 arg7 harg7 arg8 harg8 arg9 harg9) K := by
  simp only [cc2__matmul_mask_kernel_eq_skeleton]; unfold cc2__matmul_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])

set_option maxHeartbeats 1000000 in
/-- At a middle block the accumulator receives the block's product on top of what it held; the output buffer is left as found. -/
theorem runB2 (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1024x1024 .f32) (harg9 : arg9.IsWhole)
    (hc0 : ¬first2 i) (hc1 : ¬last2 i) (x0 : Vec F S1024x512 .bf16) (x1 : Vec F S512x1024 .f32) (x2 : Vec F S512x1024 .i32) (x3 : Vec F S1x1024 .f32) (x4 : Vec F S1x1 .f32) (xs : Vec F S1024x1024 .f32)
    (xi : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare xi ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi ∗ owns (c : Thread nD τ) arg9 fullShare (k2_pay2 x0 x1 x2 xs)) -∗ K ⟨⟩))
      ⊢ wp frame (wpE (defs₀ (F := F)) Variants.none c none) E (cc2__matmul_mask_kernel i arg3 harg3 arg4 harg4 arg5 harg5 arg6 harg6 arg7 harg7 arg8 harg8 arg9 harg9) K := by
  simp only [cc2__matmul_mask_kernel_eq_skeleton]; unfold cc2__matmul_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfo; obtain rfl := harg9.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])

set_option maxHeartbeats 1000000 in
/-- At the last block the accumulator receives the last product and the output buffer the finished block. -/
theorem runC2 (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1024x1024 .f32) (harg9 : arg9.IsWhole)
    (hc0 : ¬first2 i) (hc1 : last2 i) (x0 : Vec F S1024x512 .bf16) (x1 : Vec F S512x1024 .f32) (x2 : Vec F S512x1024 .i32) (x3 : Vec F S1x1024 .f32) (x4 : Vec F S1x1 .f32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (k2_pay3 (k2_pay2 x0 x1 x2 xs) x4 x3) ∗ owns (c : Thread nD τ) arg9 fullShare (k2_pay2 x0 x1 x2 xs)) -∗ K ⟨⟩))
      ⊢ wp frame (wpE (defs₀ (F := F)) Variants.none c none) E (cc2__matmul_mask_kernel i arg3 harg3 arg4 harg4 arg5 harg5 arg6 harg6 arg7 harg7 arg8 harg8 arg9 harg9) K := by
  simp only [cc2__matmul_mask_kernel_eq_skeleton]; unfold cc2__matmul_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fo, -, HO⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr
    swap; · iexact HO
    ipureintro
    sl_unfold_run_names
    rw [View.read_writes_eq_canon _ _ _ (fun y => ⟨_, List.mem_cons_self, View.mem_set_unit_zero hz2 inb_S1024x1024_S1024x1024_0_0 y⟩), View.canon_cons_unit_zero hz2]
    first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])

end Cert.Kernel.Fr

end
-- ==== Proof.KFrame.lean ====
/-
  The three kernel regions, each at a parameter `V` for the buffer contents it is entered with.

  Along a run of 8 consecutive grid points (one result block, the 8 steps of the contracted axis) the accumulator is
  zeroed at the first point and receives one block product per point; what it holds after point n is a recursion on n
  (the product at n added to zero when n is a multiple of 8, to what point n - 1 left otherwise). The region's invariant
  carries the accumulator at exactly these contents from point to point, beside every other buffer the kernel neither
  reads nor writes; before the first point and after the last it is the plain "every scoped buffer at some contents".
  Each input window's buffer holds its block of the array at every point, fetched there or not; the output window is
  idle, and not written back, except at the last point of a run, where it receives the finished block. From the three
  cases of the body this gives the obligation the pipeline asks at every point.
-/
import proofs.«152980_j81037442940955_1_alg».proof.Proof.KRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Separating conjunction re-associated, as an equation. -/
theorem sep_assoc_eq (A B C : sProp 𝕄) : iprop((A ∗ B) ∗ C) = iprop(A ∗ B ∗ C) :=
  BI.Entails.antisymm
    (show iprop((A ∗ B) ∗ C) ⊢ iprop(A ∗ B ∗ C) from by
      iintro ⟨⟨HA, HB⟩, HC⟩
      isplitl [HA]; · iexact HA
      isplitl [HB]; · iexact HB
      iexact HC)
    (show iprop(A ∗ B ∗ C) ⊢ iprop((A ∗ B) ∗ C) from by
      iintro ⟨HA, HB, HC⟩
      isplitl [HA HB]
      · isplitl [HA]; · iexact HA
        iexact HB
      iexact HC)

section Regions
-- The TensorCore's buffer contents when a region is entered: every region's half is stated at this parameter.
variable (V : (c : Dev nD) → (b : Ref sig .tc) → Buf (Elt F) ((c : Thread nD τ).loc b))

/-! # Kernel 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first branch is taken exactly at the points whose position along the contracted axis is 0, -/
theorem hfirst0 : ∀ t : Fin cfg0.N, first0 (grid0.coords t) ↔ t.val % 8 = 0 :=
  (by decide +kernel : ∀ t : Fin grid0.N, first0 (grid0.coords t) ↔ t.val % 8 = 0)
/-- the last exactly where it is 7. -/
theorem hlast0 : ∀ t : Fin cfg0.N, last0 (grid0.coords t) ↔ t.val % 8 = 7 :=
  (by decide +kernel : ∀ t : Fin grid0.N, last0 (grid0.coords t) ↔ t.val % 8 = 7)
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last block the output window is idle and not written back; at the last block it is live. -/
theorem idle0_out : ∀ t : Fin cfg0.N, ¬last0 (grid0.coords t) → cfg0.idle 3 (grid0.coords t) = true := by decide +kernel
theorem noflush0_out : ∀ t : Fin cfg0.N, ¬last0 (grid0.coords t) → (cfg0.win 3).flush t = false := by decide +kernel
theorem live0_out : ∀ t : Fin cfg0.N, last0 (grid0.coords t) → cfg0.idle 3 (grid0.coords t) = false := by decide +kernel

/-- The accumulator: a whole scoped buffer of the kernel's own, passed beside the windows. -/
abbrev scM0 : Memref sig .tc .vmem S1024x1024 .f32 := Memref.whole cc0_scratch0

/-- What the accumulator holds after point `n`: the block product at `n` added to zero at the first block of the
    contracted axis, and to what the point before left otherwise. -/
def acc0 (c : Dev nD) : (n : ℕ) → n < cfg0.N → Vec F S1024x1024 .f32
  | 0, hn => k0_pay2 (iblk0 V c 0 ⟨0, hn⟩) (iblk0 V c 1 ⟨0, hn⟩) (iblk0 V c 2 ⟨0, hn⟩) (k0_pay1 (F := F))
  | n + 1, hn => k0_pay2 (iblk0 V c 0 ⟨n + 1, hn⟩) (iblk0 V c 1 ⟨n + 1, hn⟩) (iblk0 V c 2 ⟨n + 1, hn⟩)
      (if (n + 1) % 8 = 0 then (k0_pay1 (F := F)) else acc0 c n (Nat.lt_of_succ_lt hn))

theorem acc0_first (c : Dev nD) (t : Fin cfg0.N) (h : t.val % 8 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => show k0_pay2 _ _ _ (if (n + 1) % 8 = 0 then _ else _) = _; rw [if_pos h]

theorem acc0_next (c : Dev nD) (t : Fin cfg0.N) (h : ¬t.val % 8 = 0) :
    acc0 V c t.val t.isLt = k0_pay2 (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 8 = 0 then _ else _) = _; rw [if_neg h]; rfl

/-- Every scoped buffer but the accumulator and the staging buffers, unopened, and the generator register: what the
    body neither reads nor writes. -/
def Rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the accumulator taken out of the scoped rest. -/
theorem PhiA0_eq (c : Dev nD) :
    (Pipeline.ΦA spec0 c : sProp 𝕄) = iprop((∃ d, owns (c : Thread nD τ) scM0 fullShare d) ∗ Rest0 (F := F) c) := by
  unfold Pipeline.ΦA Rest0; rw [scopedRest0_split]; simp only [scM0, owns_whole]
  exact sep_assoc_eq _ _ _

/-- The invariant before position `n`: the class's before the first point; afterwards the accumulator at what the point
    before left in it, beside the untouched rest. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ Rest0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (acc0 V c n hn) ∗ Rest0 (F := F) c) := rfl
theorem PhiS0_pos (c : Dev nD) (n : ℕ) (h : n ≤ cfg0.N) (hz : n ≠ 0) :
    PhiS0 V c n h = iprop(owns (c : Thread nD τ) scM0 fullShare (acc0 V c (n - 1) (by omega)) ∗ Rest0 (F := F) c) := by
  cases n with
  | zero => exact absurd rfl hz
  | succ n => rfl

/-- The proof data of pipeline 0 on core `c`: the arrays as the region finds them; each input's buffer left at its
    block, the output's at the finished block computed from the accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position along the contracted axis says which of
    the three cases the point is in; the invariant hands the body the accumulator at what the point before left (at
    anything where the body zeroes it first) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 256 := lt_of_lt_of_eq t.isLt (show cfg0.N = 256 from N_0)
  by_cases h0 : t.val % 8 = 0
  · have hf : first0 (grid0.coords t) := (hfirst0 t).mpr h0
    have hl : ¬last0 (grid0.coords t) := fun h => by have := (hlast0 t).mp h; omega
    rw [Dat.leavesExact_idle (dat0 V c) 3 t (idle0_out t hl) (noflush0_out t hl)]
    rw [acc0_first V c t h0]
    by_cases hz : t.val = 0
    · rw [PhiS0_castSucc V c t, PhiS0_zero V c _ _ hz, PhiA0_eq]
      iintro ⟨⟨HS, Hr⟩, Ho, ⟨%d0, H0⟩, ⟨%d1, H1⟩, ⟨%d2, H2⟩, ⟨%dO, HO⟩⟩
      iapply (runA0 c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
    · rw [PhiS0_castSucc V c t, PhiS0_pos V c _ _ hz]
      iintro ⟨⟨HS, Hr⟩, Ho, ⟨%d0, H0⟩, ⟨%d1, H1⟩, ⟨%d2, H2⟩, ⟨%dO, HO⟩⟩
      iapply (runA0 c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [HO]; · iexact HO
      isplitl [HS]; · iexists _; iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
  · have hf : ¬first0 (grid0.coords t) := fun h => h0 ((hfirst0 t).mp h)
    have hz : t.val ≠ 0 := fun h => h0 (by rw [h])
    rw [acc0_next V c t h0]
    rw [PhiS0_castSucc V c t, PhiS0_pos V c _ _ hz]
    by_cases h1 : t.val % 8 = 7
    · have hl : last0 (grid0.coords t) := (hlast0 t).mpr h1
      rw [show (dat0 V c).leavesExact 3 t = owns (c : Thread nD τ) (st0_3 t) fullShare ((dat0 V c).after 3 t) from by
        unfold Dat.leavesExact; rw [live0_out t hl], after0_3, acc0_next V c t h0]
      iintro ⟨⟨HS, Hr⟩, Ho, ⟨%d0, H0⟩, ⟨%d1, H1⟩, ⟨%d2, H2⟩, ⟨%dO, HO⟩⟩
      iapply (runC0 c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [HO]; · iexists _; iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexact HO
    · have hl : ¬last0 (grid0.coords t) := fun h => h1 ((hlast0 t).mp h)
      rw [Dat.leavesExact_idle (dat0 V c) 3 t (idle0_out t hl) (noflush0_out t hl)]
      iintro ⟨⟨HS, Hr⟩, Ho, ⟨%d0, H0⟩, ⟨%d1, H1⟩, ⟨%d2, H2⟩, ⟨%dO, HO⟩⟩
      iapply (runB0 c (grid0.coords t) _ _ _ _ _ _ _ _ _ _ hf hl (iblk0 V c 0 t) (iblk0 V c 1 t) (iblk0 V c 2 t) _ _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  have hN : cfg0.N = 256 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, Hr⟩
  isplitl [HS]
  · iexists _; iexact HS
  iexact Hr

/-! # Kernel 1 at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first branch is taken exactly at the points whose position along the contracted axis is 0, -/
theorem hfirst1 : ∀ t : Fin cfg1.N, first1 (grid1.coords t) ↔ t.val % 8 = 0 :=
  (by decide +kernel : ∀ t : Fin grid1.N, first1 (grid1.coords t) ↔ t.val % 8 = 0)
/-- the last exactly where it is 7. -/
theorem hlast1 : ∀ t : Fin cfg1.N, last1 (grid1.coords t) ↔ t.val % 8 = 7 :=
  (by decide +kernel : ∀ t : Fin grid1.N, last1 (grid1.coords t) ↔ t.val % 8 = 7)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last block the output window is idle and not written back; at the last block it is live. -/
theorem idle1_out : ∀ t : Fin cfg1.N, ¬last1 (grid1.coords t) → cfg1.idle 3 (grid1.coords t) = true := by decide +kernel
theorem noflush1_out : ∀ t : Fin cfg1.N, ¬last1 (grid1.coords t) → (cfg1.win 3).flush t = false := by decide +kernel
theorem live1_out : ∀ t : Fin cfg1.N, last1 (grid1.coords t) → cfg1.idle 3 (grid1.coords t) = false := by decide +kernel

/-- The accumulator: a whole scoped buffer of the kernel's own, passed beside the windows. -/
abbrev scM1 : Memref sig .tc .vmem S1024x1024 .f32 := Memref.whole cc1_scratch0

/-- What the accumulator holds after point `n`: the block product at `n` added to zero at the first block of the
    contracted axis, and to what the point before left otherwise. -/
def acc1 (c : Dev nD) : (n : ℕ) → n < cfg1.N → Vec F S1024x1024 .f32
  | 0, hn => k1_pay2 (iblk1 V c 0 ⟨0, hn⟩) (iblk1 V c 1 ⟨0, hn⟩) (iblk1 V c 2 ⟨0, hn⟩) (k1_pay1 (F := F))
  | n + 1, hn => k1_pay2 (iblk1 V c 0 ⟨n + 1, hn⟩) (iblk1 V c 1 ⟨n + 1, hn⟩) (iblk1 V c 2 ⟨n + 1, hn⟩)
      (if (n + 1) % 8 = 0 then (k1_pay1 (F := F)) else acc1 c n (Nat.lt_of_succ_lt hn))

theorem acc1_first (c : Dev nD) (t : Fin cfg1.N) (h : t.val % 8 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => show k1_pay2 _ _ _ (if (n + 1) % 8 = 0 then _ else _) = _; rw [if_pos h]

theorem acc1_next (c : Dev nD) (t : Fin cfg1.N) (h : ¬t.val % 8 = 0) :
    acc1 V c t.val t.isLt = k1_pay2 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h
  | succ n => show k1_pay2 _ _ _ (if (n + 1) % 8 = 0 then _ else _) = _; rw [if_neg h]; rfl

/-- Every scoped buffer but the accumulator and the staging buffers, unopened, and the generator register: what the
    body neither reads nor writes. -/
def Rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator taken out of the scoped rest. -/
theorem PhiA1_eq (c : Dev nD) :
    (Pipeline.ΦA spec1 c : sProp 𝕄) = iprop((∃ d, owns (c : Thread nD τ) scM1 fullShare d) ∗ Rest1 (F := F) c) := by
  unfold Pipeline.ΦA Rest1; rw [scopedRest1_split]; simp only [scM1, owns_whole]
  exact sep_assoc_eq _ _ _

/-- The invariant before position `n`: the class's before the first point; afterwards the accumulator at what the point
    before left in it, beside the untouched rest. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ Rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ Rest1 (F := F) c) := rfl
theorem PhiS1_pos (c : Dev nD) (n : ℕ) (h : n ≤ cfg1.N) (hz : n ≠ 0) :
    PhiS1 V c n h = iprop(owns (c : Thread nD τ) scM1 fullShare (acc1 V c (n - 1) (by omega)) ∗ Rest1 (F := F) c) := by
  cases n with
  | zero => exact absurd rfl hz
  | succ n => rfl

/-- The proof data of pipeline 1 on core `c`: the arrays as the region finds them; each input's buffer left at its
    block, the output's at the finished block computed from the accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position along the contracted axis says which of
    the three cases the point is in; the invariant hands the body the accumulator at what the point before left (at
    anything where the body zeroes it first) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  have hN : t.val < 256 := lt_of_lt_of_eq t.isLt (show cfg1.N = 256 from N_1)
  by_cases h0 : t.val % 8 = 0
  · have hf : first1 (grid1.coords t) := (hfirst1 t).mpr h0
    have hl : ¬last1 (grid1.coords t) := fun h => by have := (hlast1 t).mp h; omega
    rw [Dat.leavesExact_idle (dat1 V c) 3 t (idle1_out t hl) (noflush1_out t hl)]
    rw [acc1_first V c t h0]
    by_cases hz : t.val = 0
    · rw [PhiS1_castSucc V c t, PhiS1_zero V c _ _ hz, PhiA1_eq]
      iintro ⟨⟨HS, Hr⟩, Ho, ⟨%d0, H0⟩, ⟨%d1, H1⟩, ⟨%d2, H2⟩, ⟨%dO, HO⟩⟩
      iapply (runA1 c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
    · rw [PhiS1_castSucc V c t, PhiS1_pos V c _ _ hz]
      iintro ⟨⟨HS, Hr⟩, Ho, ⟨%d0, H0⟩, ⟨%d1, H1⟩, ⟨%d2, H2⟩, ⟨%dO, HO⟩⟩
      iapply (runA1 c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [HO]; · iexact HO
      isplitl [HS]; · iexists _; iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
  · have hf : ¬first1 (grid1.coords t) := fun h => h0 ((hfirst1 t).mp h)
    have hz : t.val ≠ 0 := fun h => h0 (by rw [h])
    rw [acc1_next V c t h0]
    rw [PhiS1_castSucc V c t, PhiS1_pos V c _ _ hz]
    by_cases h1 : t.val % 8 = 7
    · have hl : last1 (grid1.coords t) := (hlast1 t).mpr h1
      rw [show (dat1 V c).leavesExact 3 t = owns (c : Thread nD τ) (st1_3 t) fullShare ((dat1 V c).after 3 t) from by
        unfold Dat.leavesExact; rw [live1_out t hl], after1_3, acc1_next V c t h0]
      iintro ⟨⟨HS, Hr⟩, Ho, ⟨%d0, H0⟩, ⟨%d1, H1⟩, ⟨%d2, H2⟩, ⟨%dO, HO⟩⟩
      iapply (runC1 c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [HO]; · iexists _; iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexact HO
    · have hl : ¬last1 (grid1.coords t) := fun h => h1 ((hlast1 t).mp h)
      rw [Dat.leavesExact_idle (dat1 V c) 3 t (idle1_out t hl) (noflush1_out t hl)]
      iintro ⟨⟨HS, Hr⟩, Ho, ⟨%d0, H0⟩, ⟨%d1, H1⟩, ⟨%d2, H2⟩, ⟨%dO, HO⟩⟩
      iapply (runB1 c (grid1.coords t) _ _ _ _ _ _ _ _ _ _ hf hl (iblk1 V c 0 t) (iblk1 V c 1 t) (iblk1 V c 2 t) _ _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨HS, Hr⟩
  isplitl [HS]
  · iexists _; iexact HS
  iexact Hr

/-! # Kernel 2 at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The first branch is taken exactly at the points whose position along the contracted axis is 0, -/
theorem hfirst2 : ∀ t : Fin cfg2.N, first2 (grid2.coords t) ↔ t.val % 8 = 0 :=
  (by decide +kernel : ∀ t : Fin grid2.N, first2 (grid2.coords t) ↔ t.val % 8 = 0)
/-- the last exactly where it is 7. -/
theorem hlast2 : ∀ t : Fin cfg2.N, last2 (grid2.coords t) ↔ t.val % 8 = 7 :=
  (by decide +kernel : ∀ t : Fin grid2.N, last2 (grid2.coords t) ↔ t.val % 8 = 7)
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
/-- Away from the last block the output window is idle and not written back; at the last block it is live. -/
theorem idle2_out : ∀ t : Fin cfg2.N, ¬last2 (grid2.coords t) → cfg2.idle 5 (grid2.coords t) = true := by decide +kernel
theorem noflush2_out : ∀ t : Fin cfg2.N, ¬last2 (grid2.coords t) → (cfg2.win 5).flush t = false := by decide +kernel
theorem live2_out : ∀ t : Fin cfg2.N, last2 (grid2.coords t) → cfg2.idle 5 (grid2.coords t) = false := by decide +kernel

/-- The accumulator: a whole scoped buffer of the kernel's own, passed beside the windows. -/
abbrev scM2 : Memref sig .tc .vmem S1024x1024 .f32 := Memref.whole cc2_scratch0

/-- What the accumulator holds after point `n`: the block product at `n` added to zero at the first block of the
    contracted axis, and to what the point before left otherwise. -/
def acc2 (c : Dev nD) : (n : ℕ) → n < cfg2.N → Vec F S1024x1024 .f32
  | 0, hn => k2_pay2 (iblk2 V c 0 ⟨0, hn⟩) (iblk2 V c 1 ⟨0, hn⟩) (iblk2 V c 2 ⟨0, hn⟩) (k2_pay1 (F := F))
  | n + 1, hn => k2_pay2 (iblk2 V c 0 ⟨n + 1, hn⟩) (iblk2 V c 1 ⟨n + 1, hn⟩) (iblk2 V c 2 ⟨n + 1, hn⟩)
      (if (n + 1) % 8 = 0 then (k2_pay1 (F := F)) else acc2 c n (Nat.lt_of_succ_lt hn))

theorem acc2_first (c : Dev nD) (t : Fin cfg2.N) (h : t.val % 8 = 0) :
    acc2 V c t.val t.isLt = k2_pay2 (iblk2 V c 0 t) (iblk2 V c 1 t) (iblk2 V c 2 t) (k2_pay1 (F := F)) := by
  obtain ⟨n, hn⟩ := t
  cases n with
  | zero => rfl
  | succ n => show k2_pay2 _ _ _ (if (n + 1) % 8 = 0 then _ else _) = _; rw [if_pos h]

theorem acc2_next (c : Dev nD) (t : Fin cfg2.N) (h : ¬t.val % 8 = 0) :
    acc2 V c t.val t.isLt = k2_pay2 (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact absurd (Nat.zero_mod _) h
  | succ n => show k2_pay2 _ _ _ (if (n + 1) % 8 = 0 then _ else _) = _; rw [if_neg h]; rfl

/-- Every scoped buffer but the accumulator and the staging buffers, unopened, and the generator register: what the
    body neither reads nor writes. -/
def Rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator taken out of the scoped rest. -/
theorem PhiA2_eq (c : Dev nD) :
    (Pipeline.ΦA spec2 c : sProp 𝕄) = iprop((∃ d, owns (c : Thread nD τ) scM2 fullShare d) ∗ Rest2 (F := F) c) := by
  unfold Pipeline.ΦA Rest2; rw [scopedRest2_split]; simp only [scM2, owns_whole]
  exact sep_assoc_eq _ _ _

/-- The invariant before position `n`: the class's before the first point; afterwards the accumulator at what the point
    before left in it, beside the untouched rest. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ Rest2 (F := F) c)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (acc2 V c n hn) ∗ Rest2 (F := F) c) := rfl
theorem PhiS2_pos (c : Dev nD) (n : ℕ) (h : n ≤ cfg2.N) (hz : n ≠ 0) :
    PhiS2 V c n h = iprop(owns (c : Thread nD τ) scM2 fullShare (acc2 V c (n - 1) (by omega)) ∗ Rest2 (F := F) c) := by
  cases n with
  | zero => exact absurd rfl hz
  | succ n => rfl

/-- The proof data of pipeline 2 on core `c`: the arrays as the region finds them; each input's buffer left at its
    block, the output's at the finished block computed from the accumulator; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (iblk2 V c 4 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay3 (acc2 V c t.val t.isLt) (iblk2 V c 4 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the position along the contracted axis says which of
    the three cases the point is in; the invariant hands the body the accumulator at what the point before left (at
    anything where the body zeroes it first) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  have hN : t.val < 256 := lt_of_lt_of_eq t.isLt (show cfg2.N = 256 from N_2)
  by_cases h0 : t.val % 8 = 0
  · have hf : first2 (grid2.coords t) := (hfirst2 t).mpr h0
    have hl : ¬last2 (grid2.coords t) := fun h => by have := (hlast2 t).mp h; omega
    rw [Dat.leavesExact_idle (dat2 V c) 5 t (idle2_out t hl) (noflush2_out t hl)]
    rw [acc2_first V c t h0]
    by_cases hz : t.val = 0
    · rw [PhiS2_castSucc V c t, PhiS2_zero V c _ _ hz, PhiA2_eq]
      iintro ⟨⟨HS, Hr⟩, Ho, ⟨%d0, H0⟩, ⟨%d1, H1⟩, ⟨%d2, H2⟩, ⟨%d3, H3⟩, ⟨%d4, H4⟩, ⟨%dO, HO⟩⟩
      iapply (runA2 c (grid2.coords t) _ _ _ _ _ _ _ _ _ _ _ _ _ _ hf hl (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact HO
    · rw [PhiS2_castSucc V c t, PhiS2_pos V c _ _ hz]
      iintro ⟨⟨HS, Hr⟩, Ho, ⟨%d0, H0⟩, ⟨%d1, H1⟩, ⟨%d2, H2⟩, ⟨%d3, H3⟩, ⟨%d4, H4⟩, ⟨%dO, HO⟩⟩
      iapply (runA2 c (grid2.coords t) _ _ _ _ _ _ _ _ _ _ _ _ _ _ hf hl (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexists _; iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact HO
  · have hf : ¬first2 (grid2.coords t) := fun h => h0 ((hfirst2 t).mp h)
    have hz : t.val ≠ 0 := fun h => h0 (by rw [h])
    rw [acc2_next V c t h0]
    rw [PhiS2_castSucc V c t, PhiS2_pos V c _ _ hz]
    by_cases h1 : t.val % 8 = 7
    · have hl : last2 (grid2.coords t) := (hlast2 t).mpr h1
      rw [show (dat2 V c).leavesExact 5 t = owns (c : Thread nD τ) (st2_5 t) fullShare ((dat2 V c).after 5 t) from by
        unfold Dat.leavesExact; rw [live2_out t hl], after2_5, acc2_next V c t h0]
      iintro ⟨⟨HS, Hr⟩, Ho, ⟨%d0, H0⟩, ⟨%d1, H1⟩, ⟨%d2, H2⟩, ⟨%d3, H3⟩, ⟨%d4, H4⟩, ⟨%dO, HO⟩⟩
      iapply (runC2 c (grid2.coords t) _ _ _ _ _ _ _ _ _ _ _ _ _ _ hf hl (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [HO]; · iexists _; iexact HO
      isplitl [HS]; · iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact HO
    · have hl : ¬last2 (grid2.coords t) := fun h => h1 ((hlast2 t).mp h)
      rw [Dat.leavesExact_idle (dat2 V c) 5 t (idle2_out t hl) (noflush2_out t hl)]
      iintro ⟨⟨HS, Hr⟩, Ho, ⟨%d0, H0⟩, ⟨%d1, H1⟩, ⟨%d2, H2⟩, ⟨%d3, H3⟩, ⟨%d4, H4⟩, ⟨%dO, HO⟩⟩
      iapply (runB2 c (grid2.coords t) _ _ _ _ _ _ _ _ _ _ _ _ _ _ hf hl (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  have hN : cfg2.N = 256 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨HS, Hr⟩
  isplitl [HS]
  · iexists _; iexact HS
  iexact Hr

end Regions

end Cert.Kernel.Fr

end
-- ==== Proof.KRun.lean ====
/-
  @main from the launch to the return.

  The buffer contents at each boundary are a fold from the launch memory: after a kernel, its arrays hold what its
  write-backs leave and every other buffer what it held; after the two host reshapes, the bias as a one-row matrix and the
  scaling as a 1 x 1 matrix are added. No kernel and no host line writes an argument array (a kernel only reads it through an
  input window, or does not touch it), so every argument is read back at the end at its launch contents. Each kernel region
  is entered from "every unscoped buffer at the boundary's contents" and left at the next boundary's; the four items of
  @main are chained, and every weakly fair execution terminates with every unscoped buffer at the last boundary's
  contents — the result array among them.
-/
import proofs.«152980_j81037442940955_1_alg».proof.Proof.KFrame
import proofs.«152980_j81037442940955_1_alg».proof.Proof.Gen.Kernel.Regions

set_option maxRecDepth 16384

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch (kernel 0's entry). -/
abbrev Wa0 : Dev nD → Valuation τ sig (Elt F) := fun c b => (s₀ m ρ).mem ((c : Dev nD), b)
abbrev Va0 : (c : Dev nD) → (b : Ref sig .tc) → Buf (Elt F) ((c : Thread nD τ).loc b) := fun c b => Wa0 m ρ c b

/-- After kernel 0: its arrays at what its write-backs leave, every other buffer as entered. -/
def Wa1 (c : Dev nD) : Valuation τ sig (Elt F) :=
  Pipeline.withArrays spec0 c (Wa0 m ρ c) fun w => (dat0 (Va0 m ρ) c).arrAt w cfg0.N
theorem Wa1_arr (c : Dev nD) (w : Fin cfg0.W) :
    Wa1 m ρ c (Proc.devRef .tc (Pipeline.arrRef spec0 w)) = (dat0 (Va0 m ρ) c).arrAt w cfg0.N := by
  unfold Wa1; exact Pipeline.withArrays_arr spec0 launch0.win.arr_inj c _ _ w
theorem Wa1_of_ne (c : Dev nD) (b : Ref sig .tc) (hb : ∀ w, Pipeline.arrRef spec0 w ≠ b) :
    Wa1 m ρ c (Proc.devRef .tc b) = Wa0 m ρ c (Proc.devRef .tc b) := by
  unfold Wa1; exact Pipeline.withArrays_of_ne spec0 c _ _ b hb
abbrev Va1 : (c : Dev nD) → (b : Ref sig .tc) → Buf (Elt F) ((c : Thread nD τ).loc b) := fun c b => Wa1 m ρ c b
theorem hF0 (c : Dev nD) (w : Fin cfg0.W) : (dat0 (Va0 m ρ) c).arrAt w cfg0.N = Va1 m ρ c (Pipeline.arrRef spec0 w) :=
  (Wa1_arr m ρ c w).symm
theorem hrest0 (c : Dev nD) : ∀ b, b ∉ Finset.univ.image (Pipeline.arrRef spec0) → Va1 m ρ c b = Va0 m ρ c b :=
  fun b hb => Wa1_of_ne m ρ c b fun w e => hb (Finset.mem_image.mpr ⟨w, Finset.mem_univ _, e⟩)
/-- An input array of kernel 0 leaves the region as it entered. -/
theorem Wa1_in (c : Dev nD) (w : Fin cfg0.W) (hw : (cfg0.win w).isOut = false) :
    Wa1 m ρ c (Proc.devRef .tc (Pipeline.arrRef spec0 w)) = Wa0 m ρ c (Proc.devRef .tc (Pipeline.arrRef spec0 w)) :=
  (Wa1_arr m ρ c w).trans (((dat0 (Va0 m ρ) c).arrAt_in w hw _).trans (A_eq0 (Va0 m ρ) c w))

/-- After kernel 1: its arrays at what its write-backs leave, every other buffer as entered. -/
def Wa2 (c : Dev nD) : Valuation τ sig (Elt F) :=
  Pipeline.withArrays spec1 c (Wa1 m ρ c) fun w => (dat1 (Va1 m ρ) c).arrAt w cfg1.N
theorem Wa2_arr (c : Dev nD) (w : Fin cfg1.W) :
    Wa2 m ρ c (Proc.devRef .tc (Pipeline.arrRef spec1 w)) = (dat1 (Va1 m ρ) c).arrAt w cfg1.N := by
  unfold Wa2; exact Pipeline.withArrays_arr spec1 launch1.win.arr_inj c _ _ w
theorem Wa2_of_ne (c : Dev nD) (b : Ref sig .tc) (hb : ∀ w, Pipeline.arrRef spec1 w ≠ b) :
    Wa2 m ρ c (Proc.devRef .tc b) = Wa1 m ρ c (Proc.devRef .tc b) := by
  unfold Wa2; exact Pipeline.withArrays_of_ne spec1 c _ _ b hb
abbrev Va2 : (c : Dev nD) → (b : Ref sig .tc) → Buf (Elt F) ((c : Thread nD τ).loc b) := fun c b => Wa2 m ρ c b
theorem hF1 (c : Dev nD) (w : Fin cfg1.W) : (dat1 (Va1 m ρ) c).arrAt w cfg1.N = Va2 m ρ c (Pipeline.arrRef spec1 w) :=
  (Wa2_arr m ρ c w).symm
theorem hrest1 (c : Dev nD) : ∀ b, b ∉ Finset.univ.image (Pipeline.arrRef spec1) → Va2 m ρ c b = Va1 m ρ c b :=
  fun b hb => Wa2_of_ne m ρ c b fun w e => hb (Finset.mem_image.mpr ⟨w, Finset.mem_univ _, e⟩)
/-- An input array of kernel 1 leaves the region as it entered. -/
theorem Wa2_in (c : Dev nD) (w : Fin cfg1.W) (hw : (cfg1.win w).isOut = false) :
    Wa2 m ρ c (Proc.devRef .tc (Pipeline.arrRef spec1 w)) = Wa1 m ρ c (Proc.devRef .tc (Pipeline.arrRef spec1 w)) :=
  (Wa2_arr m ρ c w).trans (((dat1 (Va1 m ρ) c).arrAt_in w hw _).trans (A_eq1 (Va1 m ρ) c w))

/-- After the two host reshapes (kernel 2's entry). -/
abbrev Wa3 : Dev nD → Valuation τ sig (Elt F) := fun c => StableHlo.after hostOps2 (Wa2 m ρ c)
abbrev Va3 : (c : Dev nD) → (b : Ref sig .tc) → Buf (Elt F) ((c : Thread nD τ).loc b) := fun c b => Wa3 m ρ c b
theorem Wa3_of (c : Dev nD) (r : Ref sig .tc) (h : r ∉ hostOps2_W) : Wa3 m ρ c (Proc.devRef .tc r) = Wa2 m ρ c (Proc.devRef .tc r) :=
  StableHlo.after_of_writes_sub hostOps2 _ hostOps2_writes h

/-- After kernel 2: its arrays at what its write-backs leave, every other buffer as entered. -/
def Wa4 (c : Dev nD) : Valuation τ sig (Elt F) :=
  Pipeline.withArrays spec2 c (Wa3 m ρ c) fun w => (dat2 (Va3 m ρ) c).arrAt w cfg2.N
theorem Wa4_arr (c : Dev nD) (w : Fin cfg2.W) :
    Wa4 m ρ c (Proc.devRef .tc (Pipeline.arrRef spec2 w)) = (dat2 (Va3 m ρ) c).arrAt w cfg2.N := by
  unfold Wa4; exact Pipeline.withArrays_arr spec2 launch2.win.arr_inj c _ _ w
theorem Wa4_of_ne (c : Dev nD) (b : Ref sig .tc) (hb : ∀ w, Pipeline.arrRef spec2 w ≠ b) :
    Wa4 m ρ c (Proc.devRef .tc b) = Wa3 m ρ c (Proc.devRef .tc b) := by
  unfold Wa4; exact Pipeline.withArrays_of_ne spec2 c _ _ b hb
abbrev Va4 : (c : Dev nD) → (b : Ref sig .tc) → Buf (Elt F) ((c : Thread nD τ).loc b) := fun c b => Wa4 m ρ c b
theorem hF2 (c : Dev nD) (w : Fin cfg2.W) : (dat2 (Va3 m ρ) c).arrAt w cfg2.N = Va4 m ρ c (Pipeline.arrRef spec2 w) :=
  (Wa4_arr m ρ c w).symm
theorem hrest2 (c : Dev nD) : ∀ b, b ∉ Finset.univ.image (Pipeline.arrRef spec2) → Va4 m ρ c b = Va3 m ρ c b :=
  fun b hb => Wa4_of_ne m ρ c b fun w e => hb (Finset.mem_image.mpr ⟨w, Finset.mem_univ _, e⟩)
/-- An input array of kernel 2 leaves the region as it entered. -/
theorem Wa4_in (c : Dev nD) (w : Fin cfg2.W) (hw : (cfg2.win w).isOut = false) :
    Wa4 m ρ c (Proc.devRef .tc (Pipeline.arrRef spec2 w)) = Wa3 m ρ c (Proc.devRef .tc (Pipeline.arrRef spec2 w)) :=
  (Wa4_arr m ρ c w).trans (((dat2 (Va3 m ρ) c).arrAt_in w hw _).trans (A_eq2 (Va3 m ρ) c w))

/-! ## The arguments reach the end as launched -/
theorem Wa4_main_arg0 (c : Dev nD) : Wa4 m ρ c (Proc.devRef .tc main_arg0) = m ((c : Thread nD τ).loc main_arg0) :=
  (Wa4_of_ne m ρ c main_arg0 (by decide)).trans <| (Wa3_of m ρ c main_arg0 (by decide)).trans <| (Wa2_of_ne m ρ c main_arg0 (by decide)).trans <| (Wa1_in m ρ c 0 rfl).trans rfl
theorem Wa4_main_arg1 (c : Dev nD) : Wa4 m ρ c (Proc.devRef .tc main_arg1) = m ((c : Thread nD τ).loc main_arg1) :=
  (Wa4_of_ne m ρ c main_arg1 (by decide)).trans <| (Wa3_of m ρ c main_arg1 (by decide)).trans <| (Wa2_of_ne m ρ c main_arg1 (by decide)).trans <| (Wa1_in m ρ c 1 rfl).trans rfl
theorem Wa4_main_arg2 (c : Dev nD) : Wa4 m ρ c (Proc.devRef .tc main_arg2) = m ((c : Thread nD τ).loc main_arg2) :=
  (Wa4_of_ne m ρ c main_arg2 (by decide)).trans <| (Wa3_of m ρ c main_arg2 (by decide)).trans <| (Wa2_in m ρ c 1 rfl).trans <| (Wa1_of_ne m ρ c main_arg2 (by decide)).trans rfl
theorem Wa4_main_arg3 (c : Dev nD) : Wa4 m ρ c (Proc.devRef .tc main_arg3) = m ((c : Thread nD τ).loc main_arg3) :=
  (Wa4_in m ρ c 1 rfl).trans <| (Wa3_of m ρ c main_arg3 (by decide)).trans <| (Wa2_of_ne m ρ c main_arg3 (by decide)).trans <| (Wa1_of_ne m ρ c main_arg3 (by decide)).trans rfl
theorem Wa4_main_arg4 (c : Dev nD) : Wa4 m ρ c (Proc.devRef .tc main_arg4) = m ((c : Thread nD τ).loc main_arg4) :=
  (Wa4_of_ne m ρ c main_arg4 (by decide)).trans <| (Wa3_of m ρ c main_arg4 (by decide)).trans <| (Wa2_of_ne m ρ c main_arg4 (by decide)).trans <| (Wa1_in m ρ c 2 rfl).trans rfl
theorem Wa4_main_arg5 (c : Dev nD) : Wa4 m ρ c (Proc.devRef .tc main_arg5) = m ((c : Thread nD τ).loc main_arg5) :=
  (Wa4_of_ne m ρ c main_arg5 (by decide)).trans <| (Wa3_of m ρ c main_arg5 (by decide)).trans <| (Wa2_in m ρ c 2 rfl).trans <| (Wa1_of_ne m ρ c main_arg5 (by decide)).trans rfl
theorem Wa4_main_arg6 (c : Dev nD) : Wa4 m ρ c (Proc.devRef .tc main_arg6) = m ((c : Thread nD τ).loc main_arg6) :=
  (Wa4_in m ρ c 2 rfl).trans <| (Wa3_of m ρ c main_arg6 (by decide)).trans <| (Wa2_of_ne m ρ c main_arg6 (by decide)).trans <| (Wa1_of_ne m ρ c main_arg6 (by decide)).trans rfl
theorem Wa4_main_arg7 (c : Dev nD) : Wa4 m ρ c (Proc.devRef .tc main_arg7) = m ((c : Thread nD τ).loc main_arg7) :=
  (Wa4_of_ne m ρ c main_arg7 (by decide)).trans <| (Wa3_of m ρ c main_arg7 (by decide)).trans <| (Wa2_of_ne m ρ c main_arg7 (by decide)).trans <| (Wa1_of_ne m ρ c main_arg7 (by decide)).trans rfl
theorem Wa4_main_arg8 (c : Dev nD) : Wa4 m ρ c (Proc.devRef .tc main_arg8) = m ((c : Thread nD τ).loc main_arg8) :=
  (Wa4_of_ne m ρ c main_arg8 (by decide)).trans <| (Wa3_of m ρ c main_arg8 (by decide)).trans <| (Wa2_of_ne m ρ c main_arg8 (by decide)).trans <| (Wa1_of_ne m ρ c main_arg8 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va0 m ρ) c
  | ⟨1, _⟩ => fun c => dat1 (Va1 m ρ) c
  | ⟨2, _⟩ => fun c => dat2 (Va3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
/-- Kernel 0 over the thread state: entered from every unscoped buffer at the boundary before it, left at the one
    after it; the generator register into the class invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va0 m ρ) c).loose
  hwaits := Pipeline.hwaits_of_owed_zero _ _ _ _ L lv 0 fun _ _ => rfl
  pre c := iprop(StableHlo.held (c : Thread nD τ) (Pipeline.ucRefs τ sig) (Wa0 m ρ c) ∗ R c)
  post c := iprop(StableHlo.held (c : Thread nD τ) (Pipeline.ucRefs τ sig) (Wa1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (Va0 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout0 (Va0 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va0 m ρ c) (Va1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at the boundary before it, left at the one
    after it; the generator register into the class invariant and out; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Va1 m ρ) c).loose
  hwaits := Pipeline.hwaits_of_owed_zero _ _ _ _ L lv 1 fun _ _ => rfl
  pre c := iprop(StableHlo.held (c : Thread nD τ) (Pipeline.ucRefs τ sig) (Wa1 m ρ c) ∗ R c)
  post c := iprop(StableHlo.held (c : Thread nD τ) (Pipeline.ucRefs τ sig) (Wa2 m ρ c) ∗ R c)
  X c := iprop(∃ r, prngReg c r)
  Y c := iprop(∃ r, prngReg c r)
  Z c := Pipeline.unscopedRest (Ix := Unit) (Name := ℕ) (U := UR sig nD τ) (Lvl := ℕ) spec1 c (Va1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (Va1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout1 (Va1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Va1 m ρ c) (Va2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered from every unscoped buffer at the boundary before it, left at the one
    after it; the generator register into the class invariant and out; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Va3 m ρ) c).loose
  hwaits := Pipeline.hwaits_of_owed_zero _ _ _ _ L lv 2 fun _ _ => rfl
  pre c := iprop(StableHlo.held (c : Thread nD τ) (Pipeline.ucRefs τ sig) (Wa3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Va3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (Va3 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout2 (Va3 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Va3 m ρ c) (Va4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (Wa2 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c => h c)

/-- THE FRAME, read off the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (mem_uc main_arg0 (by decide))).trans (Wa4_main_arg0 m ρ c),
    (h c _ (mem_uc main_arg1 (by decide))).trans (Wa4_main_arg1 m ρ c),
    (h c _ (mem_uc main_arg2 (by decide))).trans (Wa4_main_arg2 m ρ c),
    (h c _ (mem_uc main_arg3 (by decide))).trans (Wa4_main_arg3 m ρ c),
    (h c _ (mem_uc main_arg4 (by decide))).trans (Wa4_main_arg4 m ρ c),
    (h c _ (mem_uc main_arg5 (by decide))).trans (Wa4_main_arg5 m ρ c),
    (h c _ (mem_uc main_arg6 (by decide))).trans (Wa4_main_arg6 m ρ c),
    (h c _ (mem_uc main_arg7 (by decide))).trans (Wa4_main_arg7 m ρ c),
    (h c _ (mem_uc main_arg8 (by decide))).trans (Wa4_main_arg8 m ρ c)⟩) (run_all m ρ)

end Cert.Kernel.Fr

end
-- ==== Proof.KIRuns.lean ====
/-
  The bodies of the three block-accumulating matrix-product kernels, case by case.

  A body works on one 1024 x 1024 block of its result and one 512-wide step of the contracted axis. It reads the step's block
  of the left matrix, of the weights and of the mask, and keeps a 1024 x 1024 accumulator in a buffer of its own. At the
  first step of the contracted axis it stores the zero block into the accumulator and then adds the step's product to it; at
  a middle step it adds the step's product to what the accumulator held; at the last step it does the same and then writes
  the accumulator out into the result's block (the last kernel: scaled, shifted by the bias row, cut off below at zero). Which
  of the three cases a grid point is in is decided by its coordinate along the contracted axis alone. Here each case is
  stated as a triple over the whole staging buffers: what the accumulator and the output buffer hold afterwards is the named
  payload of the loaded blocks (a load after a whole-buffer store reads what was stored), and every input buffer, and the
  output buffer where it is not stored into, is handed back as found.
-/
import proofs.«152980_j81037442940955_1_alg».proof.Proof.Gen.KernelIdeal.Launch
import proofs.«152980_j81037442940955_1_alg».proof.Proof.Gen.KernelIdeal.Skeleton
import proofs.«152980_j81037442940955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of every access of the three kernels, as a function. -/
theorem hz2 : (![0, 0] : Fin 2 → ℕ) = fun _ => 0 := by funext a; fin_cases a <;> rfl

/-- A whole-buffer load of the accumulator right after ONE whole-buffer store reads that store's payload. -/
theorem readCov_acc (v : View sig .tc .vmem S1024x1024 .f32) (w : S1024x1024.Idx → Elt F .f32) :
    v.readCov [⟨Rect.unit (s := S1024x1024) ![0, 0] S1024x1024.size inb_S1024x1024_S1024x1024_0_0, w⟩]
      (Rect.unit (s := S1024x1024) ![0, 0] S1024x1024.size inb_S1024x1024_S1024x1024_0_0).toLoadRect = w :=
  View.readCov_unit_zero v hz2 _ w

/-- The same with the extents spelt as numerals. -/
theorem readCov_acc' (v : View sig .tc .vmem S1024x1024 .f32) (w : S1024x1024.Idx → Elt F .f32) :
    v.readCov [⟨Rect.unit (s := S1024x1024) ![0, 0] ![1024, 1024] inb_S1024x1024_S1024x1024_0_0, w⟩]
      (Rect.unit (s := S1024x1024) ![0, 0] ![1024, 1024] inb_S1024x1024_S1024x1024_0_0).toLoadRect = w :=
  View.readCov_unit_zero v hz2 _ w

/-! ## Kernel 0: the branch conditions and the body's three cases -/

/-- The body's first branch is taken at the first block of the contracted axis, -/
abbrev first0 (i : grid0.Coords) : Prop := (Scalar.cmpi .ne (Scalar.extui (Scalar.cmpi .eq (BitVec.ofNat 32 (i 2).val) 0#32)) 0#32) = 1#1
/-- and its last at the last one. -/
abbrev last0 (i : grid0.Coords) : Prop := k0_cond2 i = 1#1

set_option maxHeartbeats 1000000 in
/-- At the first block the accumulator is zeroed and receives the block's product; the output buffer is left as found. -/
theorem runA0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : first0 i) (hc1 : ¬last0 i) (x0 : Vec F S1024x512 .f32) (x1 : Vec F S512x1024 .f32) (x2 : Vec F S512x1024 .i32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k0_pay2 x0 x1 x2 (k0_pay1 (F := F)))) -∗ K ⟨⟩))
      ⊢ wp frame (wpE (defs₀ (F := F)) Variants.none c none) E (cc0__matmul_mask_kernel i arg3 harg3 arg4 harg4 arg5 harg5 arg6 harg6 arg7 harg7) K := by
  simp only [cc0__matmul_mask_kernel_eq_skeleton]; unfold cc0__matmul_mask_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg3.eq_unread hf0; obtain rfl := harg4.eq_unread hf1; obtain rfl := harg5.eq_unread hf2; obtain rfl := harg6.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At a middle block the accumulator receives the block's product on top of what it held; the output buffer is left as found. -/
theorem runB0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first0 i) (hc1 : ¬last0 i) (x0 : Vec F S1024x512 .f32) (x1 : Vec F S512x1024 .f32) (x2 : Vec F S512x1024 .i32) (xs : Vec F S1024x1024 .f32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k0_pay2 x0 x1 x2 xs)) -∗ K ⟨⟩))
      ⊢ wp frame (wpE (defs₀ (F := F)) Variants.none c none) E (cc0__matmul_mask_kernel i arg3 harg3 arg4 harg4 arg5 harg5 arg6 harg6 arg7 harg7) K := by
  simp only [cc0__matmul_mask_kernel_eq_skeleton]; unfold cc0__matmul_mask_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2; obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At the last block the accumulator receives the last product and the output buffer the finished block. -/
theorem runC0 (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first0 i) (hc1 : last0 i) (x0 : Vec F S1024x512 .f32) (x1 : Vec F S512x1024 .f32) (x2 : Vec F S512x1024 .i32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 x2 xs)) ∗ owns (c : Thread nD τ) arg7 fullShare (k0_pay2 x0 x1 x2 xs)) -∗ K ⟨⟩))
      ⊢ wp frame (wpE (defs₀ (F := F)) Variants.none c none) E (cc0__matmul_mask_kernel i arg3 harg3 arg4 harg4 arg5 harg5 arg6 harg6 arg7 harg7) K := by
  simp only [cc0__matmul_mask_kernel_eq_skeleton]; unfold cc0__matmul_mask_kernel_skel
  unfold owns
  iintro ⟨⟨%f0, %hf0, H0⟩, ⟨%f1, %hf1, H1⟩, ⟨%f2, %hf2, H2⟩, ⟨%dout, %fo, -, HO⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_run_names
    rw [View.read_writes_eq_canon _ _ _ (fun y => ⟨_, List.mem_cons_self, View.mem_set_unit_zero hz2 inb_S1024x1024_S1024x1024_0_0 y⟩), View.canon_cons_unit_zero hz2]
    first | rfl | (simp only [readCov_acc, readCov_acc', View.readAt_eq_ld, Memref.IsWhole.read_unread, View.ld_unit_zero (S := S1024x512) hz2, View.ld_unit_zero (S := S512x1024) hz2, View.ld_unit_zero (S := S1024x1024) hz2])
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

/-! ## Kernel 1: the branch conditions and the body's three cases -/

/-- The body's first branch is taken at the first block of the contracted axis, -/
abbrev first1 (i : grid1.Coords) : Prop := (Scalar.cmpi .ne (Scalar.extui (Scalar.cmpi .eq (BitVec.ofNat 32 (i 2).val) 0#32)) 0#32) = 1#1
/-- and its last at the last one. -/
abbrev last1 (i : grid1.Coords) : Prop := k1_cond2 i = 1#1

set_option maxHeartbeats 1000000 in
/-- At the first block the accumulator is zeroed and receives the block's product; the output buffer is left as found. -/
theorem runA1 (c : Dev nD) (i : grid1.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : first1 i) (hc1 : ¬last1 i) (x0 : Vec F S1024x512 .bf16) (x1 : Vec F S512x1024 .f32) (x2 : Vec F S512x1024 .i32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 x0 x1 x2 (k1_pay1 (F := F)))) -∗ K ⟨⟩))
      ⊢ wp frame (wpE (defs₀ (F := F)) Variants.none c none) E (cc1__matmul_mask_kernel i arg3 harg3 arg4 harg4 arg5 harg5 arg6 harg6 arg7 harg7) K := by
  simp only [cc1__matmul_mask_kernel_eq_skeleton]; unfold cc1__matmul_mask_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  obtain rfl := harg3.eq_unread hf0; obtain rfl := harg4.eq_unread hf1; obtain rfl := harg5.eq_unread hf2; obtain rfl := harg6.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At a middle block the accumulator receives the block's product on top of what it held; the output buffer is left as found. -/
theorem runB1 (c : Dev nD) (i : grid1.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first1 i) (hc1 : ¬last1 i) (x0 : Vec F S1024x512 .bf16) (x1 : Vec F S512x1024 .f32) (x2 : Vec F S512x1024 .i32) (xs : Vec F S1024x1024 .f32)
    (xi : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi ∗ owns (c : Thread nD τ) arg7 fullShare (k1_pay2 x0 x1 x2 xs)) -∗ K ⟨⟩))
      ⊢ wp frame (wpE (defs₀ (F := F)) Variants.none c none) E (cc1__matmul_mask_kernel i arg3 harg3 arg4 harg4 arg5 harg5 arg6 harg6 arg7 harg7) K := by
  simp only [cc1__matmul_mask_kernel_eq_skeleton]; unfold cc1__matmul_mask_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2; obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

set_option maxHeartbeats 1000000 in
/-- At the last block the accumulator receives the last product and the output buffer the finished block. -/
theorem runC1 (c : Dev nD) (i : grid1.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1024x1024 .bf16) (harg6 : arg6.IsWhole) (arg7 : Memref sig .tc .vmem S1024x1024 .f32) (harg7 : arg7.IsWhole)
    (hc0 : ¬first1 i) (hc1 : last1 i) (x0 : Vec F S1024x512 .bf16) (x1 : Vec F S512x1024 .f32) (x2 : Vec F S512x1024 .i32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 x2 xs)) ∗ owns (c : Thread nD τ) arg7 fullShare (k1_pay2 x0 x1 x2 xs)) -∗ K ⟨⟩))
      ⊢ wp frame (wpE (defs₀ (F := F)) Variants.none c none) E (cc1__matmul_mask_kernel i arg3 harg3 arg4 harg4 arg5 harg5 arg6 harg6 arg7 harg7) K := by
  simp only [cc1__matmul_mask_kernel_eq_skeleton]; unfold cc1__matmul_mask_kernel_skel
  unfold owns
  iintro ⟨⟨%f0, %hf0, H0⟩, ⟨%f1, %hf1, H1⟩, ⟨%f2, %hf2, H2⟩, ⟨%dout, %fo, -, HO⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_run_names
    rw [View.read_writes_eq_canon _ _ _ (fun y => ⟨_, List.mem_cons_self, View.mem_set_unit_zero hz2 inb_S1024x1024_S1024x1024_0_0 y⟩), View.canon_cons_unit_zero hz2]
    first | rfl | (simp only [readCov_acc, readCov_acc', View.readAt_eq_ld, Memref.IsWhole.read_unread, View.ld_unit_zero (S := S1024x512) hz2, View.ld_unit_zero (S := S512x1024) hz2, View.ld_unit_zero (S := S1024x1024) hz2])
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1024x1024) hz2])

/-! ## Kernel 2: the branch conditions and the body's three cases -/

/-- The body's first branch is taken at the first block of the contracted axis, -/
abbrev first2 (i : grid2.Coords) : Prop := (Scalar.cmpi .ne (Scalar.extui (Scalar.cmpi .eq (BitVec.ofNat 32 (i 2).val) 0#32)) 0#32) = 1#1
/-- and its last at the last one. -/
abbrev last2 (i : grid2.Coords) : Prop := k2_cond2 i = 1#1

set_option maxHeartbeats 1000000 in
/-- At the first block the accumulator is zeroed and receives the block's product; the output buffer is left as found. -/
theorem runA2 (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1024x1024 .f32) (harg9 : arg9.IsWhole)
    (hc0 : first2 i) (hc1 : ¬last2 i) (x0 : Vec F S1024x512 .bf16) (x1 : Vec F S512x1024 .f32) (x2 : Vec F S512x1024 .i32) (x3 : Vec F S1x1024 .f32) (x4 : Vec F S1x1 .f32)
    (xi : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare xi ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi ∗ owns (c : Thread nD τ) arg9 fullShare (k2_pay2 x0 x1 x2 (k2_pay1 (F := F)))) -∗ K ⟨⟩))
      ⊢ wp frame (wpE (defs₀ (F := F)) Variants.none c none) E (cc2__matmul_mask_kernel i arg3 harg3 arg4 harg4 arg5 harg5 arg6 harg6 arg7 harg7 arg8 harg8 arg9 harg9) K := by
  simp only [cc2__matmul_mask_kernel_eq_skeleton]; unfold cc2__matmul_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])

set_option maxHeartbeats 1000000 in
/-- At a middle block the accumulator receives the block's product on top of what it held; the output buffer is left as found. -/
theorem runB2 (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1024x1024 .f32) (harg9 : arg9.IsWhole)
    (hc0 : ¬first2 i) (hc1 : ¬last2 i) (x0 : Vec F S1024x512 .bf16) (x1 : Vec F S512x1024 .f32) (x2 : Vec F S512x1024 .i32) (x3 : Vec F S1x1024 .f32) (x4 : Vec F S1x1 .f32) (xs : Vec F S1024x1024 .f32)
    (xi : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ owns (c : Thread nD τ) arg8 fullShare xi ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare xi ∗ owns (c : Thread nD τ) arg9 fullShare (k2_pay2 x0 x1 x2 xs)) -∗ K ⟨⟩))
      ⊢ wp frame (wpE (defs₀ (F := F)) Variants.none c none) E (cc2__matmul_mask_kernel i arg3 harg3 arg4 harg4 arg5 harg5 arg6 harg6 arg7 harg7 arg8 harg8 arg9 harg9) K := by
  simp only [cc2__matmul_mask_kernel_eq_skeleton]; unfold cc2__matmul_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hfo; obtain rfl := harg9.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr; · ipureintro; exact harg8.read_unread _
    iexact HO
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])

set_option maxHeartbeats 1000000 in
/-- At the last block the accumulator receives the last product and the output buffer the finished block. -/
theorem runC2 (c : Dev nD) (i : grid2.Coords) (arg3 : Memref sig .tc .vmem S1024x512 .bf16) (harg3 : arg3.IsWhole) (arg4 : Memref sig .tc .vmem S512x1024 .f32) (harg4 : arg4.IsWhole) (arg5 : Memref sig .tc .vmem S512x1024 .i32) (harg5 : arg5.IsWhole) (arg6 : Memref sig .tc .vmem S1x1024 .f32) (harg6 : arg6.IsWhole) (arg7 : Memref sig .tc .vmem S1x1 .f32) (harg7 : arg7.IsWhole) (arg8 : Memref sig .tc .vmem S1024x1024 .f32) (harg8 : arg8.IsWhole) (arg9 : Memref sig .tc .vmem S1024x1024 .f32) (harg9 : arg9.IsWhole)
    (hc0 : ¬first2 i) (hc1 : last2 i) (x0 : Vec F S1024x512 .bf16) (x1 : Vec F S512x1024 .f32) (x2 : Vec F S512x1024 .i32) (x3 : Vec F S1x1024 .f32) (x4 : Vec F S1x1 .f32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (k2_pay3 (k2_pay2 x0 x1 x2 xs) x4 x3) ∗ owns (c : Thread nD τ) arg9 fullShare (k2_pay2 x0 x1 x2 xs)) -∗ K ⟨⟩))
      ⊢ wp frame (wpE (defs₀ (F := F)) Variants.none c none) E (cc2__matmul_mask_kernel i arg3 harg3 arg4 harg4 arg5 harg5 arg6 harg6 arg7 harg7 arg8 harg8 arg9 harg9) K := by
  simp only [cc2__matmul_mask_kernel_eq_skeleton]; unfold cc2__matmul_mask_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fo, -, HO⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr
    swap; · iexact HO
    ipureintro
    sl_unfold_run_names
    rw [View.read_writes_eq_canon _ _ _ (fun y => ⟨_, List.mem_cons_self, View.mem_set_unit_zero hz2 inb_S1024x1024_S1024x1024_0_0 y⟩), View.canon_cons_unit_zero hz2]
    first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])
  iexists _; isplitr
  swap; · iexact HS
  ipureintro
  sl_unfold_run_names
  rw [View.read_writes_eq_canon _ _ _ (fun y => ⟨_, List.mem_cons_self, View.mem_set_unit_zero hz2 inb_S1024x1024_S1024x1024_0_0 y⟩), View.canon_cons_unit_zero hz2]
  first | rfl | (simp only [readCov_acc, readCov_acc', View.readAt_eq_ld, Memref.IsWhole.read_unread, View.ld_unit_zero (S := S1024x512) hz2, View.ld_unit_zero (S := S512x1024) hz2, View.ld_unit_zero (S := S1x1024) hz2, View.ld_unit_zero (S := S1x1) hz2, View.ld_unit_zero (S := S1024x1024) hz2])

end Cert.KernelIdeal.Fr

end
-- ==== Proof.KIFrame.lean ====
/-
  The three kernel regions, each at a parameter `V` for the buffer contents it is entered with.

  Along a run of 8 consecutive grid points (one result block, the 8 steps of the contracted axis) the accumulator is
  zeroed at the first point and receives one block product per point; what it holds after point n is a recursion on n
  (the product at n added to zero when n is a multiple of 8, to what point n - 1 left otherwise). The region's invariant
  carries the accumulator at exactly these contents from point to point, beside every other buffer the kernel neither
  reads nor writes; before the first point and after the last it is the plain "every scoped buffer at some contents".
  Each input window's buffer holds its block of the array at every point, fetched there or not; the output window is
  idle, and not written back, except at the last point of a run, where it receives the finished block. From the three
  cases of the body this gives the obligation the pipeline asks at every point.
-/
import proofs.«152980_j81037442940955_1_alg».proof.Proof.KIRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Separating conjunction re-associated, as an equation. -/
theorem sep_assoc_eq (A B C : sProp 𝕄) : iprop((A ∗ B) ∗ C) = iprop(A ∗ B ∗ C) :=
  BI.Entails.antisymm
    (show iprop((A ∗ B) ∗ C) ⊢ iprop(A ∗ B ∗ C) from by
      iintro ⟨⟨HA, HB⟩, HC⟩
      isplitl [HA]; · iexact HA
      isplitl [HB]; · iexact HB
      iexact HC)
    (show iprop(A ∗ B ∗ C) ⊢ iprop((A ∗ B) ∗ C) from by
      iintro ⟨HA, HB, HC⟩
      isplitl [HA HB]
      · isplitl [HA]; · iexact HA
        iexact HB
      iexact HC)

section Regions
-- The TensorCore's buffer contents when a region is entered: every region's half is stated at this parameter.
variable (V : (c : Dev nD) → (b : Ref sig .tc) → Buf (Elt F) ((c : Thread nD τ).loc b))

/-! # Kernel 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The first branch is taken exactly at the points whose position along the contracted axis is 0, -/
theorem hfirst0 : ∀ t : Fin cfg0.N, first0 (grid0.coords t) ↔ t.val % 8 = 0 :=
  (by decide +kernel : ∀ t : Fin grid0.N, first0 (grid0.coords t) ↔ t.val % 8 = 0)
/-- the last exactly where it is 7. -/
theorem hlast0 : ∀ t : Fin cfg0.N, last0 (grid0.coords t) ↔ t.val % 8 = 7 :=
  (by decide +kernel : ∀ t : Fin grid0.N, last0 (grid0.coords t) ↔ t.val % 8 = 7)
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last block the output window is idle and not written back; at the last block it is live. -/
theorem idle0_out : ∀ t : Fin cfg0.N, ¬last0 (grid0.coords t) → cfg0.idle 3 (grid0.coords t) = true := by decide +kernel
theorem noflush0_out : ∀ t : Fin cfg0.N, ¬last0 (grid0.coords t) → (cfg0.win 3).flush t = false := by decide +kernel
theorem live0_out : ∀ t : Fin cfg0.N, last0 (grid0.coords t) → cfg0.idle 3 (grid0.coords t) = false := by decide +kernel

/-- The accumulator: a whole scoped buffer of the kernel's own, passed beside the windows. -/
abbrev scM0 : Memref sig .tc .vmem S1024x1024 .f32 := Memref.whole cc0_scratch0

/-- What the accumulator holds after point `n`: the block product at `n` added to zero at the first block of the
    contracted axis, and to what the point before left otherwise. -/
def acc0 (c : Dev nD) : (n : ℕ) → n < cfg0.N → Vec F S1024x1024 .f32
  | 0, hn => k0_pay2 (iblk0 V c 0 ⟨0, hn⟩) (iblk0 V c 1 ⟨0, hn⟩) (iblk0 V c 2 ⟨0, hn⟩) (k0_pay1 (F := F))
  | n + 1, hn => k0_pay2 (iblk0 V c 0 ⟨n + 1, hn⟩) (iblk0 V c 1 ⟨n + 1, hn⟩) (iblk0 V c 2 ⟨n + 1, hn⟩)
      (if (n + 1) % 8 = 0 then (k0_pay1 (F := F)) else acc0 c n (Nat.lt_of_succ_lt hn))

theorem acc0_first (c : Dev nD) (t : Fin cfg0.N) (h : t.val % 8 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => show k0_pay2 _ _ _ (if (n + 1) % 8 = 0 then _ else _) = _; rw [if_pos h]

theorem acc0_next (c : Dev nD) (t : Fin cfg0.N) (h : ¬t.val % 8 = 0) :
    acc0 V c t.val t.isLt = k0_pay2 (iblk0 V c 0 t) (iblk0 V c 1 t) (iblk0 V c 2 t) (acc0 V c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 8 = 0 then _ else _) = _; rw [if_neg h]; rfl

/-- Every scoped buffer but the accumulator and the staging buffers, unopened, and the generator register: what the
    body neither reads nor writes. -/
def Rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the accumulator taken out of the scoped rest. -/
theorem PhiA0_eq (c : Dev nD) :
    (Pipeline.ΦA spec0 c : sProp 𝕄) = iprop((∃ d, owns (c : Thread nD τ) scM0 fullShare d) ∗ Rest0 (F := F) c) := by
  unfold Pipeline.ΦA Rest0; rw [scopedRest0_split]; simp only [scM0, owns_whole]
  exact sep_assoc_eq _ _ _

/-- The invariant before position `n`: the class's before the first point; afterwards the accumulator at what the point
    before left in it, beside the untouched rest. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ Rest0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (acc0 V c n hn) ∗ Rest0 (F := F) c) := rfl
theorem PhiS0_pos (c : Dev nD) (n : ℕ) (h : n ≤ cfg0.N) (hz : n ≠ 0) :
    PhiS0 V c n h = iprop(owns (c : Thread nD τ) scM0 fullShare (acc0 V c (n - 1) (by omega)) ∗ Rest0 (F := F) c) := by
  cases n with
  | zero => exact absurd rfl hz
  | succ n => rfl

/-- The proof data of pipeline 0 on core `c`: the arrays as the region finds them; each input's buffer left at its
    block, the output's at the finished block computed from the accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position along the contracted axis says which of
    the three cases the point is in; the invariant hands the body the accumulator at what the point before left (at
    anything where the body zeroes it first) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 256 := lt_of_lt_of_eq t.isLt (show cfg0.N = 256 from N_0)
  by_cases h0 : t.val % 8 = 0
  · have hf : first0 (grid0.coords t) := (hfirst0 t).mpr h0
    have hl : ¬last0 (grid0.coords t) := fun h => by have := (hlast0 t).mp h; omega
    rw [Dat.leavesExact_idle (dat0 V c) 3 t (idle0_out t hl) (noflush0_out t hl)]
    rw [acc0_first V c t h0]
    by_cases hz : t.val = 0
    · rw [PhiS0_castSucc V c t, PhiS0_zero V c _ _ hz, PhiA0_eq]
      iintro ⟨⟨HS, Hr⟩, Ho, ⟨%d0, H0⟩, ⟨%d1, H1⟩, ⟨%d2, H2⟩, ⟨%dO, HO⟩⟩
      iapply (runA0 c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
    · rw [PhiS0_castSucc V c t, PhiS0_pos V c _ _ hz]
      iintro ⟨⟨HS, Hr⟩, Ho, ⟨%d0, H0⟩, ⟨%d1, H1⟩, ⟨%d2, H2⟩, ⟨%dO, HO⟩⟩
      iapply (runA0 c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [HO]; · iexact HO
      isplitl [HS]; · iexists _; iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
  · have hf : ¬first0 (grid0.coords t) := fun h => h0 ((hfirst0 t).mp h)
    have hz : t.val ≠ 0 := fun h => h0 (by rw [h])
    rw [acc0_next V c t h0]
    rw [PhiS0_castSucc V c t, PhiS0_pos V c _ _ hz]
    by_cases h1 : t.val % 8 = 7
    · have hl : last0 (grid0.coords t) := (hlast0 t).mpr h1
      rw [show (dat0 V c).leavesExact 3 t = owns (c : Thread nD τ) (st0_3 t) fullShare ((dat0 V c).after 3 t) from by
        unfold Dat.leavesExact; rw [live0_out t hl], after0_3, acc0_next V c t h0]
      iintro ⟨⟨HS, Hr⟩, Ho, ⟨%d0, H0⟩, ⟨%d1, H1⟩, ⟨%d2, H2⟩, ⟨%dO, HO⟩⟩
      iapply (runC0 c (grid0.coords t) _ _ _ _ _ _ _ _ _ _ hf hl (iblk0 V c 0 t) (iblk0 V c 1 t) (iblk0 V c 2 t) _ Set.univ _)
      isplitl [H0]; · iexact H0
      isplitl [H1]; · iexact H1
      isplitl [H2]; · iexact H2
      isplitl [HO]; · iexists _; iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexact HO
    · have hl : ¬last0 (grid0.coords t) := fun h => h1 ((hlast0 t).mp h)
      rw [Dat.leavesExact_idle (dat0 V c) 3 t (idle0_out t hl) (noflush0_out t hl)]
      iintro ⟨⟨HS, Hr⟩, Ho, ⟨%d0, H0⟩, ⟨%d1, H1⟩, ⟨%d2, H2⟩, ⟨%dO, HO⟩⟩
      iapply (runB0 c (grid0.coords t) _ _ _ _ _ _ _ _ _ _ hf hl (iblk0 V c 0 t) (iblk0 V c 1 t) (iblk0 V c 2 t) _ _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  have hN : cfg0.N = 256 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, Hr⟩
  isplitl [HS]
  · iexists _; iexact HS
  iexact Hr

/-! # Kernel 1 at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first branch is taken exactly at the points whose position along the contracted axis is 0, -/
theorem hfirst1 : ∀ t : Fin cfg1.N, first1 (grid1.coords t) ↔ t.val % 8 = 0 :=
  (by decide +kernel : ∀ t : Fin grid1.N, first1 (grid1.coords t) ↔ t.val % 8 = 0)
/-- the last exactly where it is 7. -/
theorem hlast1 : ∀ t : Fin cfg1.N, last1 (grid1.coords t) ↔ t.val % 8 = 7 :=
  (by decide +kernel : ∀ t : Fin grid1.N, last1 (grid1.coords t) ↔ t.val % 8 = 7)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last block the output window is idle and not written back; at the last block it is live. -/
theorem idle1_out : ∀ t : Fin cfg1.N, ¬last1 (grid1.coords t) → cfg1.idle 3 (grid1.coords t) = true := by decide +kernel
theorem noflush1_out : ∀ t : Fin cfg1.N, ¬last1 (grid1.coords t) → (cfg1.win 3).flush t = false := by decide +kernel
theorem live1_out : ∀ t : Fin cfg1.N, last1 (grid1.coords t) → cfg1.idle 3 (grid1.coords t) = false := by decide +kernel

/-- The accumulator: a whole scoped buffer of the kernel's own, passed beside the windows. -/
abbrev scM1 : Memref sig .tc .vmem S1024x1024 .f32 := Memref.whole cc1_scratch0

/-- What the accumulator holds after point `n`: the block product at `n` added to zero at the first block of the
    contracted axis, and to what the point before left otherwise. -/
def acc1 (c : Dev nD) : (n : ℕ) → n < cfg1.N → Vec F S1024x1024 .f32
  | 0, hn => k1_pay2 (iblk1 V c 0 ⟨0, hn⟩) (iblk1 V c 1 ⟨0, hn⟩) (iblk1 V c 2 ⟨0, hn⟩) (k1_pay1 (F := F))
  | n + 1, hn => k1_pay2 (iblk1 V c 0 ⟨n + 1, hn⟩) (iblk1 V c 1 ⟨n + 1, hn⟩) (iblk1 V c 2 ⟨n + 1, hn⟩)
      (if (n + 1) % 8 = 0 then (k1_pay1 (F := F)) else acc1 c n (Nat.lt_of_succ_lt hn))

theorem acc1_first (c : Dev nD) (t : Fin cfg1.N) (h : t.val % 8 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => show k1_pay2 _ _ _ (if (n + 1) % 8 = 0 then _ else _) = _; rw [if_pos h]

theorem acc1_next (c : Dev nD) (t : Fin cfg1.N) (h : ¬t.val % 8 = 0) :
    acc1 V c t.val t.isLt = k1_pay2 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h
  | succ n => show k1_pay2 _ _ _ (if (n + 1) % 8 = 0 then _ else _) = _; rw [if_neg h]; rfl

/-- Every scoped buffer but the accumulator and the staging buffers, unopened, and the generator register: what the
    body neither reads nor writes. -/
def Rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator taken out of the scoped rest. -/
theorem PhiA1_eq (c : Dev nD) :
    (Pipeline.ΦA spec1 c : sProp 𝕄) = iprop((∃ d, owns (c : Thread nD τ) scM1 fullShare d) ∗ Rest1 (F := F) c) := by
  unfold Pipeline.ΦA Rest1; rw [scopedRest1_split]; simp only [scM1, owns_whole]
  exact sep_assoc_eq _ _ _

/-- The invariant before position `n`: the class's before the first point; afterwards the accumulator at what the point
    before left in it, beside the untouched rest. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ Rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ Rest1 (F := F) c) := rfl
theorem PhiS1_pos (c : Dev nD) (n : ℕ) (h : n ≤ cfg1.N) (hz : n ≠ 0) :
    PhiS1 V c n h = iprop(owns (c : Thread nD τ) scM1 fullShare (acc1 V c (n - 1) (by omega)) ∗ Rest1 (F := F) c) := by
  cases n with
  | zero => exact absurd rfl hz
  | succ n => rfl

/-- The proof data of pipeline 1 on core `c`: the arrays as the region finds them; each input's buffer left at its
    block, the output's at the finished block computed from the accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position along the contracted axis says which of
    the three cases the point is in; the invariant hands the body the accumulator at what the point before left (at
    anything where the body zeroes it first) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  have hN : t.val < 256 := lt_of_lt_of_eq t.isLt (show cfg1.N = 256 from N_1)
  by_cases h0 : t.val % 8 = 0
  · have hf : first1 (grid1.coords t) := (hfirst1 t).mpr h0
    have hl : ¬last1 (grid1.coords t) := fun h => by have := (hlast1 t).mp h; omega
    rw [Dat.leavesExact_idle (dat1 V c) 3 t (idle1_out t hl) (noflush1_out t hl)]
    rw [acc1_first V c t h0]
    by_cases hz : t.val = 0
    · rw [PhiS1_castSucc V c t, PhiS1_zero V c _ _ hz, PhiA1_eq]
      iintro ⟨⟨HS, Hr⟩, Ho, ⟨%d0, H0⟩, ⟨%d1, H1⟩, ⟨%d2, H2⟩, ⟨%dO, HO⟩⟩
      iapply (runA1 c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
    · rw [PhiS1_castSucc V c t, PhiS1_pos V c _ _ hz]
      iintro ⟨⟨HS, Hr⟩, Ho, ⟨%d0, H0⟩, ⟨%d1, H1⟩, ⟨%d2, H2⟩, ⟨%dO, HO⟩⟩
      iapply (runA1 c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [HO]; · iexact HO
      isplitl [HS]; · iexists _; iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO
  · have hf : ¬first1 (grid1.coords t) := fun h => h0 ((hfirst1 t).mp h)
    have hz : t.val ≠ 0 := fun h => h0 (by rw [h])
    rw [acc1_next V c t h0]
    rw [PhiS1_castSucc V c t, PhiS1_pos V c _ _ hz]
    by_cases h1 : t.val % 8 = 7
    · have hl : last1 (grid1.coords t) := (hlast1 t).mpr h1
      rw [show (dat1 V c).leavesExact 3 t = owns (c : Thread nD τ) (st1_3 t) fullShare ((dat1 V c).after 3 t) from by
        unfold Dat.leavesExact; rw [live1_out t hl], after1_3, acc1_next V c t h0]
      iintro ⟨⟨HS, Hr⟩, Ho, ⟨%d0, H0⟩, ⟨%d1, H1⟩, ⟨%d2, H2⟩, ⟨%dO, HO⟩⟩
      iapply (runC1 c (grid1.coords t) _ _ _ _ _ _ _ _ _ _ hf hl (iblk1 V c 0 t) (iblk1 V c 1 t) (iblk1 V c 2 t) _ Set.univ _)
      isplitl [H0]; · iexact H0
      isplitl [H1]; · iexact H1
      isplitl [H2]; · iexact H2
      isplitl [HO]; · iexists _; iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexact HO
    · have hl : ¬last1 (grid1.coords t) := fun h => h1 ((hlast1 t).mp h)
      rw [Dat.leavesExact_idle (dat1 V c) 3 t (idle1_out t hl) (noflush1_out t hl)]
      iintro ⟨⟨HS, Hr⟩, Ho, ⟨%d0, H0⟩, ⟨%d1, H1⟩, ⟨%d2, H2⟩, ⟨%dO, HO⟩⟩
      iapply (runB1 c (grid1.coords t) _ _ _ _ _ _ _ _ _ _ hf hl (iblk1 V c 0 t) (iblk1 V c 1 t) (iblk1 V c 2 t) _ _ Set.univ _)
      isplitl [H0]; · iexact H0
      isplitl [H1]; · iexact H1
      isplitl [H2]; · iexact H2
      isplitl [HO]; · iexact HO
      isplitl [HS]; · iexact HS
      iintro ⟨H0, H1, H2, HO, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the accumulator's contents forgotten. -/
theorem hout1 (c : Dev nD) : (dat1 V c).Φ (Fin.last cfg1.N) ⊢ Pipeline.ΦA spec1 c := by
  have hN : cfg1.N = 256 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨HS, Hr⟩
  isplitl [HS]
  · iexists _; iexact HS
  iexact Hr

/-! # Kernel 2 at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The first branch is taken exactly at the points whose position along the contracted axis is 0, -/
theorem hfirst2 : ∀ t : Fin cfg2.N, first2 (grid2.coords t) ↔ t.val % 8 = 0 :=
  (by decide +kernel : ∀ t : Fin grid2.N, first2 (grid2.coords t) ↔ t.val % 8 = 0)
/-- the last exactly where it is 7. -/
theorem hlast2 : ∀ t : Fin cfg2.N, last2 (grid2.coords t) ↔ t.val % 8 = 7 :=
  (by decide +kernel : ∀ t : Fin grid2.N, last2 (grid2.coords t) ↔ t.val % 8 = 7)
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
theorem live2_4 : ∀ t : Fin cfg2.N, cfg2.idle 4 (grid2.coords t) = false := by decide +kernel
/-- Away from the last block the output window is idle and not written back; at the last block it is live. -/
theorem idle2_out : ∀ t : Fin cfg2.N, ¬last2 (grid2.coords t) → cfg2.idle 5 (grid2.coords t) = true := by decide +kernel
theorem noflush2_out : ∀ t : Fin cfg2.N, ¬last2 (grid2.coords t) → (cfg2.win 5).flush t = false := by decide +kernel
theorem live2_out : ∀ t : Fin cfg2.N, last2 (grid2.coords t) → cfg2.idle 5 (grid2.coords t) = false := by decide +kernel

/-- The accumulator: a whole scoped buffer of the kernel's own, passed beside the windows. -/
abbrev scM2 : Memref sig .tc .vmem S1024x1024 .f32 := Memref.whole cc2_scratch0

/-- What the accumulator holds after point `n`: the block product at `n` added to zero at the first block of the
    contracted axis, and to what the point before left otherwise. -/
def acc2 (c : Dev nD) : (n : ℕ) → n < cfg2.N → Vec F S1024x1024 .f32
  | 0, hn => k2_pay2 (iblk2 V c 0 ⟨0, hn⟩) (iblk2 V c 1 ⟨0, hn⟩) (iblk2 V c 2 ⟨0, hn⟩) (k2_pay1 (F := F))
  | n + 1, hn => k2_pay2 (iblk2 V c 0 ⟨n + 1, hn⟩) (iblk2 V c 1 ⟨n + 1, hn⟩) (iblk2 V c 2 ⟨n + 1, hn⟩)
      (if (n + 1) % 8 = 0 then (k2_pay1 (F := F)) else acc2 c n (Nat.lt_of_succ_lt hn))

theorem acc2_first (c : Dev nD) (t : Fin cfg2.N) (h : t.val % 8 = 0) :
    acc2 V c t.val t.isLt = k2_pay2 (iblk2 V c 0 t) (iblk2 V c 1 t) (iblk2 V c 2 t) (k2_pay1 (F := F)) := by
  obtain ⟨n, hn⟩ := t
  cases n with
  | zero => rfl
  | succ n => show k2_pay2 _ _ _ (if (n + 1) % 8 = 0 then _ else _) = _; rw [if_pos h]

theorem acc2_next (c : Dev nD) (t : Fin cfg2.N) (h : ¬t.val % 8 = 0) :
    acc2 V c t.val t.isLt = k2_pay2 (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact absurd (Nat.zero_mod _) h
  | succ n => show k2_pay2 _ _ _ (if (n + 1) % 8 = 0 then _ else _) = _; rw [if_neg h]; rfl

/-- Every scoped buffer but the accumulator and the staging buffers, unopened, and the generator register: what the
    body neither reads nor writes. -/
def Rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator taken out of the scoped rest. -/
theorem PhiA2_eq (c : Dev nD) :
    (Pipeline.ΦA spec2 c : sProp 𝕄) = iprop((∃ d, owns (c : Thread nD τ) scM2 fullShare d) ∗ Rest2 (F := F) c) := by
  unfold Pipeline.ΦA Rest2; rw [scopedRest2_split]; simp only [scM2, owns_whole]
  exact sep_assoc_eq _ _ _

/-- The invariant before position `n`: the class's before the first point; afterwards the accumulator at what the point
    before left in it, beside the untouched rest. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ Rest2 (F := F) c)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (acc2 V c n hn) ∗ Rest2 (F := F) c) := rfl
theorem PhiS2_pos (c : Dev nD) (n : ℕ) (h : n ≤ cfg2.N) (hz : n ≠ 0) :
    PhiS2 V c n h = iprop(owns (c : Thread nD τ) scM2 fullShare (acc2 V c (n - 1) (by omega)) ∗ Rest2 (F := F) c) := by
  cases n with
  | zero => exact absurd rfl hz
  | succ n => rfl

/-- The proof data of pipeline 2 on core `c`: the arrays as the region finds them; each input's buffer left at its
    block, the output's at the finished block computed from the accumulator; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (iblk2 V c 4 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay3 (acc2 V c t.val t.isLt) (iblk2 V c 4 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' buffers hold their blocks; the position along the contracted axis says which of
    the three cases the point is in; the invariant hands the body the accumulator at what the point before left (at
    anything where the body zeroes it first) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2]
  rw [show (dat2 V c).leavesExact 3 t = owns (c : Thread nD τ) (st2_3 t) fullShare ((dat2 V c).after 3 t) from by
    unfold Dat.leavesExact; rw [live2_3 t], after2_3]
  rw [show (dat2 V c).leavesExact 4 t = owns (c : Thread nD τ) (st2_4 t) fullShare ((dat2 V c).after 4 t) from by
    unfold Dat.leavesExact; rw [live2_4 t], after2_4]
  have hN : t.val < 256 := lt_of_lt_of_eq t.isLt (show cfg2.N = 256 from N_2)
  by_cases h0 : t.val % 8 = 0
  · have hf : first2 (grid2.coords t) := (hfirst2 t).mpr h0
    have hl : ¬last2 (grid2.coords t) := fun h => by have := (hlast2 t).mp h; omega
    rw [Dat.leavesExact_idle (dat2 V c) 5 t (idle2_out t hl) (noflush2_out t hl)]
    rw [acc2_first V c t h0]
    by_cases hz : t.val = 0
    · rw [PhiS2_castSucc V c t, PhiS2_zero V c _ _ hz, PhiA2_eq]
      iintro ⟨⟨HS, Hr⟩, Ho, ⟨%d0, H0⟩, ⟨%d1, H1⟩, ⟨%d2, H2⟩, ⟨%d3, H3⟩, ⟨%d4, H4⟩, ⟨%dO, HO⟩⟩
      iapply (runA2 c (grid2.coords t) _ _ _ _ _ _ _ _ _ _ _ _ _ _ hf hl (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact HO
    · rw [PhiS2_castSucc V c t, PhiS2_pos V c _ _ hz]
      iintro ⟨⟨HS, Hr⟩, Ho, ⟨%d0, H0⟩, ⟨%d1, H1⟩, ⟨%d2, H2⟩, ⟨%d3, H3⟩, ⟨%d4, H4⟩, ⟨%dO, HO⟩⟩
      iapply (runA2 c (grid2.coords t) _ _ _ _ _ _ _ _ _ _ _ _ _ _ hf hl (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexists _; iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact HO
  · have hf : ¬first2 (grid2.coords t) := fun h => h0 ((hfirst2 t).mp h)
    have hz : t.val ≠ 0 := fun h => h0 (by rw [h])
    rw [acc2_next V c t h0]
    rw [PhiS2_castSucc V c t, PhiS2_pos V c _ _ hz]
    by_cases h1 : t.val % 8 = 7
    · have hl : last2 (grid2.coords t) := (hlast2 t).mpr h1
      rw [show (dat2 V c).leavesExact 5 t = owns (c : Thread nD τ) (st2_5 t) fullShare ((dat2 V c).after 5 t) from by
        unfold Dat.leavesExact; rw [live2_out t hl], after2_5, acc2_next V c t h0]
      iintro ⟨⟨HS, Hr⟩, Ho, ⟨%d0, H0⟩, ⟨%d1, H1⟩, ⟨%d2, H2⟩, ⟨%d3, H3⟩, ⟨%d4, H4⟩, ⟨%dO, HO⟩⟩
      iapply (runC2 c (grid2.coords t) _ _ _ _ _ _ _ _ _ _ _ _ _ _ hf hl (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [HO]; · iexists _; iexact HO
      isplitl [HS]; · iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexact HO
    · have hl : ¬last2 (grid2.coords t) := fun h => h1 ((hlast2 t).mp h)
      rw [Dat.leavesExact_idle (dat2 V c) 5 t (idle2_out t hl) (noflush2_out t hl)]
      iintro ⟨⟨HS, Hr⟩, Ho, ⟨%d0, H0⟩, ⟨%d1, H1⟩, ⟨%d2, H2⟩, ⟨%d3, H3⟩, ⟨%d4, H4⟩, ⟨%dO, HO⟩⟩
      iapply (runB2 c (grid2.coords t) _ _ _ _ _ _ _ _ _ _ _ _ _ _ hf hl (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      iexists _; iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- and after the last point the invariant gives it back, the accumulator's contents forgotten. -/
theorem hout2 (c : Dev nD) : (dat2 V c).Φ (Fin.last cfg2.N) ⊢ Pipeline.ΦA spec2 c := by
  have hN : cfg2.N = 256 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨HS, Hr⟩
  isplitl [HS]
  · iexists _; iexact HS
  iexact Hr

end Regions

end Cert.KernelIdeal.Fr

end
-- ==== Proof.KIRun.lean ====
/-
  @main from the launch to the return.

  The buffer contents at each boundary are a fold from the launch memory: after a kernel, its arrays hold what its
  write-backs leave and every other buffer what it held; after the two host reshapes, the bias as a one-row matrix and the
  scaling as a 1 x 1 matrix are added. No kernel and no host line writes an argument array (a kernel only reads it through an
  input window, or does not touch it), so every argument is read back at the end at its launch contents. Each kernel region
  is entered from "every unscoped buffer at the boundary's contents" and left at the next boundary's; the four items of
  @main are chained, and every weakly fair execution terminates with every unscoped buffer at the last boundary's
  contents — the result array among them.
-/
import proofs.«152980_j81037442940955_1_alg».proof.Proof.KIFrame
import proofs.«152980_j81037442940955_1_alg».proof.Proof.Gen.KernelIdeal.Regions

set_option maxRecDepth 16384

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch (kernel 0's entry). -/
abbrev Wa0 : Dev nD → Valuation τ sig (Elt F) := fun c b => (s₀ m ρ).mem ((c : Dev nD), b)
abbrev Va0 : (c : Dev nD) → (b : Ref sig .tc) → Buf (Elt F) ((c : Thread nD τ).loc b) := fun c b => Wa0 m ρ c b

/-- After kernel 0: its arrays at what its write-backs leave, every other buffer as entered. -/
def Wa1 (c : Dev nD) : Valuation τ sig (Elt F) :=
  Pipeline.withArrays spec0 c (Wa0 m ρ c) fun w => (dat0 (Va0 m ρ) c).arrAt w cfg0.N
theorem Wa1_arr (c : Dev nD) (w : Fin cfg0.W) :
    Wa1 m ρ c (Proc.devRef .tc (Pipeline.arrRef spec0 w)) = (dat0 (Va0 m ρ) c).arrAt w cfg0.N := by
  unfold Wa1; exact Pipeline.withArrays_arr spec0 launch0.win.arr_inj c _ _ w
theorem Wa1_of_ne (c : Dev nD) (b : Ref sig .tc) (hb : ∀ w, Pipeline.arrRef spec0 w ≠ b) :
    Wa1 m ρ c (Proc.devRef .tc b) = Wa0 m ρ c (Proc.devRef .tc b) := by
  unfold Wa1; exact Pipeline.withArrays_of_ne spec0 c _ _ b hb
abbrev Va1 : (c : Dev nD) → (b : Ref sig .tc) → Buf (Elt F) ((c : Thread nD τ).loc b) := fun c b => Wa1 m ρ c b
theorem hF0 (c : Dev nD) (w : Fin cfg0.W) : (dat0 (Va0 m ρ) c).arrAt w cfg0.N = Va1 m ρ c (Pipeline.arrRef spec0 w) :=
  (Wa1_arr m ρ c w).symm
theorem hrest0 (c : Dev nD) : ∀ b, b ∉ Finset.univ.image (Pipeline.arrRef spec0) → Va1 m ρ c b = Va0 m ρ c b :=
  fun b hb => Wa1_of_ne m ρ c b fun w e => hb (Finset.mem_image.mpr ⟨w, Finset.mem_univ _, e⟩)
/-- An input array of kernel 0 leaves the region as it entered. -/
theorem Wa1_in (c : Dev nD) (w : Fin cfg0.W) (hw : (cfg0.win w).isOut = false) :
    Wa1 m ρ c (Proc.devRef .tc (Pipeline.arrRef spec0 w)) = Wa0 m ρ c (Proc.devRef .tc (Pipeline.arrRef spec0 w)) :=
  (Wa1_arr m ρ c w).trans (((dat0 (Va0 m ρ) c).arrAt_in w hw _).trans (A_eq0 (Va0 m ρ) c w))

/-- After kernel 1: its arrays at what its write-backs leave, every other buffer as entered. -/
def Wa2 (c : Dev nD) : Valuation τ sig (Elt F) :=
  Pipeline.withArrays spec1 c (Wa1 m ρ c) fun w => (dat1 (Va1 m ρ) c).arrAt w cfg1.N
theorem Wa2_arr (c : Dev nD) (w : Fin cfg1.W) :
    Wa2 m ρ c (Proc.devRef .tc (Pipeline.arrRef spec1 w)) = (dat1 (Va1 m ρ) c).arrAt w cfg1.N := by
  unfold Wa2; exact Pipeline.withArrays_arr spec1 launch1.win.arr_inj c _ _ w
theorem Wa2_of_ne (c : Dev nD) (b : Ref sig .tc) (hb : ∀ w, Pipeline.arrRef spec1 w ≠ b) :
    Wa2 m ρ c (Proc.devRef .tc b) = Wa1 m ρ c (Proc.devRef .tc b) := by
  unfold Wa2; exact Pipeline.withArrays_of_ne spec1 c _ _ b hb
abbrev Va2 : (c : Dev nD) → (b : Ref sig .tc) → Buf (Elt F) ((c : Thread nD τ).loc b) := fun c b => Wa2 m ρ c b
theorem hF1 (c : Dev nD) (w : Fin cfg1.W) : (dat1 (Va1 m ρ) c).arrAt w cfg1.N = Va2 m ρ c (Pipeline.arrRef spec1 w) :=
  (Wa2_arr m ρ c w).symm
theorem hrest1 (c : Dev nD) : ∀ b, b ∉ Finset.univ.image (Pipeline.arrRef spec1) → Va2 m ρ c b = Va1 m ρ c b :=
  fun b hb => Wa2_of_ne m ρ c b fun w e => hb (Finset.mem_image.mpr ⟨w, Finset.mem_univ _, e⟩)
/-- An input array of kernel 1 leaves the region as it entered. -/
theorem Wa2_in (c : Dev nD) (w : Fin cfg1.W) (hw : (cfg1.win w).isOut = false) :
    Wa2 m ρ c (Proc.devRef .tc (Pipeline.arrRef spec1 w)) = Wa1 m ρ c (Proc.devRef .tc (Pipeline.arrRef spec1 w)) :=
  (Wa2_arr m ρ c w).trans (((dat1 (Va1 m ρ) c).arrAt_in w hw _).trans (A_eq1 (Va1 m ρ) c w))

/-- After the two host reshapes (kernel 2's entry). -/
abbrev Wa3 : Dev nD → Valuation τ sig (Elt F) := fun c => StableHlo.after hostOps2 (Wa2 m ρ c)
abbrev Va3 : (c : Dev nD) → (b : Ref sig .tc) → Buf (Elt F) ((c : Thread nD τ).loc b) := fun c b => Wa3 m ρ c b
theorem Wa3_of (c : Dev nD) (r : Ref sig .tc) (h : r ∉ hostOps2_W) : Wa3 m ρ c (Proc.devRef .tc r) = Wa2 m ρ c (Proc.devRef .tc r) :=
  StableHlo.after_of_writes_sub hostOps2 _ hostOps2_writes h

/-- After kernel 2: its arrays at what its write-backs leave, every other buffer as entered. -/
def Wa4 (c : Dev nD) : Valuation τ sig (Elt F) :=
  Pipeline.withArrays spec2 c (Wa3 m ρ c) fun w => (dat2 (Va3 m ρ) c).arrAt w cfg2.N
theorem Wa4_arr (c : Dev nD) (w : Fin cfg2.W) :
    Wa4 m ρ c (Proc.devRef .tc (Pipeline.arrRef spec2 w)) = (dat2 (Va3 m ρ) c).arrAt w cfg2.N := by
  unfold Wa4; exact Pipeline.withArrays_arr spec2 launch2.win.arr_inj c _ _ w
theorem Wa4_of_ne (c : Dev nD) (b : Ref sig .tc) (hb : ∀ w, Pipeline.arrRef spec2 w ≠ b) :
    Wa4 m ρ c (Proc.devRef .tc b) = Wa3 m ρ c (Proc.devRef .tc b) := by
  unfold Wa4; exact Pipeline.withArrays_of_ne spec2 c _ _ b hb
abbrev Va4 : (c : Dev nD) → (b : Ref sig .tc) → Buf (Elt F) ((c : Thread nD τ).loc b) := fun c b => Wa4 m ρ c b
theorem hF2 (c : Dev nD) (w : Fin cfg2.W) : (dat2 (Va3 m ρ) c).arrAt w cfg2.N = Va4 m ρ c (Pipeline.arrRef spec2 w) :=
  (Wa4_arr m ρ c w).symm
theorem hrest2 (c : Dev nD) : ∀ b, b ∉ Finset.univ.image (Pipeline.arrRef spec2) → Va4 m ρ c b = Va3 m ρ c b :=
  fun b hb => Wa4_of_ne m ρ c b fun w e => hb (Finset.mem_image.mpr ⟨w, Finset.mem_univ _, e⟩)
/-- An input array of kernel 2 leaves the region as it entered. -/
theorem Wa4_in (c : Dev nD) (w : Fin cfg2.W) (hw : (cfg2.win w).isOut = false) :
    Wa4 m ρ c (Proc.devRef .tc (Pipeline.arrRef spec2 w)) = Wa3 m ρ c (Proc.devRef .tc (Pipeline.arrRef spec2 w)) :=
  (Wa4_arr m ρ c w).trans (((dat2 (Va3 m ρ) c).arrAt_in w hw _).trans (A_eq2 (Va3 m ρ) c w))

/-! ## The arguments reach the end as launched -/
theorem Wa4_main_arg0 (c : Dev nD) : Wa4 m ρ c (Proc.devRef .tc main_arg0) = m ((c : Thread nD τ).loc main_arg0) :=
  (Wa4_of_ne m ρ c main_arg0 (by decide)).trans <| (Wa3_of m ρ c main_arg0 (by decide)).trans <| (Wa2_of_ne m ρ c main_arg0 (by decide)).trans <| (Wa1_in m ρ c 0 rfl).trans rfl
theorem Wa4_main_arg1 (c : Dev nD) : Wa4 m ρ c (Proc.devRef .tc main_arg1) = m ((c : Thread nD τ).loc main_arg1) :=
  (Wa4_of_ne m ρ c main_arg1 (by decide)).trans <| (Wa3_of m ρ c main_arg1 (by decide)).trans <| (Wa2_of_ne m ρ c main_arg1 (by decide)).trans <| (Wa1_in m ρ c 1 rfl).trans rfl
theorem Wa4_main_arg2 (c : Dev nD) : Wa4 m ρ c (Proc.devRef .tc main_arg2) = m ((c : Thread nD τ).loc main_arg2) :=
  (Wa4_of_ne m ρ c main_arg2 (by decide)).trans <| (Wa3_of m ρ c main_arg2 (by decide)).trans <| (Wa2_in m ρ c 1 rfl).trans <| (Wa1_of_ne m ρ c main_arg2 (by decide)).trans rfl
theorem Wa4_main_arg3 (c : Dev nD) : Wa4 m ρ c (Proc.devRef .tc main_arg3) = m ((c : Thread nD τ).loc main_arg3) :=
  (Wa4_in m ρ c 1 rfl).trans <| (Wa3_of m ρ c main_arg3 (by decide)).trans <| (Wa2_of_ne m ρ c main_arg3 (by decide)).trans <| (Wa1_of_ne m ρ c main_arg3 (by decide)).trans rfl
theorem Wa4_main_arg4 (c : Dev nD) : Wa4 m ρ c (Proc.devRef .tc main_arg4) = m ((c : Thread nD τ).loc main_arg4) :=
  (Wa4_of_ne m ρ c main_arg4 (by decide)).trans <| (Wa3_of m ρ c main_arg4 (by decide)).trans <| (Wa2_of_ne m ρ c main_arg4 (by decide)).trans <| (Wa1_in m ρ c 2 rfl).trans rfl
theorem Wa4_main_arg5 (c : Dev nD) : Wa4 m ρ c (Proc.devRef .tc main_arg5) = m ((c : Thread nD τ).loc main_arg5) :=
  (Wa4_of_ne m ρ c main_arg5 (by decide)).trans <| (Wa3_of m ρ c main_arg5 (by decide)).trans <| (Wa2_in m ρ c 2 rfl).trans <| (Wa1_of_ne m ρ c main_arg5 (by decide)).trans rfl
theorem Wa4_main_arg6 (c : Dev nD) : Wa4 m ρ c (Proc.devRef .tc main_arg6) = m ((c : Thread nD τ).loc main_arg6) :=
  (Wa4_in m ρ c 2 rfl).trans <| (Wa3_of m ρ c main_arg6 (by decide)).trans <| (Wa2_of_ne m ρ c main_arg6 (by decide)).trans <| (Wa1_of_ne m ρ c main_arg6 (by decide)).trans rfl
theorem Wa4_main_arg7 (c : Dev nD) : Wa4 m ρ c (Proc.devRef .tc main_arg7) = m ((c : Thread nD τ).loc main_arg7) :=
  (Wa4_of_ne m ρ c main_arg7 (by decide)).trans <| (Wa3_of m ρ c main_arg7 (by decide)).trans <| (Wa2_of_ne m ρ c main_arg7 (by decide)).trans <| (Wa1_of_ne m ρ c main_arg7 (by decide)).trans rfl
theorem Wa4_main_arg8 (c : Dev nD) : Wa4 m ρ c (Proc.devRef .tc main_arg8) = m ((c : Thread nD τ).loc main_arg8) :=
  (Wa4_of_ne m ρ c main_arg8 (by decide)).trans <| (Wa3_of m ρ c main_arg8 (by decide)).trans <| (Wa2_of_ne m ρ c main_arg8 (by decide)).trans <| (Wa1_of_ne m ρ c main_arg8 (by decide)).trans rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Va0 m ρ) c
  | ⟨1, _⟩ => fun c => dat1 (Va1 m ρ) c
  | ⟨2, _⟩ => fun c => dat2 (Va3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wa4 m ρ c) ∗ ∃ r, prngReg c r)

/-! ## The regions as segments -/

set_option backward.isDefEq.respectTransparency.types false in
/-- Kernel 0 over the thread state: entered from every unscoped buffer at the boundary before it, left at the one
    after it; the generator register into the class invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va0 m ρ) c).loose
  hwaits := Pipeline.hwaits_of_owed_zero _ _ _ _ L lv 0 fun _ _ => rfl
  pre c := iprop(StableHlo.held (c : Thread nD τ) (Pipeline.ucRefs τ sig) (Wa0 m ρ c) ∗ R c)
  post c := iprop(StableHlo.held (c : Thread nD τ) (Pipeline.ucRefs τ sig) (Wa1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (Va0 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout0 (Va0 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va0 m ρ c) (Va1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at the boundary before it, left at the one
    after it; the generator register into the class invariant and out; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Va1 m ρ) c).loose
  hwaits := Pipeline.hwaits_of_owed_zero _ _ _ _ L lv 1 fun _ _ => rfl
  pre c := iprop(StableHlo.held (c : Thread nD τ) (Pipeline.ucRefs τ sig) (Wa1 m ρ c) ∗ R c)
  post c := iprop(StableHlo.held (c : Thread nD τ) (Pipeline.ucRefs τ sig) (Wa2 m ρ c) ∗ R c)
  X c := iprop(∃ r, prngReg c r)
  Y c := iprop(∃ r, prngReg c r)
  Z c := Pipeline.unscopedRest (Ix := Unit) (Name := ℕ) (U := UR sig nD τ) (Lvl := ℕ) spec1 c (Va1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Va1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (Va1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout1 (Va1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Va1 m ρ c) (Va2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered from every unscoped buffer at the boundary before it, left at the one
    after it; the generator register into the class invariant and out; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Va3 m ρ) c).loose
  hwaits := Pipeline.hwaits_of_owed_zero _ _ _ _ L lv 2 fun _ _ => rfl
  pre c := iprop(StableHlo.held (c : Thread nD τ) (Pipeline.ucRefs τ sig) (Wa3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Va3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Va3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin2 (Va3 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout2 (Va3 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Va3 m ρ c) (Va4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (Wa2 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wa4 m ρ c) s')
      isplitl [Hh] <;> iassumption)
    (hQ := fun s h c => h c)

/-- THE FRAME, read off the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (mem_uc main_arg0 (by decide))).trans (Wa4_main_arg0 m ρ c),
    (h c _ (mem_uc main_arg1 (by decide))).trans (Wa4_main_arg1 m ρ c),
    (h c _ (mem_uc main_arg2 (by decide))).trans (Wa4_main_arg2 m ρ c),
    (h c _ (mem_uc main_arg3 (by decide))).trans (Wa4_main_arg3 m ρ c),
    (h c _ (mem_uc main_arg4 (by decide))).trans (Wa4_main_arg4 m ρ c),
    (h c _ (mem_uc main_arg5 (by decide))).trans (Wa4_main_arg5 m ρ c),
    (h c _ (mem_uc main_arg6 (by decide))).trans (Wa4_main_arg6 m ρ c),
    (h c _ (mem_uc main_arg7 (by decide))).trans (Wa4_main_arg7 m ρ c),
    (h c _ (mem_uc main_arg8 (by decide))).trans (Wa4_main_arg8 m ρ c)⟩) (run_all m ρ)

end Cert.KernelIdeal.Fr

end
-- ==== Proof.Spec.lean ====
/-
  The specification of the result, as one function of the argument arrays on the extended reals.

  With X an 8192 x 4096 matrix, K0, K1, K2 three 4096 x 4096 real matrices, M0, M1, M2 three 4096 x 4096 matrices of
  32-bit words, s a one-entry vector and b a vector of 4096 entries,

      out (p, q) = max ( s * (((X * W0) * W1) * W2) (p, q) + b q , 0 ),      Wn (k, q) = Kn (k, q) * (Mn (k, q) read as a signed integer),

  where every matrix product is the sum over the contracted index k, 0 <= k < 4096, of left (p, k) * right (k, q).
  Sums and products are those of the extended reals; no finiteness is assumed anywhere in this file. The file also
  states the two facts about sums a blockwise evaluation of such a product needs: the sum over 4096 indices is the sum over
  8 blocks of the sums over the 512 indices of a block, and eight successive additions to zero are the sum over 8 terms.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The shape of X and of the result: 8192 rows, 4096 columns. -/
abbrev SX : Shape := ⟨2, ![8192, 4096]⟩
/-- The shape of each weight matrix and each mask: 4096 x 4096. -/
abbrev SW : Shape := ⟨2, ![4096, 4096]⟩
/-- The shape of the scaling: one entry. -/
abbrev S1 : Shape := ⟨1, ![1]⟩
/-- The shape of the bias: 4096 entries. -/
abbrev SB : Shape := ⟨1, ![4096]⟩

/-! ## The operations on one value, on the extended reals -/

/-- A 32-bit word converted to a float is, exactly, the signed integer the word denotes. -/
theorem sitofp_f32 (w : BitVec 32) : FloatOps.sitofp (F := Ideal) .f32 w = ((w.toInt : ℝ) : EReal) := rfl

/-- A change of float format is the identity: narrowing. -/
theorem truncf_id {φ : FTy} (ψ : FTy) (h : ψ.bits < φ.bits) (x : Ideal φ) : FloatOps.truncf ψ h x = x := rfl

/-- A change of float format is the identity: widening. -/
theorem extf_id {φ : FTy} (ψ : FTy) (h : φ.bits < ψ.bits) (x : Ideal φ) : FloatOps.extf ψ h x = x := rfl

/-! ## The function -/

/-- A weight matrix after masking: the entry of `K` times the signed integer its mask word denotes. -/
def maskedW (K : SW.Idx → EReal) (M : SW.Idx → BitVec 32) : SW.Idx → EReal :=
  fun j => K j * (((M j).toInt : ℝ) : EReal)

theorem maskedW_apply (K : SW.Idx → EReal) (M : SW.Idx → BitVec 32) (j : SW.Idx) :
    maskedW K M j = K j * (((M j).toInt : ℝ) : EReal) := rfl

/-- The same entry spelt with the float operations: the product of `K j` and the conversion of `M j`. -/
theorem maskedW_ops (K : SW.Idx → EReal) (M : SW.Idx → BitVec 32) (j : SW.Idx) :
    maskedW K M j = FloatOps.mulf (F := Ideal) (φ := .f32) (K j) (FloatOps.sitofp (F := Ideal) .f32 (M j)) := rfl

/-- One matrix product: entry (p, q) is the sum over k of A (p, k) * W (k, q). -/
def layer (A : SX.Idx → EReal) (W : SW.Idx → EReal) : SX.Idx → EReal :=
  fun i => ∑ k : Fin 4096, A (ix2 (n0 := 8192) (n1 := 4096) (i 0) k) * W (ix2 (n0 := 4096) (n1 := 4096) k (i 1))

theorem layer_ix2 (A : SX.Idx → EReal) (W : SW.Idx → EReal) (p : Fin 8192) (q : Fin 4096) :
    layer A W (ix2 p q) = ∑ k : Fin 4096, A (ix2 p k) * W (ix2 k q) := rfl

/-- The result: scale the triple product, add the bias of the column, and take the maximum with zero. The zero is kept
    as the float word of +0.0, which denotes 0 (`G_ix2_zero`). -/
def G (x : SX.Idx → EReal) (k0 k1 k2 : SW.Idx → EReal) (m0 m1 m2 : SW.Idx → BitVec 32)
    (s : S1.Idx → EReal) (b : SB.Idx → EReal) : SX.Idx → EReal :=
  fun i => max (s (ix1 (0 : Fin 1)) * layer (layer (layer x (maskedW k0 m0)) (maskedW k1 m1)) (maskedW k2 m2) i
      + b (ix1 (n := 4096) (i 1))) (Ideal.ofBits .f32 0x00000000#32)

theorem G_ix2 (x : SX.Idx → EReal) (k0 k1 k2 : SW.Idx → EReal) (m0 m1 m2 : SW.Idx → BitVec 32)
    (s : S1.Idx → EReal) (b : SB.Idx → EReal) (p : Fin 8192) (q : Fin 4096) :
    G x k0 k1 k2 m0 m1 m2 s b (ix2 p q)
      = max (s (ix1 (0 : Fin 1)) * layer (layer (layer x (maskedW k0 m0)) (maskedW k1 m1)) (maskedW k2 m2) (ix2 p q)
          + b (ix1 q)) (Ideal.ofBits .f32 0x00000000#32) := rfl

theorem G_ix2_zero (x : SX.Idx → EReal) (k0 k1 k2 : SW.Idx → EReal) (m0 m1 m2 : SW.Idx → BitVec 32)
    (s : S1.Idx → EReal) (b : SB.Idx → EReal) (p : Fin 8192) (q : Fin 4096) :
    G x k0 k1 k2 m0 m1 m2 s b (ix2 p q)
      = max (s (ix1 (0 : Fin 1)) * layer (layer (layer x (maskedW k0 m0)) (maskedW k1 m1)) (maskedW k2 m2) (ix2 p q)
          + b (ix1 q)) 0 := by
  rw [G_ix2, Ideal.ofBits_zero_f32]

/-! ## Sums by blocks -/

/-- A sum over 4096 indices, taken block by block: 8 blocks of 512 consecutive indices. Only commutativity and
    associativity of the sum are used, so it holds for extended reals, infinite terms included. -/
theorem sum_blocks (g : Fin 4096 → EReal) :
    ∑ k : Fin 4096, g k = ∑ kk : Fin 8, ∑ l : Fin 512, g ⟨kk.val * 512 + l.val, by omega⟩ := by
  rw [← Fintype.sum_prod_type' (f := fun (kk : Fin 8) (l : Fin 512) => g ⟨kk.val * 512 + l.val, by omega⟩)]
  symm
  refine Fintype.sum_equiv (finProdFinEquiv (m := 8) (n := 512)) _ _ (fun a => ?_)
  refine congrArg g (Fin.ext ?_)
  show a.1.val * 512 + a.2.val = a.2.val + 512 * a.1.val
  omega

/-- Eight successive additions starting from zero are the sum of the eight terms. -/
theorem acc8 (f : Fin 8 → EReal) :
    ((((((((0 + f 0) + f 1) + f 2) + f 3) + f 4) + f 5) + f 6) + f 7) = ∑ kk : Fin 8, f kk := by
  rw [Fin.sum_univ_eight, zero_add]

end Cert.Spec

end
-- ==== Proof.KIAsm.lean ====
/-
  What the later kernels find in the buffers they read.

  Each argument array a later kernel reads is still at its launch contents when that kernel is entered, because nothing
  before it writes it. The bias reaches the last kernel reshaped from a vector of 4096 entries to a 1 x 4096 matrix, whose
  entry (0, q) is the vector's entry q; the scaling from a one-entry vector to a 1 x 1 matrix.
-/
import proofs.«152980_j81037442940955_1_alg».proof.Proof.KIRun
import proofs.«152980_j81037442940955_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Asm

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! # What each boundary holds of the buffers the later kernels read

No kernel and no host line writes an argument array before the kernel that reads it, so each is still the launch
contents there; the two host reshapes hand the bias as a one-row matrix and the scaling as a 1×1 matrix. -/

theorem keep1_main_arg2 (c : Dev nD) : Wa1 m ρ c (Proc.devRef .tc main_arg2) = m ((c : Thread nD τ).loc main_arg2) :=
  (Wa1_of_ne m ρ c main_arg2 (by decide)).trans rfl
theorem keep1_main_arg3 (c : Dev nD) : Wa1 m ρ c (Proc.devRef .tc main_arg3) = m ((c : Thread nD τ).loc main_arg3) :=
  (Wa1_of_ne m ρ c main_arg3 (by decide)).trans rfl
theorem keep1_main_arg5 (c : Dev nD) : Wa1 m ρ c (Proc.devRef .tc main_arg5) = m ((c : Thread nD τ).loc main_arg5) :=
  (Wa1_of_ne m ρ c main_arg5 (by decide)).trans rfl
theorem keep1_main_arg6 (c : Dev nD) : Wa1 m ρ c (Proc.devRef .tc main_arg6) = m ((c : Thread nD τ).loc main_arg6) :=
  (Wa1_of_ne m ρ c main_arg6 (by decide)).trans rfl
theorem keep1_main_arg7 (c : Dev nD) : Wa1 m ρ c (Proc.devRef .tc main_arg7) = m ((c : Thread nD τ).loc main_arg7) :=
  (Wa1_of_ne m ρ c main_arg7 (by decide)).trans rfl
theorem keep1_main_arg8 (c : Dev nD) : Wa1 m ρ c (Proc.devRef .tc main_arg8) = m ((c : Thread nD τ).loc main_arg8) :=
  (Wa1_of_ne m ρ c main_arg8 (by decide)).trans rfl
theorem keep2_main_arg3 (c : Dev nD) : Wa2 m ρ c (Proc.devRef .tc main_arg3) = m ((c : Thread nD τ).loc main_arg3) :=
  (Wa2_of_ne m ρ c main_arg3 (by decide)).trans (keep1_main_arg3 m ρ c)
theorem keep2_main_arg6 (c : Dev nD) : Wa2 m ρ c (Proc.devRef .tc main_arg6) = m ((c : Thread nD τ).loc main_arg6) :=
  (Wa2_of_ne m ρ c main_arg6 (by decide)).trans (keep1_main_arg6 m ρ c)
theorem keep2_main_arg7 (c : Dev nD) : Wa2 m ρ c (Proc.devRef .tc main_arg7) = m ((c : Thread nD τ).loc main_arg7) :=
  (Wa2_of_ne m ρ c main_arg7 (by decide)).trans (keep1_main_arg7 m ρ c)
theorem keep2_main_arg8 (c : Dev nD) : Wa2 m ρ c (Proc.devRef .tc main_arg8) = m ((c : Thread nD τ).loc main_arg8) :=
  (Wa2_of_ne m ρ c main_arg8 (by decide)).trans (keep1_main_arg8 m ρ c)
theorem keep3_main_arg3 (c : Dev nD) : Wa3 m ρ c (Proc.devRef .tc main_arg3) = m ((c : Thread nD τ).loc main_arg3) :=
  (Wa3_of m ρ c main_arg3 (by decide)).trans (keep2_main_arg3 m ρ c)
theorem keep3_main_arg6 (c : Dev nD) : Wa3 m ρ c (Proc.devRef .tc main_arg6) = m ((c : Thread nD τ).loc main_arg6) :=
  (Wa3_of m ρ c main_arg6 (by decide)).trans (keep2_main_arg6 m ρ c)

/-- A vector read as a one-row matrix: entry (0, q) is entry q. -/
theorem row_of_vec (x : S4096.Idx → EReal) (q : Fin 4096) :
    shapeCast S1x4096 x shapeCasts_S4096_S1x4096 (ix2 (0 : Fin 1) q) = x (ix1 q) := by
  refine shapeCast_apply x _ _ (ix1 q) ?_
  rw [Shape.rowMajor_val_one, Shape.rowMajor_val_two]
  show (q : ℕ) = ((0 : Fin 1) : ℕ) * 4096 + (q : ℕ)
  simp

/-- A one-entry vector read as a 1×1 matrix. -/
theorem one_of_vec (x : S1.Idx → EReal) :
    shapeCast S1x1 x shapeCasts_S1_S1x1 (ix2 (0 : Fin 1) (0 : Fin 1)) = x (ix1 (0 : Fin 1)) := by
  refine shapeCast_apply x _ _ (ix1 (0 : Fin 1)) ?_
  rw [Shape.rowMajor_val_one, Shape.rowMajor_val_two]
  show ((0 : Fin 1) : ℕ) = ((0 : Fin 1) : ℕ) * 1 + ((0 : Fin 1) : ℕ)
  simp

/-- Kernel 2 finds the bias, as a row, at the launch contents of the bias vector, -/
theorem bias_row (c : Dev nD) (q : Fin 4096) :
    (Wa3 (F := Ideal) m ρ c (Proc.devRef .tc main_v2) : S1x4096.Idx → EReal) (ix2 (0 : Fin 1) q)
      = m ((c : Thread nD τ).loc main_arg8) (ix1 q) := by
  have e : (Wa3 (F := Ideal) m ρ c (Proc.devRef .tc main_v2) : S1x4096.Idx → EReal)
      = fun i => shapeCast S1x4096 (Wa2 m ρ c (Proc.devRef .tc main_arg8)) shapeCasts_S4096_S1x4096 i := by
    show StableHlo.after hostOps2 (Wa2 m ρ c) (Proc.devRef .tc main_v2) = _
    after_results
    rfl
  rw [e, keep2_main_arg8 m ρ c]
  exact row_of_vec _ q

/-- and the scaling, as a 1×1 matrix, at the launch contents of the scaling vector. -/
theorem scaling_one (c : Dev nD) :
    (Wa3 (F := Ideal) m ρ c (Proc.devRef .tc main_v3) : S1x1.Idx → EReal) (ix2 (0 : Fin 1) (0 : Fin 1))
      = m ((c : Thread nD τ).loc main_arg7) (ix1 (0 : Fin 1)) := by
  have e : (Wa3 (F := Ideal) m ρ c (Proc.devRef .tc main_v3) : S1x1.Idx → EReal)
      = fun i => shapeCast S1x1 (Wa2 m ρ c (Proc.devRef .tc main_arg7)) shapeCasts_S1_S1x1 i := by
    show StableHlo.after hostOps2 (Wa2 m ρ c) (Proc.devRef .tc main_v3) = _
    after_results
    rfl
  rw [e, keep2_main_arg7 m ρ c]
  exact one_of_vec _

end Cert.KernelIdeal.Asm

end
-- ==== Proof.PayIdeal.lean ====
/-
  The arithmetic of the three kernels' bodies on the extended reals, entry by entry.

  Each of the three kernels works on a 1024 x 1024 block of its result and walks the contracted axis in 8 steps of 512. A body
  has three pieces. The first piece is the zero block the accumulator starts from. The second piece adds to the accumulator
  the product of a 1024 x 512 block of the left matrix with a 512 x 1024 block of the masked weights: at entry (r, c),

      acc (r, c) + sum over l < 512 of left (r, l) * ( K (l, c) * (M (l, c) read as a signed integer) ).

  On the extended reals a change of float format is the identity and a conversion of a 32-bit word is the signed integer it
  denotes, so nothing else happens in it; the matrix product into the zero block is the plain sum. The third piece writes the
  accumulator out: unchanged for the first two kernels, and for the last one scaled by the one scaling entry, shifted by
  the bias of the column and cut off below at zero. Last, the recurrence the accumulator obeys over the 8 steps is solved:
  it ends at the sum of the 8 increments.
-/
import proofs.«152980_j81037442940955_1_alg».proof.Proof.Gen.KernelIdeal.Skeleton
import proofs.«152980_j81037442940955_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PayIdeal

open Idealize.ShloMosaic Idealize.ShloMosaic.ValueIdx Cert.KernelIdeal Cert.KernelIdeal.Gen
open scoped BigOperators

/-! ## The block product at an entry -/

theorem lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product of a 1024 x 512 block and a 512 x 1024 block into the zero block: entry (r, c) is the sum over the 512
    contracted indices l of A (r, l) * B (l, c). -/
theorem mm_apply (A : FVec Ideal S1024x512 .bf16) (B : FVec Ideal S512x1024 .bf16) (r c : Fin 1024) :
    matmul dot_S1024x512_S512x1024_S1024x1024_1_0_0_1_n_n none A B (constant S1024x1024 .f32 0x00000000#32) (ix2 r c)
      = ∑ l : Fin 512, A (ix2 r l) * B (ix2 l c) := by
  refine (Ideal.matmul_constant_zero_apply dot_S1024x512_S512x1024_S1024x1024_1_0_0_1_n_n none A B (ix2 r c)).trans ?_
  rw [← Equiv.sum_comp (contrEquiv1 dot_S1024x512_S512x1024_S1024x1024_1_0_0_1_n_n 512 rfl rfl).symm]
  refine Finset.sum_congr rfl fun l _ => ?_
  have hk := contrEquiv1_symm_val dot_S1024x512_S512x1024_S1024x1024_1_0_0_1_n_n 512 rfl rfl l
  have el : dot_S1024x512_S512x1024_S1024x1024_1_0_0_1_n_n.lhsIdx (ix2 r c) ((contrEquiv1 dot_S1024x512_S512x1024_S1024x1024_1_0_0_1_n_n 512 rfl rfl).symm l) = ix2 r l :=
    funext fun a => Fin.ext (by
      match a with
      | ⟨0, _⟩ => exact lhs_0 _ _
      | ⟨1, _⟩ => exact (lhs_1 _ _).trans hk)
  have er : dot_S1024x512_S512x1024_S1024x1024_1_0_0_1_n_n.rhsIdx (ix2 r c) ((contrEquiv1 dot_S1024x512_S512x1024_S1024x1024_1_0_0_1_n_n 512 rfl rfl).symm l) = ix2 l c :=
    funext fun a => Fin.ext (by
      match a with
      | ⟨0, _⟩ => exact (rhs_0 _ _).trans hk
      | ⟨1, _⟩ => exact rhs_1 _ _)
  rw [el, er]

/-! ## The first piece: the zero block -/

theorem pay1_apply_k0 (r c : Fin 1024) : k0_pay1 (F := Ideal) (ix2 r c) = 0 := by
  unfold k0_pay1
  rw [shapeCast_self, broadcast_apply]
  exact Ideal.ofBits_zero_f32
theorem pay1_apply_k1 (r c : Fin 1024) : k1_pay1 (F := Ideal) (ix2 r c) = 0 := by
  unfold k1_pay1
  rw [shapeCast_self, broadcast_apply]
  exact Ideal.ofBits_zero_f32
theorem pay1_apply_k2 (r c : Fin 1024) : k2_pay1 (F := Ideal) (ix2 r c) = 0 := by
  unfold k2_pay1
  rw [shapeCast_self, broadcast_apply]
  exact Ideal.ofBits_zero_f32

/-! ## The second piece: one step of the accumulation -/

theorem pay2_apply_k0 (v3 : Vec Ideal S1024x512 .f32) (v5 : Vec Ideal S512x1024 .f32) (v6 : Vec Ideal S512x1024 .i32)
    (v10 : Vec Ideal S1024x1024 .f32) (r c : Fin 1024) :
    k0_pay2 (F := Ideal) v3 v5 v6 v10 (ix2 r c)
      = v10 (ix2 r c) + ∑ l : Fin 512, v3 (ix2 r l) * (v5 (ix2 l c) * (((v6 (ix2 l c)).toInt : ℝ) : EReal)) := by
  unfold k0_pay2
  refine (congrFun (shapeCast_self _ _) (ix2 r c)).trans ?_
  rw [addf_apply]
  refine congrArg (v10 (ix2 r c) + ·) ?_
  refine (mm_apply _ _ r c).trans ?_
  refine Finset.sum_congr rfl fun l _ => ?_
  rfl

theorem pay2_apply_k1 (v3 : Vec Ideal S1024x512 .bf16) (v5 : Vec Ideal S512x1024 .f32) (v6 : Vec Ideal S512x1024 .i32)
    (v10 : Vec Ideal S1024x1024 .f32) (r c : Fin 1024) :
    k1_pay2 (F := Ideal) v3 v5 v6 v10 (ix2 r c)
      = v10 (ix2 r c) + ∑ l : Fin 512, v3 (ix2 r l) * (v5 (ix2 l c) * (((v6 (ix2 l c)).toInt : ℝ) : EReal)) := by
  unfold k1_pay2
  refine (congrFun (shapeCast_self _ _) (ix2 r c)).trans ?_
  rw [addf_apply]
  refine congrArg (v10 (ix2 r c) + ·) ?_
  refine (mm_apply _ _ r c).trans ?_
  refine Finset.sum_congr rfl fun l _ => ?_
  rw [shapeCast_self]
  rfl

theorem pay2_apply_k2 (v3 : Vec Ideal S1024x512 .bf16) (v5 : Vec Ideal S512x1024 .f32) (v6 : Vec Ideal S512x1024 .i32)
    (v10 : Vec Ideal S1024x1024 .f32) (r c : Fin 1024) :
    k2_pay2 (F := Ideal) v3 v5 v6 v10 (ix2 r c)
      = v10 (ix2 r c) + ∑ l : Fin 512, v3 (ix2 r l) * (v5 (ix2 l c) * (((v6 (ix2 l c)).toInt : ℝ) : EReal)) := by
  unfold k2_pay2
  refine (congrFun (shapeCast_self _ _) (ix2 r c)).trans ?_
  rw [addf_apply]
  refine congrArg (v10 (ix2 r c) + ·) ?_
  refine (mm_apply _ _ r c).trans ?_
  refine Finset.sum_congr rfl fun l _ => ?_
  rw [shapeCast_self]
  rfl

/-! ## The third piece: what is written out -/

theorem pay3_apply_k0 (v19 : Vec Ideal S1024x1024 .f32) (r c : Fin 1024) :
    k0_pay3 (F := Ideal) v19 (ix2 r c) = v19 (ix2 r c) := rfl
theorem pay3_apply_k1 (v19 : Vec Ideal S1024x1024 .f32) (r c : Fin 1024) :
    k1_pay3 (F := Ideal) v19 (ix2 r c) = v19 (ix2 r c) := rfl

/-- The last kernel's output: the scaling entry times the accumulator, plus the bias of the column, and the maximum of
    that with zero. -/
theorem pay3_apply_k2 (v19 : Vec Ideal S1024x1024 .f32) (v20 : Vec Ideal S1x1 .f32) (v24 : Vec Ideal S1x1024 .f32)
    (r c : Fin 1024) :
    k2_pay3 (F := Ideal) v19 v20 v24 (ix2 r c)
      = max (v20 (ix2 (0 : Fin 1) (0 : Fin 1)) * v19 (ix2 r c) + v24 (ix2 (0 : Fin 1) c)) 0 := by
  unfold k2_pay3
  rw [maximumf_apply, addf_apply, mulf_apply, broadcast_apply, broadcast_apply, shapeCast_self,
    broadcastTo_1b_ab_apply, Ideal.ofBits_def, Ideal.ofBits_zero_f32]
  have e : (fun a : Fin S1x1.rank => (⟨![0, 0] a, inpos_S1x1_p0_0 a⟩ : S1x1.Coord a)) = ix2 (0 : Fin 1) (0 : Fin 1) :=
    funext fun a => Fin.ext (by match a with | ⟨0, _⟩ => rfl | ⟨1, _⟩ => rfl)
  unfold extractAt
  rw [e]

/-! ## The accumulation over the 8 steps -/

/-- A sequence that restarts from zero at every multiple of 8 and otherwise adds its increment to the previous value is, at
    the last step of a run of 8, the sum of the run's 8 increments. -/
theorem acc_closed (B a : ℕ → EReal) (h0 : ∀ n, n % 8 = 0 → a n = 0 + B n)
    (hs : ∀ n, n % 8 ≠ 0 → a n = a (n - 1) + B n) (n : ℕ) (hn : n % 8 = 7) :
    a n = ∑ kk : Fin 8, B (n - 7 + kk.val) := by
  obtain ⟨m, rfl⟩ : ∃ m, n = m + 7 := ⟨n - 7, by omega⟩
  have hm : m % 8 = 0 := by omega
  have key : a (m + 7) = 0 + B m + B (m + 1) + B (m + 2) + B (m + 3) + B (m + 4) + B (m + 5) + B (m + 6) + B (m + 7) := by
    rw [hs (m + 7) (by omega), show m + 7 - 1 = m + 6 from rfl, hs (m + 6) (by omega), show m + 6 - 1 = m + 5 from rfl,
      hs (m + 5) (by omega), show m + 5 - 1 = m + 4 from rfl, hs (m + 4) (by omega), show m + 4 - 1 = m + 3 from rfl,
      hs (m + 3) (by omega), show m + 3 - 1 = m + 2 from rfl, hs (m + 2) (by omega), show m + 2 - 1 = m + 1 from rfl,
      hs (m + 1) (by omega), show m + 1 - 1 = m from rfl, h0 m hm]
  have e : ∀ j : ℕ, m + 7 - 7 + j = m + j := fun j => by omega
  rw [key, Fin.sum_univ_eight, zero_add]
  simp only [e]
  rfl

end Cert.PayIdeal

end
-- ==== Proof.KIValue.lean ====
/-
  What the three kernels leave in their result arrays, on the extended reals.

  Each kernel computes a product of an 8192 x 4096 matrix with a masked 4096 x 4096 weight matrix on a grid of 8 x 4 x 8
  points, the last axis fastest: a point works on the 1024 x 1024 block (i, j) of the result and on step k of the contracted
  axis, reading the 1024 x 512 block (i, k) of the left matrix and the 512 x 1024 blocks (k, j) of the weights and of the
  mask. Over the 8 points of a run the accumulator gathers the 8 block products, and the last point of the run writes the
  block out. An entry (P, Q) of the result therefore holds the sum over the 8 steps kk of the sums over the 512 indices l of
  left (P, kk * 512 + l) * weight (kk * 512 + l, Q), which is the sum over all 4096 contracted indices: the entry of the
  product of the whole matrices. Every entry lies in exactly such a block, so the whole array is the product; the last
  kernel in addition scales it, adds the bias of the column and takes the maximum with zero.
-/
import proofs.«152980_j81037442940955_1_alg».proof.Proof.KIFrame
import proofs.«152980_j81037442940955_1_alg».proof.Proof.PayIdeal
import proofs.«152980_j81037442940955_1_alg».proof.Proof.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Two sums over the 512 indices of a block -/

/-- Entry (r, cc) of the product of a 1024 x 512 block with a masked 512 x 1024 block. -/
def bprod (A : (⟨2, ![1024, 512]⟩ : Shape).Idx → EReal) (B : (⟨2, ![512, 1024]⟩ : Shape).Idx → EReal)
    (M : (⟨2, ![512, 1024]⟩ : Shape).Idx → BitVec 32) (r cc : Fin 1024) : EReal :=
  ∑ l : Fin 512, A (ix2 r l) * (B (ix2 l cc) * (((M (ix2 l cc)).toInt : ℝ) : EReal))

/-- The part of entry (P, Q) of a product of whole matrices that comes from block kk of the contracted axis. -/
def rowcol (X : (⟨2, ![8192, 4096]⟩ : Shape).Idx → EReal) (W : (⟨2, ![4096, 4096]⟩ : Shape).Idx → EReal)
    (P : Fin 8192) (Q : Fin 4096) (kk : Fin 8) : EReal :=
  ∑ l : Fin 512, X (ix2 P (⟨kk.val * 512 + l.val, by omega⟩ : Fin 4096)) * W (ix2 (⟨kk.val * 512 + l.val, by omega⟩ : Fin 4096) Q)

/-! ## Kernel 0 -/

/-- The block indices of the windows at a point of the 8 x 4 x 8 grid, the last axis fastest: the row block is the point's
    number divided by 32, the column block its number divided by 8 modulo 4, the step along the contracted axis its number
    modulo 8, at each of the 256 points. -/
theorem idx_facts0 : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val % 8 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- An entry of the left block at a point is the left matrix's entry at the block's offset plus the entry's place. -/
theorem blk0_0 (c : Dev nD) (t : Fin cfg0.N) (r : Fin 1024) (l : Fin 512) (P : Fin 8192) (K : Fin 4096)
    (hP : P.val = t.val / 32 * 1024 + r.val) (hK : K.val = t.val % 8 * 512 + l.val) :
    iblk0 V c 0 t (ix2 r l) = V c main_arg0 (ix2 P K) := by
  obtain ⟨e0, e1, -⟩ := idx_facts0 t
  show V c main_arg0 (((cfg0.win 0).blk t).view.emb (ix2 r l)) = _
  refine congrArg (V c main_arg0) (funext fun a => Fin.ext ?_)
  match a with
  | ⟨0, _⟩ => show win0_0.index t (0 : Fin 2) * 1024 + 1 * r.val = P.val; omega
  | ⟨1, _⟩ => show win0_0.index t (1 : Fin 2) * 512 + 1 * l.val = K.val; omega

/-- The same for the weight block, -/
theorem blk0_1 (c : Dev nD) (t : Fin cfg0.N) (l : Fin 512) (cc : Fin 1024) (K Q : Fin 4096)
    (hK : K.val = t.val % 8 * 512 + l.val) (hQ : Q.val = t.val / 8 % 4 * 1024 + cc.val) :
    iblk0 V c 1 t (ix2 l cc) = V c main_arg1 (ix2 K Q) := by
  obtain ⟨-, -, e2, e3, -⟩ := idx_facts0 t
  show V c main_arg1 (((cfg0.win 1).blk t).view.emb (ix2 l cc)) = _
  refine congrArg (V c main_arg1) (funext fun a => Fin.ext ?_)
  match a with
  | ⟨0, _⟩ => show win0_1.index t (0 : Fin 2) * 512 + 1 * l.val = K.val; omega
  | ⟨1, _⟩ => show win0_1.index t (1 : Fin 2) * 1024 + 1 * cc.val = Q.val; omega

/-- and for the mask block. -/
theorem blk0_2 (c : Dev nD) (t : Fin cfg0.N) (l : Fin 512) (cc : Fin 1024) (K Q : Fin 4096)
    (hK : K.val = t.val % 8 * 512 + l.val) (hQ : Q.val = t.val / 8 % 4 * 1024 + cc.val) :
    iblk0 V c 2 t (ix2 l cc) = V c main_arg4 (ix2 K Q) := by
  obtain ⟨-, -, -, -, e4, e5, -⟩ := idx_facts0 t
  show V c main_arg4 (((cfg0.win 2).blk t).view.emb (ix2 l cc)) = _
  refine congrArg (V c main_arg4) (funext fun a => Fin.ext ?_)
  match a with
  | ⟨0, _⟩ => show win0_2.index t (0 : Fin 2) * 512 + 1 * l.val = K.val; omega
  | ⟨1, _⟩ => show win0_2.index t (1 : Fin 2) * 1024 + 1 * cc.val = Q.val; omega

/-- What one point adds to entry (r, cc) of the accumulator: the product of the point's left block and masked weight
    block at that entry (zero beyond the grid, so that the sequence is defined at every number). -/
def inc0 (c : Dev nD) (r cc : Fin 1024) (n : ℕ) : EReal :=
  if h : n < cfg0.N then bprod (iblk0 V c 0 ⟨n, h⟩) (iblk0 V c 1 ⟨n, h⟩) (iblk0 V c 2 ⟨n, h⟩) r cc else 0

/-- Entry (r, cc) of the accumulator after point `n` (zero beyond the grid). -/
def run0 (c : Dev nD) (r cc : Fin 1024) (n : ℕ) : EReal :=
  if h : n < cfg0.N then acc0 V c n h (ix2 r cc) else 0

theorem run0_first (c : Dev nD) (r cc : Fin 1024) (n : ℕ) (hn : n % 8 = 0) :
    run0 V c r cc n = 0 + inc0 V c r cc n := by
  unfold run0 inc0
  by_cases h : n < cfg0.N
  · rw [dif_pos h, dif_pos h]
    refine (congrFun (acc0_first V c ⟨n, h⟩ hn) (ix2 r cc)).trans ?_
    refine (Cert.PayIdeal.pay2_apply_k0 (iblk0 V c 0 ⟨n, h⟩) (iblk0 V c 1 ⟨n, h⟩) (iblk0 V c 2 ⟨n, h⟩) (k0_pay1 (F := Ideal)) r cc).trans ?_
    exact congrArg (· + bprod (iblk0 V c 0 ⟨n, h⟩) (iblk0 V c 1 ⟨n, h⟩) (iblk0 V c 2 ⟨n, h⟩) r cc) (Cert.PayIdeal.pay1_apply_k0 r cc)
  · rw [dif_neg h, dif_neg h, zero_add]

theorem run0_next (c : Dev nD) (r cc : Fin 1024) (n : ℕ) (hn : n % 8 ≠ 0) :
    run0 V c r cc n = run0 V c r cc (n - 1) + inc0 V c r cc n := by
  have hN : cfg0.N = 256 := N_0
  unfold run0 inc0
  by_cases h : n < cfg0.N
  · have h' : n - 1 < cfg0.N := Nat.lt_of_le_of_lt (Nat.sub_le _ _) h
    rw [dif_pos h, dif_pos h', dif_pos h]
    refine (congrFun (acc0_next V c ⟨n, h⟩ hn) (ix2 r cc)).trans ?_
    exact Cert.PayIdeal.pay2_apply_k0 (iblk0 V c 0 ⟨n, h⟩) (iblk0 V c 1 ⟨n, h⟩) (iblk0 V c 2 ⟨n, h⟩) (acc0 V c (n - 1) h') r cc
  · have h' : ¬n - 1 < cfg0.N := by omega
    rw [dif_neg h, dif_neg h', dif_neg h, add_zero]

/-- At the last step of a run of 8 the accumulator holds the sum of the run's 8 block products. -/
theorem acc0_at (c : Dev nD) (t : Fin cfg0.N) (ht : t.val % 8 = 7) (r cc : Fin 1024) :
    acc0 V c t.val t.isLt (ix2 r cc) = ∑ kk : Fin 8, inc0 V c r cc (t.val - 7 + kk.val) := by
  rw [← Cert.PayIdeal.acc_closed (inc0 V c r cc) (run0 V c r cc) (run0_first V c r cc) (run0_next V c r cc) t.val ht]
  unfold run0
  rw [dif_pos t.isLt]

/-- The block product of step kk of a run, in the entries of the whole matrices: rows and columns at the run's block
    offsets, the contracted index in block kk. -/
theorem inc0_at (c : Dev nD) (t : Fin cfg0.N) (ht : t.val % 8 = 7) (kk : Fin 8) (r cc : Fin 1024) (P : Fin 8192) (Q : Fin 4096)
    (hP : P.val = t.val / 32 * 1024 + r.val) (hQ : Q.val = t.val / 8 % 4 * 1024 + cc.val) :
    inc0 V c r cc (t.val - 7 + kk.val)
      = rowcol (V c main_arg0) (Cert.Spec.maskedW (V c main_arg1) (V c main_arg4)) P Q kk := by
  have hN : cfg0.N = 256 := N_0
  have htl : t.val < cfg0.N := t.isLt
  have h : t.val - 7 + kk.val < cfg0.N := by omega
  unfold inc0
  rw [dif_pos h]
  unfold bprod rowcol
  refine Finset.sum_congr rfl fun l _ => ?_
  rw [blk0_0 V c ⟨t.val - 7 + kk.val, h⟩ r l P ⟨kk.val * 512 + l.val, by omega⟩
      (by show P.val = (t.val - 7 + kk.val) / 32 * 1024 + r.val; omega)
      (by show kk.val * 512 + l.val = (t.val - 7 + kk.val) % 8 * 512 + l.val; omega),
    blk0_1 V c ⟨t.val - 7 + kk.val, h⟩ l cc ⟨kk.val * 512 + l.val, by omega⟩ Q
      (by show kk.val * 512 + l.val = (t.val - 7 + kk.val) % 8 * 512 + l.val; omega)
      (by show Q.val = (t.val - 7 + kk.val) / 8 % 4 * 1024 + cc.val; omega),
    blk0_2 V c ⟨t.val - 7 + kk.val, h⟩ l cc ⟨kk.val * 512 + l.val, by omega⟩ Q
      (by show kk.val * 512 + l.val = (t.val - 7 + kk.val) % 8 * 512 + l.val; omega)
      (by show Q.val = (t.val - 7 + kk.val) / 8 % 4 * 1024 + cc.val; omega)]
  rfl

/-- An index of the result array is in point `t`'s block iff each coordinate is in the block's range on its axis. -/
theorem mem_blk0 (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every entry of the result lies in the block of the last point of its run: row block R / 1024, column block C / 1024. -/
theorem cover0 (i : S8192x4096.Idx) : ∃ t : Fin cfg0.N, (cfg0.win 3).flush t = true ∧ i ∈ ((cfg0.win 3).blk t).view.set := by
  have hN : cfg0.N = 256 := N_0
  have h0 : (i 0).val < 8192 := (i 0).isLt
  have h1 : (i 1).val < 4096 := (i 1).isLt
  have hlt : ((i 0).val / 1024 * 4 + (i 1).val / 1024) * 8 + 7 < cfg0.N := by omega
  refine ⟨⟨((i 0).val / 1024 * 4 + (i 1).val / 1024) * 8 + 7, hlt⟩, (flush0_3 _).mpr (by show (((i 0).val / 1024 * 4 + (i 1).val / 1024) * 8 + 7) % 8 = 7; omega), ?_⟩
  obtain ⟨-, -, -, -, -, -, e6, e7⟩ := idx_facts0 ⟨((i 0).val / 1024 * 4 + (i 1).val / 1024) * 8 + 7, hlt⟩
  have e6' : win0_3.index ⟨((i 0).val / 1024 * 4 + (i 1).val / 1024) * 8 + 7, hlt⟩ (0 : Fin 2) = (((i 0).val / 1024 * 4 + (i 1).val / 1024) * 8 + 7) / 32 := e6
  have e7' : win0_3.index ⟨((i 0).val / 1024 * 4 + (i 1).val / 1024) * 8 + 7, hlt⟩ (1 : Fin 2) = (((i 0).val / 1024 * 4 + (i 1).val / 1024) * 8 + 7) / 8 % 4 := e7
  rw [mem_blk0]
  intro a
  match a with
  | ⟨0, _⟩ =>
    show win0_3.index _ (0 : Fin 2) * 1024 ≤ (i 0).val ∧ (i 0).val < win0_3.index _ (0 : Fin 2) * 1024 + 1024
    omega
  | ⟨1, _⟩ =>
    show win0_3.index _ (1 : Fin 2) * 1024 ≤ (i 1).val ∧ (i 1).val < win0_3.index _ (1 : Fin 2) * 1024 + 1024
    omega

/-- What a write-back point writes is its block of the product of the whole matrices. -/
theorem flushed0_eq (c : Dev nD) (t : Fin cfg0.N) (hf : (cfg0.win 3).flush t = true) :
    (dat0 V c).flushed 3 t = ((cfg0.win 3).blk t).view.read (Elt Ideal)
      (Cert.Spec.layer (V c main_arg0) (Cert.Spec.maskedW (V c main_arg1) (V c main_arg4))) := by
  have ht : t.val % 8 = 7 := (flush0_3 t).mp hf
  have hN : cfg0.N = 256 := N_0
  have htl : t.val < cfg0.N := t.isLt
  obtain ⟨-, -, -, -, -, -, e6, e7⟩ := idx_facts0 t
  funext j
  obtain ⟨r, cc, rfl⟩ : ∃ (r : Fin 1024) (cc : Fin 1024), j = ix2 r cc := ⟨j 0, j 1, eq_ix2 j⟩
  have hemb : ((cfg0.win 3).blk t).view.emb (ix2 r cc)
      = ix2 (⟨t.val / 32 * 1024 + r.val, by omega⟩ : Fin 8192) (⟨t.val / 8 % 4 * 1024 + cc.val, by omega⟩ : Fin 4096) :=
    funext fun a => Fin.ext (by
      match a with
      | ⟨0, _⟩ => show win0_3.index t (0 : Fin 2) * 1024 + 1 * r.val = t.val / 32 * 1024 + r.val; omega
      | ⟨1, _⟩ => show win0_3.index t (1 : Fin 2) * 1024 + 1 * cc.val = t.val / 8 % 4 * 1024 + cc.val; omega)
  show k0_pay3 (acc0 V c t.val t.isLt) (ix2 r cc)
    = Cert.Spec.layer (V c main_arg0) (Cert.Spec.maskedW (V c main_arg1) (V c main_arg4)) (((cfg0.win 3).blk t).view.emb (ix2 r cc))
  rw [hemb, Cert.Spec.layer_ix2, Cert.Spec.sum_blocks]
  refine (acc0_at V c t ht r cc).trans ?_
  refine Finset.sum_congr rfl fun kk _ => ?_
  exact inc0_at V c t ht kk r cc _ _ rfl rfl

/-- The result array of kernel 0 after its run: the product of its left matrix and its masked weight matrix. -/
theorem final0 (c : Dev nD) : (dat0 (F := Ideal) V c).arrAt 3 cfg0.N
    = Cert.Spec.layer (V c main_arg0) (Cert.Spec.maskedW (V c main_arg1) (V c main_arg4)) :=
  (dat0 V c).arrAt_eq_of_cover 3 _ (flushed0_eq V c) (cover0)

/-! ## Kernel 1 -/

/-- The block indices of the windows at a point of the 8 x 4 x 8 grid, the last axis fastest: the row block is the point's
    number divided by 32, the column block its number divided by 8 modulo 4, the step along the contracted axis its number
    modulo 8, at each of the 256 points. -/
theorem idx_facts1 : ∀ t : Fin cfg1.N,
    win1_0.index t (0 : Fin 2) = t.val / 32 ∧ win1_0.index t (1 : Fin 2) = t.val % 8
    ∧ win1_1.index t (0 : Fin 2) = t.val % 8 ∧ win1_1.index t (1 : Fin 2) = t.val / 8 % 4
    ∧ win1_2.index t (0 : Fin 2) = t.val % 8 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-- An entry of the left block at a point is the left matrix's entry at the block's offset plus the entry's place. -/
theorem blk1_0 (c : Dev nD) (t : Fin cfg1.N) (r : Fin 1024) (l : Fin 512) (P : Fin 8192) (K : Fin 4096)
    (hP : P.val = t.val / 32 * 1024 + r.val) (hK : K.val = t.val % 8 * 512 + l.val) :
    iblk1 V c 0 t (ix2 r l) = V c main_v0 (ix2 P K) := by
  obtain ⟨e0, e1, -⟩ := idx_facts1 t
  show V c main_v0 (((cfg1.win 0).blk t).view.emb (ix2 r l)) = _
  refine congrArg (V c main_v0) (funext fun a => Fin.ext ?_)
  match a with
  | ⟨0, _⟩ => show win1_0.index t (0 : Fin 2) * 1024 + 1 * r.val = P.val; omega
  | ⟨1, _⟩ => show win1_0.index t (1 : Fin 2) * 512 + 1 * l.val = K.val; omega

/-- The same for the weight block, -/
theorem blk1_1 (c : Dev nD) (t : Fin cfg1.N) (l : Fin 512) (cc : Fin 1024) (K Q : Fin 4096)
    (hK : K.val = t.val % 8 * 512 + l.val) (hQ : Q.val = t.val / 8 % 4 * 1024 + cc.val) :
    iblk1 V c 1 t (ix2 l cc) = V c main_arg2 (ix2 K Q) := by
  obtain ⟨-, -, e2, e3, -⟩ := idx_facts1 t
  show V c main_arg2 (((cfg1.win 1).blk t).view.emb (ix2 l cc)) = _
  refine congrArg (V c main_arg2) (funext fun a => Fin.ext ?_)
  match a with
  | ⟨0, _⟩ => show win1_1.index t (0 : Fin 2) * 512 + 1 * l.val = K.val; omega
  | ⟨1, _⟩ => show win1_1.index t (1 : Fin 2) * 1024 + 1 * cc.val = Q.val; omega

/-- and for the mask block. -/
theorem blk1_2 (c : Dev nD) (t : Fin cfg1.N) (l : Fin 512) (cc : Fin 1024) (K Q : Fin 4096)
    (hK : K.val = t.val % 8 * 512 + l.val) (hQ : Q.val = t.val / 8 % 4 * 1024 + cc.val) :
    iblk1 V c 2 t (ix2 l cc) = V c main_arg5 (ix2 K Q) := by
  obtain ⟨-, -, -, -, e4, e5, -⟩ := idx_facts1 t
  show V c main_arg5 (((cfg1.win 2).blk t).view.emb (ix2 l cc)) = _
  refine congrArg (V c main_arg5) (funext fun a => Fin.ext ?_)
  match a with
  | ⟨0, _⟩ => show win1_2.index t (0 : Fin 2) * 512 + 1 * l.val = K.val; omega
  | ⟨1, _⟩ => show win1_2.index t (1 : Fin 2) * 1024 + 1 * cc.val = Q.val; omega

/-- What one point adds to entry (r, cc) of the accumulator: the product of the point's left block and masked weight
    block at that entry (zero beyond the grid, so that the sequence is defined at every number). -/
def inc1 (c : Dev nD) (r cc : Fin 1024) (n : ℕ) : EReal :=
  if h : n < cfg1.N then bprod (iblk1 V c 0 ⟨n, h⟩) (iblk1 V c 1 ⟨n, h⟩) (iblk1 V c 2 ⟨n, h⟩) r cc else 0

/-- Entry (r, cc) of the accumulator after point `n` (zero beyond the grid). -/
def run1 (c : Dev nD) (r cc : Fin 1024) (n : ℕ) : EReal :=
  if h : n < cfg1.N then acc1 V c n h (ix2 r cc) else 0

theorem run1_first (c : Dev nD) (r cc : Fin 1024) (n : ℕ) (hn : n % 8 = 0) :
    run1 V c r cc n = 0 + inc1 V c r cc n := by
  unfold run1 inc1
  by_cases h : n < cfg1.N
  · rw [dif_pos h, dif_pos h]
    refine (congrFun (acc1_first V c ⟨n, h⟩ hn) (ix2 r cc)).trans ?_
    refine (Cert.PayIdeal.pay2_apply_k1 (iblk1 V c 0 ⟨n, h⟩) (iblk1 V c 1 ⟨n, h⟩) (iblk1 V c 2 ⟨n, h⟩) (k1_pay1 (F := Ideal)) r cc).trans ?_
    exact congrArg (· + bprod (iblk1 V c 0 ⟨n, h⟩) (iblk1 V c 1 ⟨n, h⟩) (iblk1 V c 2 ⟨n, h⟩) r cc) (Cert.PayIdeal.pay1_apply_k1 r cc)
  · rw [dif_neg h, dif_neg h, zero_add]

theorem run1_next (c : Dev nD) (r cc : Fin 1024) (n : ℕ) (hn : n % 8 ≠ 0) :
    run1 V c r cc n = run1 V c r cc (n - 1) + inc1 V c r cc n := by
  have hN : cfg1.N = 256 := N_1
  unfold run1 inc1
  by_cases h : n < cfg1.N
  · have h' : n - 1 < cfg1.N := Nat.lt_of_le_of_lt (Nat.sub_le _ _) h
    rw [dif_pos h, dif_pos h', dif_pos h]
    refine (congrFun (acc1_next V c ⟨n, h⟩ hn) (ix2 r cc)).trans ?_
    exact Cert.PayIdeal.pay2_apply_k1 (iblk1 V c 0 ⟨n, h⟩) (iblk1 V c 1 ⟨n, h⟩) (iblk1 V c 2 ⟨n, h⟩) (acc1 V c (n - 1) h') r cc
  · have h' : ¬n - 1 < cfg1.N := by omega
    rw [dif_neg h, dif_neg h', dif_neg h, add_zero]

/-- At the last step of a run of 8 the accumulator holds the sum of the run's 8 block products. -/
theorem acc1_at (c : Dev nD) (t : Fin cfg1.N) (ht : t.val % 8 = 7) (r cc : Fin 1024) :
    acc1 V c t.val t.isLt (ix2 r cc) = ∑ kk : Fin 8, inc1 V c r cc (t.val - 7 + kk.val) := by
  rw [← Cert.PayIdeal.acc_closed (inc1 V c r cc) (run1 V c r cc) (run1_first V c r cc) (run1_next V c r cc) t.val ht]
  unfold run1
  rw [dif_pos t.isLt]

/-- The block product of step kk of a run, in the entries of the whole matrices: rows and columns at the run's block
    offsets, the contracted index in block kk. -/
theorem inc1_at (c : Dev nD) (t : Fin cfg1.N) (ht : t.val % 8 = 7) (kk : Fin 8) (r cc : Fin 1024) (P : Fin 8192) (Q : Fin 4096)
    (hP : P.val = t.val / 32 * 1024 + r.val) (hQ : Q.val = t.val / 8 % 4 * 1024 + cc.val) :
    inc1 V c r cc (t.val - 7 + kk.val)
      = rowcol (V c main_v0) (Cert.Spec.maskedW (V c main_arg2) (V c main_arg5)) P Q kk := by
  have hN : cfg1.N = 256 := N_1
  have htl : t.val < cfg1.N := t.isLt
  have h : t.val - 7 + kk.val < cfg1.N := by omega
  unfold inc1
  rw [dif_pos h]
  unfold bprod rowcol
  refine Finset.sum_congr rfl fun l _ => ?_
  rw [blk1_0 V c ⟨t.val - 7 + kk.val, h⟩ r l P ⟨kk.val * 512 + l.val, by omega⟩
      (by show P.val = (t.val - 7 + kk.val) / 32 * 1024 + r.val; omega)
      (by show kk.val * 512 + l.val = (t.val - 7 + kk.val) % 8 * 512 + l.val; omega),
    blk1_1 V c ⟨t.val - 7 + kk.val, h⟩ l cc ⟨kk.val * 512 + l.val, by omega⟩ Q
      (by show kk.val * 512 + l.val = (t.val - 7 + kk.val) % 8 * 512 + l.val; omega)
      (by show Q.val = (t.val - 7 + kk.val) / 8 % 4 * 1024 + cc.val; omega),
    blk1_2 V c ⟨t.val - 7 + kk.val, h⟩ l cc ⟨kk.val * 512 + l.val, by omega⟩ Q
      (by show kk.val * 512 + l.val = (t.val - 7 + kk.val) % 8 * 512 + l.val; omega)
      (by show Q.val = (t.val - 7 + kk.val) / 8 % 4 * 1024 + cc.val; omega)]
  rfl

/-- An index of the result array is in point `t`'s block iff each coordinate is in the block's range on its axis. -/
theorem mem_blk1 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v1).slice (win1_3.rect t)).set ↔ _
  rw [View.set_slice_whole, Rect.mem_set_unit]
  exact Iff.rfl

/-- Every entry of the result lies in the block of the last point of its run: row block R / 1024, column block C / 1024. -/
theorem cover1 (i : S8192x4096.Idx) : ∃ t : Fin cfg1.N, (cfg1.win 3).flush t = true ∧ i ∈ ((cfg1.win 3).blk t).view.set := by
  have hN : cfg1.N = 256 := N_1
  have h0 : (i 0).val < 8192 := (i 0).isLt
  have h1 : (i 1).val < 4096 := (i 1).isLt
  have hlt : ((i 0).val / 1024 * 4 + (i 1).val / 1024) * 8 + 7 < cfg1.N := by omega
  refine ⟨⟨((i 0).val / 1024 * 4 + (i 1).val / 1024) * 8 + 7, hlt⟩, (flush1_3 _).mpr (by show (((i 0).val / 1024 * 4 + (i 1).val / 1024) * 8 + 7) % 8 = 7; omega), ?_⟩
  obtain ⟨-, -, -, -, -, -, e6, e7⟩ := idx_facts1 ⟨((i 0).val / 1024 * 4 + (i 1).val / 1024) * 8 + 7, hlt⟩
  have e6' : win1_3.index ⟨((i 0).val / 1024 * 4 + (i 1).val / 1024) * 8 + 7, hlt⟩ (0 : Fin 2) = (((i 0).val / 1024 * 4 + (i 1).val / 1024) * 8 + 7) / 32 := e6
  have e7' : win1_3.index ⟨((i 0).val / 1024 * 4 + (i 1).val / 1024) * 8 + 7, hlt⟩ (1 : Fin 2) = (((i 0).val / 1024 * 4 + (i 1).val / 1024) * 8 + 7) / 8 % 4 := e7
  rw [mem_blk1]
  intro a
  match a with
  | ⟨0, _⟩ =>
    show win1_3.index _ (0 : Fin 2) * 1024 ≤ (i 0).val ∧ (i 0).val < win1_3.index _ (0 : Fin 2) * 1024 + 1024
    omega
  | ⟨1, _⟩ =>
    show win1_3.index _ (1 : Fin 2) * 1024 ≤ (i 1).val ∧ (i 1).val < win1_3.index _ (1 : Fin 2) * 1024 + 1024
    omega

/-- What a write-back point writes is its block of the product of the whole matrices. -/
theorem flushed1_eq (c : Dev nD) (t : Fin cfg1.N) (hf : (cfg1.win 3).flush t = true) :
    (dat1 V c).flushed 3 t = ((cfg1.win 3).blk t).view.read (Elt Ideal)
      (Cert.Spec.layer (V c main_v0) (Cert.Spec.maskedW (V c main_arg2) (V c main_arg5))) := by
  have ht : t.val % 8 = 7 := (flush1_3 t).mp hf
  have hN : cfg1.N = 256 := N_1
  have htl : t.val < cfg1.N := t.isLt
  obtain ⟨-, -, -, -, -, -, e6, e7⟩ := idx_facts1 t
  funext j
  obtain ⟨r, cc, rfl⟩ : ∃ (r : Fin 1024) (cc : Fin 1024), j = ix2 r cc := ⟨j 0, j 1, eq_ix2 j⟩
  have hemb : ((cfg1.win 3).blk t).view.emb (ix2 r cc)
      = ix2 (⟨t.val / 32 * 1024 + r.val, by omega⟩ : Fin 8192) (⟨t.val / 8 % 4 * 1024 + cc.val, by omega⟩ : Fin 4096) :=
    funext fun a => Fin.ext (by
      match a with
      | ⟨0, _⟩ => show win1_3.index t (0 : Fin 2) * 1024 + 1 * r.val = t.val / 32 * 1024 + r.val; omega
      | ⟨1, _⟩ => show win1_3.index t (1 : Fin 2) * 1024 + 1 * cc.val = t.val / 8 % 4 * 1024 + cc.val; omega)
  show k1_pay3 (acc1 V c t.val t.isLt) (ix2 r cc)
    = Cert.Spec.layer (V c main_v0) (Cert.Spec.maskedW (V c main_arg2) (V c main_arg5)) (((cfg1.win 3).blk t).view.emb (ix2 r cc))
  rw [hemb, Cert.Spec.layer_ix2, Cert.Spec.sum_blocks]
  refine (acc1_at V c t ht r cc).trans ?_
  refine Finset.sum_congr rfl fun kk _ => ?_
  exact inc1_at V c t ht kk r cc _ _ rfl rfl

/-- The result array of kernel 1 after its run: the product of its left matrix and its masked weight matrix. -/
theorem final1 (c : Dev nD) : (dat1 (F := Ideal) V c).arrAt 3 cfg1.N
    = Cert.Spec.layer (V c main_v0) (Cert.Spec.maskedW (V c main_arg2) (V c main_arg5)) :=
  (dat1 V c).arrAt_eq_of_cover 3 _ (flushed1_eq V c) (cover1)

/-! ## Kernel 2 -/

/-- The block indices of the windows at a point of the 8 x 4 x 8 grid, the last axis fastest: the row block is the point's
    number divided by 32, the column block its number divided by 8 modulo 4, the step along the contracted axis its number
    modulo 8, at each of the 256 points. -/
theorem idx_facts2 : ∀ t : Fin cfg2.N,
    win2_0.index t (0 : Fin 2) = t.val / 32 ∧ win2_0.index t (1 : Fin 2) = t.val % 8
    ∧ win2_1.index t (0 : Fin 2) = t.val % 8 ∧ win2_1.index t (1 : Fin 2) = t.val / 8 % 4
    ∧ win2_2.index t (0 : Fin 2) = t.val % 8 ∧ win2_2.index t (1 : Fin 2) = t.val / 8 % 4
    ∧ win2_5.index t (0 : Fin 2) = t.val / 32 ∧ win2_5.index t (1 : Fin 2) = t.val / 8 % 4
    ∧ win2_3.index t (0 : Fin 2) = 0 ∧ win2_3.index t (1 : Fin 2) = t.val / 8 % 4
    ∧ win2_4.index t (0 : Fin 2) = 0 ∧ win2_4.index t (1 : Fin 2) = 0 :=
  (by decide +kernel : ∀ t : Fin grid2.N, _)

/-- An entry of the left block at a point is the left matrix's entry at the block's offset plus the entry's place. -/
theorem blk2_0 (c : Dev nD) (t : Fin cfg2.N) (r : Fin 1024) (l : Fin 512) (P : Fin 8192) (K : Fin 4096)
    (hP : P.val = t.val / 32 * 1024 + r.val) (hK : K.val = t.val % 8 * 512 + l.val) :
    iblk2 V c 0 t (ix2 r l) = V c main_v1 (ix2 P K) := by
  obtain ⟨e0, e1, -⟩ := idx_facts2 t
  show V c main_v1 (((cfg2.win 0).blk t).view.emb (ix2 r l)) = _
  refine congrArg (V c main_v1) (funext fun a => Fin.ext ?_)
  match a with
  | ⟨0, _⟩ => show win2_0.index t (0 : Fin 2) * 1024 + 1 * r.val = P.val; omega
  | ⟨1, _⟩ => show win2_0.index t (1 : Fin 2) * 512 + 1 * l.val = K.val; omega

/-- The same for the weight block, -/
theorem blk2_1 (c : Dev nD) (t : Fin cfg2.N) (l : Fin 512) (cc : Fin 1024) (K Q : Fin 4096)
    (hK : K.val = t.val % 8 * 512 + l.val) (hQ : Q.val = t.val / 8 % 4 * 1024 + cc.val) :
    iblk2 V c 1 t (ix2 l cc) = V c main_arg3 (ix2 K Q) := by
  obtain ⟨-, -, e2, e3, -⟩ := idx_facts2 t
  show V c main_arg3 (((cfg2.win 1).blk t).view.emb (ix2 l cc)) = _
  refine congrArg (V c main_arg3) (funext fun a => Fin.ext ?_)
  match a with
  | ⟨0, _⟩ => show win2_1.index t (0 : Fin 2) * 512 + 1 * l.val = K.val; omega
  | ⟨1, _⟩ => show win2_1.index t (1 : Fin 2) * 1024 + 1 * cc.val = Q.val; omega

/-- and for the mask block. -/
theorem blk2_2 (c : Dev nD) (t : Fin cfg2.N) (l : Fin 512) (cc : Fin 1024) (K Q : Fin 4096)
    (hK : K.val = t.val % 8 * 512 + l.val) (hQ : Q.val = t.val / 8 % 4 * 1024 + cc.val) :
    iblk2 V c 2 t (ix2 l cc) = V c main_arg6 (ix2 K Q) := by
  obtain ⟨-, -, -, -, e4, e5, -⟩ := idx_facts2 t
  show V c main_arg6 (((cfg2.win 2).blk t).view.emb (ix2 l cc)) = _
  refine congrArg (V c main_arg6) (funext fun a => Fin.ext ?_)
  match a with
  | ⟨0, _⟩ => show win2_2.index t (0 : Fin 2) * 512 + 1 * l.val = K.val; omega
  | ⟨1, _⟩ => show win2_2.index t (1 : Fin 2) * 1024 + 1 * cc.val = Q.val; omega

/-- What one point adds to entry (r, cc) of the accumulator: the product of the point's left block and masked weight
    block at that entry (zero beyond the grid, so that the sequence is defined at every number). -/
def inc2 (c : Dev nD) (r cc : Fin 1024) (n : ℕ) : EReal :=
  if h : n < cfg2.N then bprod (iblk2 V c 0 ⟨n, h⟩) (iblk2 V c 1 ⟨n, h⟩) (iblk2 V c 2 ⟨n, h⟩) r cc else 0

/-- Entry (r, cc) of the accumulator after point `n` (zero beyond the grid). -/
def run2 (c : Dev nD) (r cc : Fin 1024) (n : ℕ) : EReal :=
  if h : n < cfg2.N then acc2 V c n h (ix2 r cc) else 0

theorem run2_first (c : Dev nD) (r cc : Fin 1024) (n : ℕ) (hn : n % 8 = 0) :
    run2 V c r cc n = 0 + inc2 V c r cc n := by
  unfold run2 inc2
  by_cases h : n < cfg2.N
  · rw [dif_pos h, dif_pos h]
    refine (congrFun (acc2_first V c ⟨n, h⟩ hn) (ix2 r cc)).trans ?_
    refine (Cert.PayIdeal.pay2_apply_k2 (iblk2 V c 0 ⟨n, h⟩) (iblk2 V c 1 ⟨n, h⟩) (iblk2 V c 2 ⟨n, h⟩) (k2_pay1 (F := Ideal)) r cc).trans ?_
    exact congrArg (· + bprod (iblk2 V c 0 ⟨n, h⟩) (iblk2 V c 1 ⟨n, h⟩) (iblk2 V c 2 ⟨n, h⟩) r cc) (Cert.PayIdeal.pay1_apply_k2 r cc)
  · rw [dif_neg h, dif_neg h, zero_add]

theorem run2_next (c : Dev nD) (r cc : Fin 1024) (n : ℕ) (hn : n % 8 ≠ 0) :
    run2 V c r cc n = run2 V c r cc (n - 1) + inc2 V c r cc n := by
  have hN : cfg2.N = 256 := N_2
  unfold run2 inc2
  by_cases h : n < cfg2.N
  · have h' : n - 1 < cfg2.N := Nat.lt_of_le_of_lt (Nat.sub_le _ _) h
    rw [dif_pos h, dif_pos h', dif_pos h]
    refine (congrFun (acc2_next V c ⟨n, h⟩ hn) (ix2 r cc)).trans ?_
    exact Cert.PayIdeal.pay2_apply_k2 (iblk2 V c 0 ⟨n, h⟩) (iblk2 V c 1 ⟨n, h⟩) (iblk2 V c 2 ⟨n, h⟩) (acc2 V c (n - 1) h') r cc
  · have h' : ¬n - 1 < cfg2.N := by omega
    rw [dif_neg h, dif_neg h', dif_neg h, add_zero]

/-- At the last step of a run of 8 the accumulator holds the sum of the run's 8 block products. -/
theorem acc2_at (c : Dev nD) (t : Fin cfg2.N) (ht : t.val % 8 = 7) (r cc : Fin 1024) :
    acc2 V c t.val t.isLt (ix2 r cc) = ∑ kk : Fin 8, inc2 V c r cc (t.val - 7 + kk.val) := by
  rw [← Cert.PayIdeal.acc_closed (inc2 V c r cc) (run2 V c r cc) (run2_first V c r cc) (run2_next V c r cc) t.val ht]
  unfold run2
  rw [dif_pos t.isLt]

/-- The block product of step kk of a run, in the entries of the whole matrices: rows and columns at the run's block
    offsets, the contracted index in block kk. -/
theorem inc2_at (c : Dev nD) (t : Fin cfg2.N) (ht : t.val % 8 = 7) (kk : Fin 8) (r cc : Fin 1024) (P : Fin 8192) (Q : Fin 4096)
    (hP : P.val = t.val / 32 * 1024 + r.val) (hQ : Q.val = t.val / 8 % 4 * 1024 + cc.val) :
    inc2 V c r cc (t.val - 7 + kk.val)
      = rowcol (V c main_v1) (Cert.Spec.maskedW (V c main_arg3) (V c main_arg6)) P Q kk := by
  have hN : cfg2.N = 256 := N_2
  have htl : t.val < cfg2.N := t.isLt
  have h : t.val - 7 + kk.val < cfg2.N := by omega
  unfold inc2
  rw [dif_pos h]
  unfold bprod rowcol
  refine Finset.sum_congr rfl fun l _ => ?_
  rw [blk2_0 V c ⟨t.val - 7 + kk.val, h⟩ r l P ⟨kk.val * 512 + l.val, by omega⟩
      (by show P.val = (t.val - 7 + kk.val) / 32 * 1024 + r.val; omega)
      (by show kk.val * 512 + l.val = (t.val - 7 + kk.val) % 8 * 512 + l.val; omega),
    blk2_1 V c ⟨t.val - 7 + kk.val, h⟩ l cc ⟨kk.val * 512 + l.val, by omega⟩ Q
      (by show kk.val * 512 + l.val = (t.val - 7 + kk.val) % 8 * 512 + l.val; omega)
      (by show Q.val = (t.val - 7 + kk.val) / 8 % 4 * 1024 + cc.val; omega),
    blk2_2 V c ⟨t.val - 7 + kk.val, h⟩ l cc ⟨kk.val * 512 + l.val, by omega⟩ Q
      (by show kk.val * 512 + l.val = (t.val - 7 + kk.val) % 8 * 512 + l.val; omega)
      (by show Q.val = (t.val - 7 + kk.val) / 8 % 4 * 1024 + cc.val; omega)]
  rfl

/-- An index of the result array is in point `t`'s block iff each coordinate is in the block's range on its axis. -/
theorem mem_blk2 (t : Fin cfg2.N) (i : S8192x4096.Idx) :
    i ∈ ((cfg2.win 5).blk t).view.set ↔ ∀ a : Fin 2, win2_5.index t a * S1024x1024.size a ≤ (i a).val ∧ (i a).val < win2_5.index t a * S1024x1024.size a + S1024x1024.size a := by
  show i ∈ ((View.whole main_v4).slice (win2_5.rect t)).set ↔ _
  rw [View.set_slice_whole, Rect.mem_set_unit]
  exact Iff.rfl

/-- Every entry of the result lies in the block of the last point of its run: row block R / 1024, column block C / 1024. -/
theorem cover2 (i : S8192x4096.Idx) : ∃ t : Fin cfg2.N, (cfg2.win 5).flush t = true ∧ i ∈ ((cfg2.win 5).blk t).view.set := by
  have hN : cfg2.N = 256 := N_2
  have h0 : (i 0).val < 8192 := (i 0).isLt
  have h1 : (i 1).val < 4096 := (i 1).isLt
  have hlt : ((i 0).val / 1024 * 4 + (i 1).val / 1024) * 8 + 7 < cfg2.N := by omega
  refine ⟨⟨((i 0).val / 1024 * 4 + (i 1).val / 1024) * 8 + 7, hlt⟩, (flush2_5 _).mpr (by show (((i 0).val / 1024 * 4 + (i 1).val / 1024) * 8 + 7) % 8 = 7; omega), ?_⟩
  obtain ⟨-, -, -, -, -, -, e6, e7, -⟩ := idx_facts2 ⟨((i 0).val / 1024 * 4 + (i 1).val / 1024) * 8 + 7, hlt⟩
  have e6' : win2_5.index ⟨((i 0).val / 1024 * 4 + (i 1).val / 1024) * 8 + 7, hlt⟩ (0 : Fin 2) = (((i 0).val / 1024 * 4 + (i 1).val / 1024) * 8 + 7) / 32 := e6
  have e7' : win2_5.index ⟨((i 0).val / 1024 * 4 + (i 1).val / 1024) * 8 + 7, hlt⟩ (1 : Fin 2) = (((i 0).val / 1024 * 4 + (i 1).val / 1024) * 8 + 7) / 8 % 4 := e7
  rw [mem_blk2]
  intro a
  match a with
  | ⟨0, _⟩ =>
    show win2_5.index _ (0 : Fin 2) * 1024 ≤ (i 0).val ∧ (i 0).val < win2_5.index _ (0 : Fin 2) * 1024 + 1024
    omega
  | ⟨1, _⟩ =>
    show win2_5.index _ (1 : Fin 2) * 1024 ≤ (i 1).val ∧ (i 1).val < win2_5.index _ (1 : Fin 2) * 1024 + 1024
    omega

/-! ## The last kernel's output: scaled, shifted by the bias, cut off below at zero -/

/-- Scale by the one scaling entry, add the bias of the column, take the maximum with zero. -/
def epi (s : (⟨2, ![1, 1]⟩ : Shape).Idx → EReal) (b : (⟨2, ![1, 4096]⟩ : Shape).Idx → EReal)
    (Y : (⟨2, ![8192, 4096]⟩ : Shape).Idx → EReal) : (⟨2, ![8192, 4096]⟩ : Shape).Idx → EReal :=
  fun i => max (s (ix2 (0 : Fin 1) (0 : Fin 1)) * Y i + b (ix2 (n0 := 1) (n1 := 4096) (0 : Fin 1) (i 1))) 0

theorem epi_ix2 (s : (⟨2, ![1, 1]⟩ : Shape).Idx → EReal) (b : (⟨2, ![1, 4096]⟩ : Shape).Idx → EReal)
    (Y : (⟨2, ![8192, 4096]⟩ : Shape).Idx → EReal) (p : Fin 8192) (q : Fin 4096) :
    epi s b Y (ix2 p q) = max (s (ix2 (0 : Fin 1) (0 : Fin 1)) * Y (ix2 p q) + b (ix2 (0 : Fin 1) q)) 0 := rfl

/-- What a write-back point of the last kernel writes is its block of the scaled, shifted and cut-off product. -/
theorem flushed2_eq (c : Dev nD) (t : Fin cfg2.N) (hf : (cfg2.win 5).flush t = true) :
    (dat2 V c).flushed 5 t = ((cfg2.win 5).blk t).view.read (Elt Ideal)
      (epi (V c main_v3) (V c main_v2) (Cert.Spec.layer (V c main_v1) (Cert.Spec.maskedW (V c main_arg3) (V c main_arg6)))) := by
  have ht : t.val % 8 = 7 := (flush2_5 t).mp hf
  have hN : cfg2.N = 256 := N_2
  have htl : t.val < cfg2.N := t.isLt
  obtain ⟨-, -, -, -, -, -, e6, e7, e8, e9, e10, e11⟩ := idx_facts2 t
  funext j
  obtain ⟨r, cc, rfl⟩ : ∃ (r : Fin 1024) (cc : Fin 1024), j = ix2 r cc := ⟨j 0, j 1, eq_ix2 j⟩
  have hemb : ((cfg2.win 5).blk t).view.emb (ix2 r cc)
      = ix2 (⟨t.val / 32 * 1024 + r.val, by omega⟩ : Fin 8192) (⟨t.val / 8 % 4 * 1024 + cc.val, by omega⟩ : Fin 4096) :=
    funext fun a => Fin.ext (by
      match a with
      | ⟨0, _⟩ => show win2_5.index t (0 : Fin 2) * 1024 + 1 * r.val = t.val / 32 * 1024 + r.val; omega
      | ⟨1, _⟩ => show win2_5.index t (1 : Fin 2) * 1024 + 1 * cc.val = t.val / 8 % 4 * 1024 + cc.val; omega)
  have es : iblk2 V c 4 t (ix2 (0 : Fin 1) (0 : Fin 1)) = V c main_v3 (ix2 (0 : Fin 1) (0 : Fin 1)) := by
    show V c main_v3 (((cfg2.win 4).blk t).view.emb (ix2 (0 : Fin 1) (0 : Fin 1))) = _
    refine congrArg (V c main_v3) (funext fun a => Fin.ext ?_)
    match a with
    | ⟨0, _⟩ => show win2_4.index t (0 : Fin 2) * 1 + 1 * 0 = 0; omega
    | ⟨1, _⟩ => show win2_4.index t (1 : Fin 2) * 1 + 1 * 0 = 0; omega
  have eb : iblk2 V c 3 t (ix2 (0 : Fin 1) cc)
      = V c main_v2 (ix2 (0 : Fin 1) (⟨t.val / 8 % 4 * 1024 + cc.val, by omega⟩ : Fin 4096)) := by
    show V c main_v2 (((cfg2.win 3).blk t).view.emb (ix2 (0 : Fin 1) cc)) = _
    refine congrArg (V c main_v2) (funext fun a => Fin.ext ?_)
    match a with
    | ⟨0, _⟩ => show win2_3.index t (0 : Fin 2) * 1 + 1 * 0 = 0; omega
    | ⟨1, _⟩ => show win2_3.index t (1 : Fin 2) * 1024 + 1 * cc.val = t.val / 8 % 4 * 1024 + cc.val; omega
  have ea := (acc2_at V c t ht r cc).trans (Finset.sum_congr rfl fun kk _ =>
    inc2_at V c t ht kk r cc (⟨t.val / 32 * 1024 + r.val, by omega⟩ : Fin 8192) (⟨t.val / 8 % 4 * 1024 + cc.val, by omega⟩ : Fin 4096) rfl rfl)
  show k2_pay3 (acc2 V c t.val t.isLt) (iblk2 V c 4 t) (iblk2 V c 3 t) (ix2 r cc)
    = epi (V c main_v3) (V c main_v2) (Cert.Spec.layer (V c main_v1) (Cert.Spec.maskedW (V c main_arg3) (V c main_arg6)))
        (((cfg2.win 5).blk t).view.emb (ix2 r cc))
  rw [hemb, epi_ix2, Cert.Spec.layer_ix2, Cert.Spec.sum_blocks]
  refine (Cert.PayIdeal.pay3_apply_k2 (acc2 V c t.val t.isLt) (iblk2 V c 4 t) (iblk2 V c 3 t) r cc).trans ?_
  rw [es, eb, ea]
  rfl

/-- The result array of the last kernel after its run. -/
theorem final2 (c : Dev nD) : (dat2 (F := Ideal) V c).arrAt 5 cfg2.N
    = epi (V c main_v3) (V c main_v2) (Cert.Spec.layer (V c main_v1) (Cert.Spec.maskedW (V c main_arg3) (V c main_arg6))) :=
  (dat2 V c).arrAt_eq_of_cover 5 _ (flushed2_eq V c) (cover2)

end Cert.KernelIdeal.Val

end
-- ==== Proof.KIResult.lean ====
/-
  The three kernels chained.

  Kernel 0 leaves X * W0 in its result array; kernel 1, entered with that array, leaves (X * W0) * W1; kernel 2, entered with
  that one, the reshaped bias and the reshaped scaling, leaves max (s * ((X * W0) * W1) * W2 + b, 0): the specification's
  function of the launch contents of the nine arguments.
-/
import proofs.«152980_j81037442940955_1_alg».proof.Proof.KIRun
import proofs.«152980_j81037442940955_1_alg».proof.Proof.KIAsm
import proofs.«152980_j81037442940955_1_alg».proof.Proof.KIValue
import proofs.«152980_j81037442940955_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Asm

open Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! # The three kernels chained: what the last output array holds, as one function of the launch contents -/

/-- After kernel 0 its output array holds the first masked product. -/
theorem v0_eq (c : Dev nD) : Wa1 (F := Ideal) m ρ c (Proc.devRef .tc main_v0)
    = Cert.Spec.layer (m ((c : Thread nD τ).loc main_arg0)) (Cert.Spec.maskedW (m ((c : Thread nD τ).loc main_arg1)) (m ((c : Thread nD τ).loc main_arg4))) :=
  (Wa1_arr m ρ c 3).trans (final0 (Va0 m ρ) c)

/-- Kernel 2 finds, in kernel 1's output array, the second masked product of the first. -/
theorem v1_eq (c : Dev nD) : Wa3 (F := Ideal) m ρ c (Proc.devRef .tc main_v1)
    = Cert.Spec.layer (Cert.Spec.layer (m ((c : Thread nD τ).loc main_arg0)) (Cert.Spec.maskedW (m ((c : Thread nD τ).loc main_arg1)) (m ((c : Thread nD τ).loc main_arg4))))
        (Cert.Spec.maskedW (m ((c : Thread nD τ).loc main_arg2)) (m ((c : Thread nD τ).loc main_arg5))) := by
  refine (Wa3_of m ρ c main_v1 (by decide)).trans ((Wa2_arr m ρ c 3).trans ((final1 (Va1 m ρ) c).trans ?_))
  dsimp only [Va1]
  rw [v0_eq m ρ c, keep1_main_arg2 m ρ c, keep1_main_arg5 m ρ c]

/-- The result array after the run is the specification's function of the launch contents: three masked products, the
    scaling, the bias along the rows, the maximum with zero. -/
theorem result_eq (c : Dev nD) : Wa4 (F := Ideal) m ρ c (Proc.devRef .tc main_v4)
    = Cert.Spec.G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)) := by
  refine (Wa4_arr m ρ c 5).trans ((final2 (Va3 m ρ) c).trans ?_)
  funext i
  obtain ⟨p, q, rfl⟩ : ∃ (p : Fin 8192) (q : Fin 4096), i = ix2 p q := ⟨i 0, i 1, eq_ix2 i⟩
  rw [epi_ix2, Cert.Spec.G_ix2_zero]
  dsimp only [Va3]
  rw [scaling_one m ρ c, bias_row m ρ c q, v1_eq m ρ c, keep3_main_arg3 m ρ c, keep3_main_arg6 m ρ c]

end Cert.KernelIdeal.Asm

end
-- ==== Proof.RefG.lean ====
/-
  The reference program computes the specification's function.

  The reference is three whole matrix products, each read at an entry (p, q) as the sum over the contracted index k of
  left (p, k) * right (k, q), with each right factor the entrywise product of a weight matrix and its converted mask; then
  the product with the broadcast scaling entry, the sum with the bias broadcast along the rows, and the maximum with the
  broadcast zero. Read at an entry, stage by stage, this is the function `Spec.G`: the only work is to identify the index
  each stage reads its operands at with the pair of coordinates the specification names.
-/
import proofs.«152980_j81037442940955_1_alg».proof.Proof.Gen.ReferenceIdeal.Read
import proofs.«152980_j81037442940955_1_alg».proof.Proof.Spec

noncomputable section

namespace Cert.RefG

open Idealize.ShloMosaic Idealize.ShloMosaic.ValueIdx Cert.ReferenceIdeal Cert.ReferenceIdeal.Read
open scoped BigOperators

/-! ## Where each stage reads its operands -/

/-- The left operand of a product is read at row p, column k. -/
theorem lidx2 (p : Fin 8192) (q k : Fin 4096) : lidx_main_v2 (ix2 p q) k = ix2 p k :=
  funext fun a => Fin.ext (by match a with | ⟨0, _⟩ => rfl | ⟨1, _⟩ => rfl)
/-- The right operand of a product is read at row k, column q. -/
theorem ridx2 (p : Fin 8192) (q k : Fin 4096) : ridx_main_v2 (ix2 p q) k = ix2 k q :=
  funext fun a => Fin.ext (by match a with | ⟨0, _⟩ => rfl | ⟨1, _⟩ => rfl)
theorem lidx5 (p : Fin 8192) (q k : Fin 4096) : lidx_main_v5 (ix2 p q) k = ix2 p k :=
  funext fun a => Fin.ext (by match a with | ⟨0, _⟩ => rfl | ⟨1, _⟩ => rfl)
theorem ridx5 (p : Fin 8192) (q k : Fin 4096) : ridx_main_v5 (ix2 p q) k = ix2 k q :=
  funext fun a => Fin.ext (by match a with | ⟨0, _⟩ => rfl | ⟨1, _⟩ => rfl)
theorem lidx8 (p : Fin 8192) (q k : Fin 4096) : lidx_main_v8 (ix2 p q) k = ix2 p k :=
  funext fun a => Fin.ext (by match a with | ⟨0, _⟩ => rfl | ⟨1, _⟩ => rfl)
theorem ridx8 (p : Fin 8192) (q k : Fin 4096) : ridx_main_v8 (ix2 p q) k = ix2 k q :=
  funext fun a => Fin.ext (by match a with | ⟨0, _⟩ => rfl | ⟨1, _⟩ => rfl)

/-- The scaling, broadcast to the whole result, is read at its one entry. -/
theorem sidx (i : S8192x4096.Idx) : idx_main_v9 (idx_main_v10 i) = ix1 (0 : Fin 1) :=
  funext fun a => Fin.ext (by match a with | ⟨0, _⟩ => rfl)
/-- The bias, broadcast along the rows, is read at the entry's column. -/
theorem bidx (p : Fin 8192) (q : Fin 4096) : idx_main_v12 (idx_main_v13 (ix2 p q)) = ix1 q :=
  funext fun a => Fin.ext (by match a with | ⟨0, _⟩ => rfl)

/-! ## The masked weights and the three products -/

theorem masked1 (x1 : (⟨S4096x4096, .f32⟩ : BufTy).Contents (Elt Ideal)) (x4 : (⟨S4096x4096, .i32⟩ : BufTy).Contents (Elt Ideal)) :
    val_main_v1 (F := Ideal) x1 x4 = Spec.maskedW x1 x4 := rfl
theorem masked4 (x2 : (⟨S4096x4096, .f32⟩ : BufTy).Contents (Elt Ideal)) (x5 : (⟨S4096x4096, .i32⟩ : BufTy).Contents (Elt Ideal)) :
    val_main_v4 (F := Ideal) x2 x5 = Spec.maskedW x2 x5 := rfl
theorem masked7 (x3 : (⟨S4096x4096, .f32⟩ : BufTy).Contents (Elt Ideal)) (x6 : (⟨S4096x4096, .i32⟩ : BufTy).Contents (Elt Ideal)) :
    val_main_v7 (F := Ideal) x3 x6 = Spec.maskedW x3 x6 := rfl

/-- The first product: X times the first masked weight matrix. -/
theorem dot2 (x0 : (⟨S8192x4096, .f32⟩ : BufTy).Contents (Elt Ideal)) (x1 : (⟨S4096x4096, .f32⟩ : BufTy).Contents (Elt Ideal))
    (x4 : (⟨S4096x4096, .i32⟩ : BufTy).Contents (Elt Ideal)) :
    val_main_v2 (F := Ideal) x0 x1 x4 = Spec.layer x0 (Spec.maskedW x1 x4) := by
  funext i
  obtain ⟨p, q, rfl⟩ : ∃ (p : Fin 8192) (q : Fin 4096), i = ix2 p q := ⟨i 0, i 1, eq_ix2 i⟩
  rw [val_main_v2_apply, masked1, Spec.layer_ix2]
  refine Finset.sum_congr rfl fun k _ => ?_
  rw [lidx2, ridx2]

/-- The second product: the first product times the second masked weight matrix. -/
theorem dot5 (x0 : (⟨S8192x4096, .f32⟩ : BufTy).Contents (Elt Ideal)) (x1 x2 : (⟨S4096x4096, .f32⟩ : BufTy).Contents (Elt Ideal))
    (x4 x5 : (⟨S4096x4096, .i32⟩ : BufTy).Contents (Elt Ideal)) :
    val_main_v5 (F := Ideal) x0 x1 x2 x4 x5 = Spec.layer (Spec.layer x0 (Spec.maskedW x1 x4)) (Spec.maskedW x2 x5) := by
  funext i
  obtain ⟨p, q, rfl⟩ : ∃ (p : Fin 8192) (q : Fin 4096), i = ix2 p q := ⟨i 0, i 1, eq_ix2 i⟩
  rw [val_main_v5_apply, dot2, masked4, Spec.layer_ix2]
  refine Finset.sum_congr rfl fun k _ => ?_
  rw [lidx5, ridx5]

/-- The third product: the second product times the third masked weight matrix. -/
theorem dot8 (x0 : (⟨S8192x4096, .f32⟩ : BufTy).Contents (Elt Ideal)) (x1 x2 x3 : (⟨S4096x4096, .f32⟩ : BufTy).Contents (Elt Ideal))
    (x4 x5 x6 : (⟨S4096x4096, .i32⟩ : BufTy).Contents (Elt Ideal)) :
    val_main_v8 (F := Ideal) x0 x1 x2 x3 x4 x5 x6
      = Spec.layer (Spec.layer (Spec.layer x0 (Spec.maskedW x1 x4)) (Spec.maskedW x2 x5)) (Spec.maskedW x3 x6) := by
  funext i
  obtain ⟨p, q, rfl⟩ : ∃ (p : Fin 8192) (q : Fin 4096), i = ix2 p q := ⟨i 0, i 1, eq_ix2 i⟩
  rw [val_main_v8_apply, dot5, masked7, Spec.layer_ix2]
  refine Finset.sum_congr rfl fun k _ => ?_
  rw [lidx8, ridx8]

/-! ## The whole reference -/

/-- The reference's result, as a function of its nine arguments, is the specification's `G`. -/
theorem ref_eq_G (x0 : (⟨S8192x4096, .f32⟩ : BufTy).Contents (Elt Ideal)) (x1 x2 x3 : (⟨S4096x4096, .f32⟩ : BufTy).Contents (Elt Ideal))
    (x4 x5 x6 : (⟨S4096x4096, .i32⟩ : BufTy).Contents (Elt Ideal)) (x7 : (⟨S1, .f32⟩ : BufTy).Contents (Elt Ideal))
    (x8 : (⟨S4096, .f32⟩ : BufTy).Contents (Elt Ideal)) :
    Cert.ReferenceIdeal.Read.val_main_v15 (F := Ideal) x0 x1 x2 x3 x4 x5 x6 x7 x8 = Cert.Spec.G x0 x1 x2 x3 x4 x5 x6 x7 x8 := by
  funext i
  obtain ⟨p, q, rfl⟩ : ∃ (p : Fin 8192) (q : Fin 4096), i = ix2 p q := ⟨i 0, i 1, eq_ix2 i⟩
  rw [val_main_v15_apply, val_main_v14_apply, val_main_v11_apply, val_main_v10_apply, val_main_v9_apply,
    val_main_v13_apply, val_main_v12_apply, val_main_call0_v0_apply, val_main_call0_cst_apply, dot8, sidx, bidx,
    Spec.G_ix2]
  rfl

end Cert.RefG

end
-- ==== Proof.lean ====
/- The proof of `Cert.Claim` for three chained masked matrix products with a scale, a bias and a cut-off at zero.

   The kernel computes relu(s · ((X·W0)·W1)·W2 + b) with Wn = Kn ∘ Mn (the weights times the integer mask, entry by entry) in
   three block-accumulating matrix-product kernels: each output block (1024 × 1024) is accumulated in a scratch buffer
   over the eight 512-wide blocks of the contracted axis — zeroed at the first block, added to at every block, written
   out (the last kernel: scaled, shifted by the bias row and cut off at zero first) at the last. The reference computes
   the same with three whole matrix products.

   * The frames of the two kernel programs: each kernel body runs, at every grid point, in one of three cases (first,
     middle, last block of the contracted axis); the accumulator's contents after each point are carried in the region's
     invariant; the three regions and the two host reshapes between them are chained from the launch memory to the
     return, and no argument array is written on the way.
   * The values at the extended reals: a change of float format is the identity, a sum over 4096 indices is the sum of
     its eight runs of 512 in any grouping, so each kernel's output array is the whole masked product of its input
     array, and the last one's is the specification `Cert.Spec.G`; the reference's composed term is the same function. -/
import proofs.«152980_j81037442940955_1_alg».proof.Defs
import proofs.«152980_j81037442940955_1_alg».proof.Proof.Gen.Kernel
import proofs.«152980_j81037442940955_1_alg».proof.Proof.Gen.KernelIdeal
import proofs.«152980_j81037442940955_1_alg».proof.Proof.Gen.ReferenceIdeal
import proofs.«152980_j81037442940955_1_alg».proof.Proof.Gen.Pre_finite_inputs
import proofs.«152980_j81037442940955_1_alg».proof.Proof.Gen.ReferenceIdeal.Run
import proofs.«152980_j81037442940955_1_alg».proof.Proof.Gen.ReferenceIdeal.Read
import proofs.«152980_j81037442940955_1_alg».proof.Proof.KRun
import proofs.«152980_j81037442940955_1_alg».proof.Proof.KIRun
import proofs.«152980_j81037442940955_1_alg».proof.Proof.KIResult
import proofs.«152980_j81037442940955_1_alg».proof.Proof.RefG
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Fr.frame (F := Bits) m ρ

/-- So does its reading at the extended reals. -/
theorem frame_kernelIdeal : Cert.frame_KernelIdeal := fun m ρ _ => Cert.KernelIdeal.Fr.frame (F := Ideal) m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the specification's function of the arguments. -/
theorem algebraic : Cert.algebraic_KernelIdeal_ReferenceIdeal := by
  intro m ρ m' ρ' _ hagree
  refine ⟨fun c => Cert.KernelIdeal.Fr.Wa4 (F := Ideal) m ρ c (Proc.devRef .tc Cert.KernelIdeal.main_v4), ?_, ?_⟩
  · exact (θ_run Cert.KernelIdeal.defs _ _).mono (fun _ h c => ⟨h c _ (Cert.KernelIdeal.Fr.mem_uc Cert.KernelIdeal.main_v4 (by decide)),
      (h c _ (Cert.KernelIdeal.Fr.mem_uc Cert.KernelIdeal.main_arg0 (by decide))).trans (Cert.KernelIdeal.Fr.Wa4_main_arg0 m ρ c),
      (h c _ (Cert.KernelIdeal.Fr.mem_uc Cert.KernelIdeal.main_arg1 (by decide))).trans (Cert.KernelIdeal.Fr.Wa4_main_arg1 m ρ c),
      (h c _ (Cert.KernelIdeal.Fr.mem_uc Cert.KernelIdeal.main_arg2 (by decide))).trans (Cert.KernelIdeal.Fr.Wa4_main_arg2 m ρ c),
      (h c _ (Cert.KernelIdeal.Fr.mem_uc Cert.KernelIdeal.main_arg3 (by decide))).trans (Cert.KernelIdeal.Fr.Wa4_main_arg3 m ρ c),
      (h c _ (Cert.KernelIdeal.Fr.mem_uc Cert.KernelIdeal.main_arg4 (by decide))).trans (Cert.KernelIdeal.Fr.Wa4_main_arg4 m ρ c),
      (h c _ (Cert.KernelIdeal.Fr.mem_uc Cert.KernelIdeal.main_arg5 (by decide))).trans (Cert.KernelIdeal.Fr.Wa4_main_arg5 m ρ c),
      (h c _ (Cert.KernelIdeal.Fr.mem_uc Cert.KernelIdeal.main_arg6 (by decide))).trans (Cert.KernelIdeal.Fr.Wa4_main_arg6 m ρ c),
      (h c _ (Cert.KernelIdeal.Fr.mem_uc Cert.KernelIdeal.main_arg7 (by decide))).trans (Cert.KernelIdeal.Fr.Wa4_main_arg7 m ρ c),
      (h c _ (Cert.KernelIdeal.Fr.mem_uc Cert.KernelIdeal.main_arg8 (by decide))).trans (Cert.KernelIdeal.Fr.Wa4_main_arg8 m ρ c)⟩)
      (Cert.KernelIdeal.Fr.run_all (F := Ideal) m ρ)
  · refine (θ_run Cert.ReferenceIdeal.defs _ _).mono (fun _ h c => ⟨?_, (h c).2⟩) (Cert.ReferenceIdeal.Value.run (F := Ideal) m' ρ')
    refine ((h c).1.trans ?_).trans (Cert.KernelIdeal.Asm.result_eq m ρ c).symm
    rw [Cert.ReferenceIdeal.Read.val_main_v15_eq, Cert.RefG.ref_eq_G,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
